-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x8x8 : Shape := ⟨4, ![1024, 128, 8, 8]⟩
abbrev S32x128x3x3 : Shape := ⟨4, ![32, 128, 3, 3]⟩
abbrev S32 : Shape := ⟨1, ![32]⟩
abbrev S64x512 : Shape := ⟨2, ![64, 512]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x128x8x8 : S_.BroadcastsInDim S1024x128x8x8 (![] : Fin 0 → Fin S1024x128x8x8.rank)
  reducesTo_S1024x128x8x8_S_d0_1_2_3 : S1024x128x8x8.ReducesTo [0, 1, 2, 3] S_
  h_S_ : 0 < S_.numel
  bcast_S_S32x128x3x3 : S_.BroadcastsInDim S32x128x3x3 (![] : Fin 0 → Fin S32x128x3x3.rank)
  reducesTo_S32x128x3x3_S_d0_1_2_3 : S32x128x3x3.ReducesTo [0, 1, 2, 3] S_
  bcast_S_S32 : S_.BroadcastsInDim S32 (![] : Fin 0 → Fin S32.rank)
  reducesTo_S32_S_d0 : S32.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x64 .f32) (main_arg8 : FVec F S1 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S64x512 .f32) (main_arg6 : FVec F S64 .f32) (main_arg7 : FVec F S1x64 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1024x128x8x8 .f32) (main_arg1 : FVec F S32x128x3x3 .f32) (main_arg2 : FVec F S32 .f32) (main_arg3 : FVec F S32 .f32) (main_arg4 : FVec F S32 .f32) (main_arg5 : FVec F S64x512 .f32) (main_arg6 : FVec F S64 .f32) (main_arg7 : FVec F S1x64 .f32) (main_arg8 : FVec F S1 .f32) : IVec S_ 1 :=
  let main_v0 : FVec F S1024x128x8x8 .f32 := Host.absf main_arg0
  let main_cst : FVec F S_ .f32 := constant S_ .f32 0x7F800000#32
  let main_v1 : FVec F S1024x128x8x8 .f32 := broadcastInDim S1024x128x8x8 ![] bcast_S_S1024x128x8x8 main_cst
  let main_v2 : IVec S1024x128x8x8 1 := cmpf .olt main_v0 main_v1
  let main_c : IVec S_ 1 := constantI S_ 1 1#1
  let main_v3 : IVec S_ 1 := (fun x v => Host.reduce IntOp.andi x v reducesTo_S1024x128x8x8_S_d0_1_2_3 h_S_) main_v2 main_c
  let main_v4 : FVec F S32x128x3x3 .f32 := Host.absf main_arg1
  let main_cst_0 : FVec F S_ .f32 := constant S_ .f32 0x7F800000#32
  let main_v5 : FVec F S32x128x3x3 .f32 := broadcastInDim S32x128x3x3 ![] bcast_S_S32x128x3x3 main_cst_0
  let main_v6 : IVec S32x128x3x3 1 := cmpf .olt main_v4 main_v5
  let main_c_1 : IVec S_ 1 := constantI S_ 1 1#1
  let main_v7 : IVec S_ 1 := (fun x v => Host.reduce IntOp.andi x v reducesTo_S32x128x3x3_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_v13 main_v16
-- ==== Kernel.lean ====
abbrev S1024x128x8x8 : Shape := ⟨4, ![1024, 128, 8, 8]⟩
abbrev S32x128x3x3 : Shape := ⟨4, ![32, 128, 3, 3]⟩
abbrev S32 : Shape := ⟨1, ![32]⟩
abbrev S64x512 : Shape := ⟨2, ![64, 512]⟩
abbrev S64 : Shape := ⟨1, ![64]⟩
abbrev S1x64 : Shape := ⟨2, ![1, 64]⟩
abbrev S1 : Shape := ⟨1, ![1]⟩
abbrev S1024x8x8x128 : Shape := ⟨4, ![1024, 8, 8, 128]⟩
abbrev S_ : Shape := ⟨0, ![]⟩
abbrev S1024x10x10x128 : Shape := ⟨4, ![1024, 10, 10, 128]⟩
abbrev S3x3x128x32 : Shape := ⟨4, ![3, 3, 128, 32]⟩
abbrev S9x128x32 : Shape := ⟨3, ![9, 128, 32]⟩
abbrev S8x128x32 : Shape := ⟨3, ![8, 128, 32]⟩
abbrev S4x256x32 : Shape := ⟨3, ![4, 256, 32]⟩
abbrev S1x128x32 : Shape := ⟨3, ![1, 128, 32]⟩
abbrev S128x32 : Shape := ⟨2, ![128, 32]⟩
abbrev S1x32 : Shape := ⟨2, ![1, 32]⟩
abbrev S64x32x4x4 : Shape := ⟨4, ![64, 32, 4, 4]⟩
abbrev S4x4x32x64 : Shape := ⟨4, ![4, 4, 32, 64]⟩
abbrev S512x64 : Shape := ⟨2, ![512, 64]⟩
abbrev S1x1 : Shape := ⟨2, ![1, 1]⟩
abbrev S8192x256 : Shape := ⟨2, ![8192, 256]⟩
abbrev S32x8x128 : Shape := ⟨3, ![32, 8, 128]⟩
abbrev S32x10x10x128 : Shape := ⟨4, ![32, 10, 10, 128]⟩
abbrev S256x256 : Shape := ⟨2, ![256, 256]⟩
abbrev S1x8x128 : Shape := ⟨3, ![1, 8, 128]⟩
abbrev S2048x32 : Shape := ⟨2, ![2048, 32]⟩
abbrev S32x8x8x128 : Shape := ⟨4, ![32, 8, 8, 128]⟩
abbrev S2048x128 : Shape := ⟨2, ![2048, 128]⟩
abbrev S2048x256 : Shape := ⟨2, ![2048, 256]⟩
abbrev S1x256x32 : Shape := ⟨3, ![1, 256, 32]⟩
abbrev S256x32 : Shape := ⟨2, ![256, 32]⟩
abbrev S6x32 : Shape := ⟨2, ![6, 32]⟩
abbrev S8x32 : Shape := ⟨2, ![8, 32]⟩
abbrev S8x96 : Shape := ⟨2, ![8, 96]⟩
abbrev S8x128 : Shape := ⟨2, ![8, 128]⟩
abbrev S32x8x8x32 : Shape := ⟨4, ![32, 8, 8, 32]⟩
abbrev S32x8x1x32 : Shape := ⟨4, ![32, 8, 1, 32]⟩
abbrev S32x8x32 : Shape := ⟨3, ![32, 8, 32]⟩
abbrev S1024x128 : Shape := ⟨2, ![1024, 128]⟩
abbrev S1024x256 : Shape := ⟨2, ![1024, 256]⟩
abbrev S128x128 : Shape := ⟨2, ![128, 128]⟩
abbrev S32x1x32 : Shape := ⟨3, ![32, 1, 32]⟩
abbrev S32x32 : Shape := ⟨2, ![32, 32]⟩
abbrev S1x256 : Shape := ⟨2, ![1, 256]⟩
abbrev S128x8x256 : Shape := ⟨3, ![128, 8, 256]⟩
abbrev S128x1x256 : Shape := ⟨3, ![128, 1, 256]⟩
abbrev S128x256 : Shape := ⟨2, ![128, 256]⟩
abbrev S128x512 : Shape := ⟨2, ![128, 512]⟩
abbrev S128x64 : Shape := ⟨2, ![128, 64]⟩
abbrev S128 : Shape := ⟨1, ![128]⟩
abbrev S128x1 : Shape := ⟨2, ![128, 1]⟩
abbrev S1024x1 : Shape := ⟨2, ![1024, 1]⟩
abbrev S1024x64 : Shape := ⟨2, ![1024, 64]⟩

abbrev nBuf : Space → Nat
  | .hbm => 35
  | .vmem => 20
  | .smem => 0
  | _ => 0

abbrev bufTy : (tb : Table) → Fin (tcTables nBuf tb) → BufTy
  | .hbm, ⟨0, _⟩ => ⟨S1024x128x8x8, .f32⟩
  | .hbm, ⟨1, _⟩ => ⟨S32x128x3x3, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64x512, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S1024x8x8x128, .f32⟩
  | .hbm, ⟨10, _⟩ => ⟨S_, .i32⟩
  | .hbm, ⟨11, _⟩ => ⟨S_, .f32⟩
  | .hbm, ⟨12, _⟩ => ⟨S1024x10x10x128, .f32⟩
  | .hbm, ⟨13, _⟩ => ⟨S1024x10x10x128, .bf16⟩
  | .hbm, ⟨14, _⟩ => ⟨S3x3x128x32, .f32⟩
  | .hbm, ⟨15, _⟩ => ⟨S9x128x32, .f32⟩
  | .hbm, ⟨16, _⟩ => ⟨S9x128x32, .bf16⟩
  | .hbm, ⟨17, _⟩ => ⟨S8x128x32, .bf16⟩
  | .hbm, ⟨18, _⟩ => ⟨S4x256x32, .bf16⟩
  | .hbm, ⟨19, _⟩ => ⟨S1x128x32, .bf16⟩
  | .hbm, ⟨20, _⟩ => ⟨S128x32, .bf16⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S64x32x4x4, .f32⟩
  | .hbm, ⟨25, _⟩ => ⟨S4x4x32x64, .f32⟩
  | .hbm, ⟨26, _⟩ => ⟨S512x64, .f32⟩
  | .hbm, ⟨27, _⟩ => ⟨S512x64, .bf16⟩
  | .hbm, ⟨28, _⟩ => ⟨S1x64, .f32⟩
  | .hbm, ⟨29, _⟩ => ⟨S1x1, .f32⟩
  | .hbm, ⟨30, _⟩ => ⟨S8192x256, .f32⟩
  | .hbm, ⟨31, _⟩ => ⟨S32x8x128, .f32⟩
  | .hbm, ⟨32, _⟩ => ⟨S1024x128, .f32⟩
  | .hbm, ⟨33, _⟩ => ⟨S1024x1, .f32⟩
  | .hbm, ⟨34, _⟩ => ⟨S1024x64, .f32⟩
  | .local _ .vmem, ⟨0, _⟩ => ⟨S32x10x10x128, .bf16⟩
  | .local _ .vmem, ⟨1, _⟩ => ⟨S32x10x10x128, .bf16⟩
  | .local _ .vmem, ⟨2, _⟩ => ⟨S4x256x32, .bf16⟩
  | .local _ .vmem, ⟨3, _⟩ => ⟨S128x32, .bf16⟩
  | .local _ .vmem, ⟨4, _⟩ => ⟨S1x32, .f32⟩
  | .local _ .vmem, ⟨5, _⟩ => ⟨S256x256, .f32⟩
  | .local _ .vmem, ⟨6, _⟩ => ⟨S256x256, .f32⟩
  | .local _ .vmem, ⟨7, _⟩ => ⟨S1x8x128, .f32⟩
  | .local _ .vmem, ⟨8, _⟩ => ⟨S1x8x128, .f32⟩
  | .local _ .vmem, ⟨9, _⟩ => ⟨S1024x256, .f32⟩
  | .local _ .vmem, ⟨10, _⟩ => ⟨S1024x256, .f32⟩
  | .local _ .vmem, ⟨11, _⟩ => ⟨S32x8x128, .f32⟩
  | .local _ .vmem, ⟨12, _⟩ => ⟨S1x32, .f32⟩
  | .local _ .vmem, ⟨13, _⟩ => ⟨S1x32, .f32⟩
  | .local _ .vmem, ⟨14, _⟩ => ⟨S512x64, .bf16⟩
  | .local _ .vmem, ⟨15, _⟩ => ⟨S1x64, .f32⟩
  | .local _ .vmem, ⟨16, _⟩ => ⟨S1x64, .f32⟩
  | .local _ .vmem, ⟨17, _⟩ => ⟨S1x1, .f32⟩
  | .local _ .vmem, ⟨18, _⟩ => ⟨S128x128, .f32⟩
  | .local _ .vmem, ⟨19, _⟩ => ⟨S128x128, .f32⟩
  | _, _ => ⟨S1024x128x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x10x10x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S1024x128x8x8_S1024x8x8x128_0_2_3_1 : S1024x128x8x8.Transposes [0, 2, 3, 1] S1024x8x8x128
  pads_S1024x8x8x128_S1024x10x10x128_000_110_110_000 : S1024x8x8x128.Pads (![0, 1, 1, 0] : Fin 4 → Nat) ![0, 1, 1, 0] ![0, 0, 0, 0] S1024x10x10x128
  h_S_ : 0 < S_.numel
  bitsLt_bf16_f32 : FTy.bits .bf16 < FTy.bits .f32
  transposes_S32x128x3x3_S3x3x128x32_2_3_1_0 : S32x128x3x3.Transposes [2, 3, 1, 0] S3x3x128x32
  shapeCasts_S3x3x128x32_S9x128x32 : S3x3x128x32.ShapeCasts S9x128x32
  slices_S9x128x32_S8x128x32_0_0_0 : S9x128x32.Slices ![0, 0, 0] S8x128x32
  shapeCasts_S8x128x32_S4x256x32 : S8x128x32.ShapeCasts S4x256x32
  slices_S9x128x32_S1x128x32_8_0_0 : S9x128x32.Slices ![8, 0, 0] S1x128x32
  shapeCasts_S1x128x32_S128x32 : S1x128x32.ShapeCasts S128x32
  shapeCasts_S32_S1x32 : S32.ShapeCasts S1x32
  shapeCasts_S64x512_S64x32x4x4 : S64x512.ShapeCasts S64x32x4x4
  transposes_S64x32x4x4_S4x4x32x64_2_3_1_0 : S64x32x4x4.Transposes [2, 3, 1, 0] S4x4x32x64
  shapeCasts_S4x4x32x64_S512x64 : S4x4x32x64.ShapeCasts S512x64
  shapeCasts_S64_S1x64 : S64.ShapeCasts S1x64
  shapeCasts_S1_S1x1 : S1.ShapeCasts S1x1
  inb_S32x10x10x128_S32x10x10x128_0_0_0_0 : ∀ a, (![0, 0, 0, 0] : Fin 4 → Nat) a + S32x10x10x128.size a ≤ S32x10x10x128.size a
  h_S32x10x10x128 : 0 < S32x10x10x128.numel
  shapeCasts_S32x10x10x128_S32x10x10x128 : S32x10x10x128.ShapeCasts S32x10x10x128
  inb_S4x256x32_S4x256x32_0_0_0 : ∀ a, (![0, 0, 0] : Fin 3 → Nat) a + S4x256x32.size a ≤ S4x256x32.size a
  h_S4x256x32 : 0 < S4x256x32.numel
  shapeCasts_S4x256x32_S4x256x32 : S4x256x32.ShapeCasts S4x256x32
  slices_S32x10x10x128_o0_0_0_0_S32x8x8x128 : S32x10x10x128.Slices ![0, 0, 0, 0] S32x8x8x128
  shapeCasts_S32x8x8x128_S2048x128 : S32x8x8x128.ShapeCasts S2048x128
  slices_S32x10x10x128_o0_0_1_0_S32x8x8x128 : S32x10x10x128.Slices ![0, 0, 1, 0] S32x8x8x128
  concatenates_S2048x128_S2048x128_S2048x256_d1 : Shape.Concatenates [S2048x128, S2048x128] S2048x256 1
  slices_S4x256x32_o0_0_0_S1x256x32 : S4x256x32.Slices ![0, 0, 0] S1x256x32
  shapeCasts_S1x256x32_S256x32 : S1x256x32.ShapeCasts S256x32
  slices_S32x10x10x128_o0_0_2_0_S32x8x8x128 : S32x10x10x128.Slices ![0, 0, 2, 0] S32x8x8x128
  slices_S32x10x10x128_o0_1_0_0_S32x8x8x128 : S32x10x10x128.Slices ![0, 1, 0, 0] S32x8x8x128
  slices_S4x256x32_o1_0_0_S1x256x32 : S4x256x32.Slices ![1, 0, 0] S1x256x32
  slices_S32x10x10x128_o0_1_1_0_S32x8x8x128 : S32x10x10x128.Slices ![0, 1, 1, 0] S32x8x8x128
  slices_S32x10x10x128_o0_1_2_0_S32x8x8x128 : S32x10x10x128.Slices ![0, 1, 2, 0] S32x8x8x128
  slices_S4x256x32_o2_0_0_S1x256x32 : S4x256x32.Slices ![2, 0, 0] S1x256x32
  slices_S32x10x10x128_o0_2_0_0_S32x8x8x128 : S32x10x10x128.Slices ![0, 2, 0, 0] S32x8x8x128
  slices_S32x10x10x128_o0_2_1_0_S32x8x8x128 : S32x10x10x128.Slices ![0, 2, 1, 0] S32x8x8x128
  slices_S4x256x32_o3_0_0_S1x256x32 : S4x256x32.Slices ![3, 0, 0] S1x256x32
  slices_S32x10x10x128_o0_2_2_0_S32x8x8x128 : S32x10x10x128.Slices ![0, 2, 2, 0] S32x8x8x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S32 : S2048x32.Reduces [0] S32
  concatenates_S1x32_S1x32_S6x32_S8x32_d0 : Shape.Concatenates [S1x32, S1x32, S6x32] S8x32 0
  concatenates_S8x32_S8x96_S8x128_d1 : Shape.Concatenates [S8x32, S8x96] S8x128 1
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  shapeCasts_S2048x32_S32x8x8x32 : S2048x32.ShapeCasts S32x8x8x32
  slices_S32x8x8x32_o0_0_0_0_S32x8x1x32 : S32x8x8x32.Slices ![0, 0, 0, 0] S32x8x1x32
  shapeCasts_S32x8x1x32_S32x8x32 : S32x8x1x32.ShapeCasts S32x8x32
  shapeCasts_S32x8x32_S256x32 : S32x8x32.ShapeCasts S256x32
  slices_S32x8x8x32_o0_0_1_0_S32x8x1x32 : S32x8x8x32.Slices ![0, 0, 1, 0] S32x8x1x32
  slices_S32x8x8x32_o0_0_2_0_S32x8x1x32 : S32x8x8x32.Slices ![0, 0, 2, 0] S32x8x1x32
  slices_S32x8x8x32_o0_0_3_0_S32x8x1x32 : S32x8x8x32.Slices ![0, 0, 3, 0] S32x8x1x32
  slices_S32x8x8x32_o0_0_4_0_S32x8x1x32 : S32x8x8x32.Slices ![0, 0, 4, 0] S32x8x1x32
  slices_S32x8x8x32_o0_0_5_0_S32x8x1x32 : S32x8x8x32.Slices ![0, 0, 5, 0] S32x8x1x32
  slices_S32x8x8x32_o0_0_6_0_S32x8x1x32 : S32x8x8x32.Slices ![0, 0, 6, 0] S32x8x1x32
  slices_S32x8x8x32_o0_0_7_0_S32x8x1x32 : S32x8x8x32.Slices ![0, 0, 7, 0] S32x8x1x32
  concatenates_S256x32_S256x32_S256x32_S256x32_S256x32_S256x32_S256x32_S256x32_S256x256_d1 : Shape.Concatenates [S256x32, S256x32, S256x32, S256x32, S256x32, S256x32, S256x32, S256x32] S256x256 1
  inb_S256x256_S256x256_0_0 : ∀ a, (![0, 0] : Fin 2 → Nat) a + S256x256.size a ≤ S256x256.size a
  h_S256x256 : 0 < S256x256.numel
  inb_S32x8x128_S32x8x128_0_0_0 : ∀ a, (![0, 0, 0] : Fin 3 → Nat) a + S32x8x128.size a ≤ S32x8x128.size a
  h_S32x8x128 : 0 < S32x8x128.numel
  shapeCasts_S32x8x128_S32x8x128 : S32x8x128.ShapeCasts S32x8x128
  slices_S32x8x128_o0_0_0_S32x1x32 : S32x8x128.Slices ![0, 0, 0] S32x1x32
  shapeCasts_S32x1x32_S32x32 : S32x1x32.ShapeCasts S32x32
  reduces_S32x32_S32 : S32x32.Reduces [0] S32
  slices_S32x8x128_o0_1_0_S32x1x32 : S32x8x128.Slices ![0, 1, 0] S32x1x32
  concatenates_S1x32_S1x32_S1x32_S1x32_S1x32_S1x32_S1x32_S1x32_S1x256_d1 : Shape.Concatenates [S1x32, S1x32, S1x32, S1x32, S1x32, S1x32, S1x32, S1x32] S1x256 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S1024x256 : S1x256.Broadcasts S1024x256
  shapeCasts_S1024x256_S128x8x256 : S1024x256.ShapeCasts S128x8x256
  slices_S128x8x256_o0_0_0_S128x1x256 : S128x8x256.Slices ![0, 0, 0] S128x1x256
  shapeCasts_S128x1x256_S128x256 : S128x1x256.ShapeCasts S128x256
  slices_S128x8x256_o0_1_0_S128x1x256 : S128x8x256.Slices ![0, 1, 0] S128x1x256
  slices_S128x256_o0_0_S128x32 : S128x256.Slices ![0, 0] S128x32
  slices_S128x256_o0_32_S128x32 : S128x256.Slices ![0, 32] S128x32
  slices_S128x256_o0_64_S128x32 : S128x256.Slices ![0, 64] S128x32
  slices_S128x256_o0_96_S128x32 : S128x256.Slices ![0, 96] S128x32
  slices_S128x256_o0_128_S128x32 : S128x256.Slices ![0, 128] S128x32
  slices_S128x256_o0_160_S128x32 : S128x256.Slices ![0, 160] S128x32
  slices_S128x256_o0_192_S128x32 : S128x256.Slices ![0, 192] S128x32
  slices_S128x256_o0_224_S128x32 : S128x256.Slices ![0, 224] S128x32
  slices_S128x8x256_o0_2_0_S128x1x256 : S128x8x256.Slices ![0, 2, 0] S128x1x256
  slices_S128x8x256_o0_3_0_S128x1x256 : S128x8x256.Slices ![0, 3, 0] S128x1x256
  slices_S128x8x256_o0_4_0_S128x1x256 : S128x8x256.Slices ![0, 4, 0] S128x1x256
  slices_S128x8x256_o0_5_0_S128x1x256 : S128x8x256.Slices ![0, 5, 0] S128x1x256
  slices_S128x8x256_o0_6_0_S128x1x256 : S128x8x256.Slices ![0, 6, 0] S128x1x256
  slices_S128x8x256_o0_7_0_S128x1x256 : S128x8x256.Slices ![0, 7, 0] S128x1x256
  concatenates_S128x32_S128x32_S128x32_S128x32_S128x32_S128x32_S128x32_S128x32_S128x32_S128x32_S128x32_S128x32_S128x32_S128x32_S128x32_S128x32_S128x512_d1 : Shape.Concatenates [S128x32, S128x32, S128x32, S128x32, S128x32, S128x32, S128x32, S128x32, S128x32, S128x32, S128x32, S128x32, S128x32, S128x32, S128x32, S128x32] S128x512 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  reduces_S128x64_S128 : S128x64.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  shapeCasts_S128x1_S128x1 : S128x1.ShapeCasts S128x1
  broadcasts_S128x1_S128x64 : S128x1.Broadcasts S128x64
  concatenates_S128x64_S128x64_S128x128_d1 : Shape.Concatenates [S128x64, S128x64] S128x128 1
  inb_S128x128_S128x128_0_0 : ∀ a, (![0, 0] : Fin 2 → Nat) a + S128x128.size a ≤ S128x128.size a
  h_S128x128 : 0 < S128x128.numel
  slices_S1024x128_S1024x1_0_64 : S1024x128.Slices ![0, 64] S1024x1
  slices_S1024x128_S1024x64_0_0 : S1024x128.Slices ![0, 0] S1024x64
  dot_S2048x256_S256x32_S2048x32_1_0_0_1_n_n_wf : DotDims.WF S2048x256 S256x32 S2048x32 [1] [0] [0] [1] [] []
  dot_S2048x128_S128x32_S2048x32_1_0_0_1_n_n_wf : DotDims.WF S2048x128 S128x32 S2048x32 [1] [0] [0] [1] [] []
  dot_S128x512_S512x64_S128x64_1_0_0_1_n_n_wf : DotDims.WF S128x512 S512x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x10x10x128.size a ≤ S1024x10x10x128.size a
  hwx0_0 : ∀ i : grid0.Coords, EltTy.bits .bf16 = 32 ∨ (Rect.block (s := S1024x10x10x128) S32x10x10x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x32.size a ≤ S4x256x32.size a
  hwx0_1 : ∀ i : grid0.Coords, EltTy.bits .bf16 = 32 ∨ (Rect.block (s := S4x256x32) S4x256x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .bf16 = 32 ∨ (Rect.block (s := S128x32) S128x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x256.size a
  hwx0_4 : ∀ i : grid0.Coords, EltTy.bits .f32 = 32 ∨ (Rect.block (s := S8192x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S32x8x128.size a
  hwx0_5 : ∀ i : grid0.Coords, EltTy.bits .f32 = 32 ∨ (Rect.block (s := S32x8x128) S1x8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8x128.size a ≤ S32x8x128.size a
  hwx1_1 : ∀ i : grid1.Coords, EltTy.bits .f32 = 32 ∨ (Rect.block (s := S32x8x128) S32x8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S512x64.size a
  hwx1_4 : ∀ i : grid1.Coords, EltTy.bits .bf16 = 32 ∨ (Rect.block (s := S512x64) S512x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S1024x128.size a
  hwx1_8 : ∀ i : grid1.Coords, EltTy.bits .f32 = 32 ∨ (Rect.block (s := S1024x128) S128x128.size (cc1_transform_8 i) (hinb1_8 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf

abbrev win0_0 : Pipeline.Window sig grid0 :=
  Pipeline.Window.ofSpec (Memref.whole main_v2) S32x10x10x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S32x8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S512x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S128x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S1024x128x8x8 : Shape := ⟨4, ![1024, 128, 8, 8]⟩
abbrev S32x128x3x3 : Shape := ⟨4, ![32, 128, 3, 3]⟩
abbrev S32 : Shape := ⟨1, ![32]⟩
abbrev S64x512 : Shape := ⟨2, ![64, 512]⟩
abbrev S64 : Shape := ⟨1, ![64]⟩
abbrev S1x64 : Shape := ⟨2, ![1, 64]⟩
abbrev S1 : Shape := ⟨1, ![1]⟩
abbrev S1024x8x8x128 : Shape := ⟨4, ![1024, 8, 8, 128]⟩
abbrev S_ : Shape := ⟨0, ![]⟩
abbrev S1024x10x10x128 : Shape := ⟨4, ![1024, 10, 10, 128]⟩
abbrev S3x3x128x32 : Shape := ⟨4, ![3, 3, 128, 32]⟩
abbrev S9x128x32 : Shape := ⟨3, ![9, 128, 32]⟩
abbrev S8x128x32 : Shape := ⟨3, ![8, 128, 32]⟩
abbrev S4x256x32 : Shape := ⟨3, ![4, 256, 32]⟩
abbrev S1x128x32 : Shape := ⟨3, ![1, 128, 32]⟩
abbrev S128x32 : Shape := ⟨2, ![128, 32]⟩
abbrev S1x32 : Shape := ⟨2, ![1, 32]⟩
abbrev S64x32x4x4 : Shape := ⟨4, ![64, 32, 4, 4]⟩
abbrev S4x4x32x64 : Shape := ⟨4, ![4, 4, 32, 64]⟩
abbrev S512x64 : Shape := ⟨2, ![512, 64]⟩
abbrev S1x1 : Shape := ⟨2, ![1, 1]⟩
abbrev S1024x128 : Shape := ⟨2, ![1024, 128]⟩
abbrev S32x10x10x128 : Shape := ⟨4, ![32, 10, 10, 128]⟩
abbrev S8192x256 : Shape := ⟨2, ![8192, 256]⟩
abbrev S2048x32 : Shape := ⟨2, ![2048, 32]⟩
abbrev S32x8x8x128 : Shape := ⟨4, ![32, 8, 8, 128]⟩
abbrev S2048x128 : Shape := ⟨2, ![2048, 128]⟩
abbrev S2048x256 : Shape := ⟨2, ![2048, 256]⟩
abbrev S1x256x32 : Shape := ⟨3, ![1, 256, 32]⟩
abbrev S256x32 : Shape := ⟨2, ![256, 32]⟩
abbrev S32x8x8x32 : Shape := ⟨4, ![32, 8, 8, 32]⟩
abbrev S32x8x1x32 : Shape := ⟨4, ![32, 8, 1, 32]⟩
abbrev S32x8x32 : Shape := ⟨3, ![32, 8, 32]⟩
abbrev S256x256 : Shape := ⟨2, ![256, 256]⟩
abbrev S1x256 : Shape := ⟨2, ![1, 256]⟩
abbrev S32x8x256 : Shape := ⟨3, ![32, 8, 256]⟩
abbrev S32x1x256 : Shape := ⟨3, ![32, 1, 256]⟩
abbrev S32x256 : Shape := ⟨2, ![32, 256]⟩
abbrev S32x32 : Shape := ⟨2, ![32, 32]⟩
abbrev S32x512 : Shape := ⟨2, ![32, 512]⟩
abbrev S32x64 : Shape := ⟨2, ![32, 64]⟩
abbrev S32x1 : Shape := ⟨2, ![32, 1]⟩
abbrev S32x128 : Shape := ⟨2, ![32, 128]⟩
abbrev S1024x64 : Shape := ⟨2, ![1024, 64]⟩
abbrev S1024x1 : Shape := ⟨2, ![1024, 1]⟩

abbrev nBuf : Space → Nat
  | .hbm => 33
  | .vmem => 15
  | .smem => 0
  | _ => 0

abbrev bufTy : (tb : Table) → Fin (tcTables nBuf tb) → BufTy
  | .hbm, ⟨0, _⟩ => ⟨S1024x128x8x8, .f32⟩
  | .hbm, ⟨1, _⟩ => ⟨S32x128x3x3, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64x512, .f32⟩
  | .hbm, ⟨6, _⟩ => ⟨S64, .f32⟩
  | .hbm, ⟨7, _⟩ => ⟨S1x64, .f32⟩
  | .hbm, ⟨8, _⟩ => ⟨S1, .f32⟩
  | .hbm, ⟨9, _⟩ => ⟨S1024x8x8x128, .f32⟩
  | .hbm, ⟨10, _⟩ => ⟨S_, .i32⟩
  | .hbm, ⟨11, _⟩ => ⟨S_, .f32⟩
  | .hbm, ⟨12, _⟩ => ⟨S1024x10x10x128, .f32⟩
  | .hbm, ⟨13, _⟩ => ⟨S1024x10x10x128, .bf16⟩
  | .hbm, ⟨14, _⟩ => ⟨S3x3x128x32, .f32⟩
  | .hbm, ⟨15, _⟩ => ⟨S9x128x32, .f32⟩
  | .hbm, ⟨16, _⟩ => ⟨S9x128x32, .bf16⟩
  | .hbm, ⟨17, _⟩ => ⟨S8x128x32, .bf16⟩
  | .hbm, ⟨18, _⟩ => ⟨S4x256x32, .bf16⟩
  | .hbm, ⟨19, _⟩ => ⟨S1x128x32, .bf16⟩
  | .hbm, ⟨20, _⟩ => ⟨S128x32, .bf16⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S64x32x4x4, .f32⟩
  | .hbm, ⟨25, _⟩ => ⟨S4x4x32x64, .f32⟩
  | .hbm, ⟨26, _⟩ => ⟨S512x64, .f32⟩
  | .hbm, ⟨27, _⟩ => ⟨S512x64, .bf16⟩
  | .hbm, ⟨28, _⟩ => ⟨S1x64, .f32⟩
  | .hbm, ⟨29, _⟩ => ⟨S1x1, .f32⟩
  | .hbm, ⟨30, _⟩ => ⟨S1024x128, .f32⟩
  | .hbm, ⟨31, _⟩ => ⟨S1024x64, .f32⟩
  | .hbm, ⟨32, _⟩ => ⟨S1024x1, .f32⟩
  | .local _ .vmem, ⟨0, _⟩ => ⟨S32x10x10x128, .bf16⟩
  | .local _ .vmem, ⟨1, _⟩ => ⟨S32x10x10x128, .bf16⟩
  | .local _ .vmem, ⟨2, _⟩ => ⟨S4x256x32, .bf16⟩
  | .local _ .vmem, ⟨3, _⟩ => ⟨S128x32, .bf16⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S512x64, .bf16⟩
  | .local _ .vmem, ⟨8, _⟩ => ⟨S1x64, .f32⟩
  | .local _ .vmem, ⟨9, _⟩ => ⟨S1x64, .f32⟩
  | .local _ .vmem, ⟨10, _⟩ => ⟨S1x1, .f32⟩
  | .local _ .vmem, ⟨11, _⟩ => ⟨S1024x128, .f32⟩
  | .local _ .vmem, ⟨12, _⟩ => ⟨S8192x256, .f32⟩
  | .local _ .vmem, ⟨13, _⟩ => ⟨S1x32, .f32⟩
  | .local _ .vmem, ⟨14, _⟩ => ⟨S1x32, .f32⟩
  | _, _ => ⟨S1024x128x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v95 : BitVec 32 := Scalar.muli arg0 c256_i32
  v95
def k0_off1 (i : grid0.Coords) : Fin 2 → Nat :=
  let arg0 : BitVec 32 := BitVec.ofNat 32 (i 0).val
  let c256_i32 : BitVec 32 := 256#32
  let v95 : BitVec 32 := Scalar.muli arg0 c256_i32
  let v96 : BitVec 32 := v95
  let v97 : Index := Scalar.indexCast v96
  let c0_26 : Index := 0#32
  ![v97.toNat, 0]
def k0_cond2 (i : grid0.Coords) : BitVec 1 :=
  let arg0 : BitVec 32 := BitVec.ofNat 32 (i 0).val
  let c31_i32 : BitVec 32 := 31#32
  let v101 : BitVec 1 := Scalar.cmpi .eq arg0 c31_i32
  let v102 : BitVec 32 := Scalar.extui v101
  let c0_i32_27 : BitVec 32 := 0#32
  let v103 : BitVec 1 := Scalar.cmpi .ne v102 c0_i32_27
  v103

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x10x10x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  transposes_S1024x128x8x8_S1024x8x8x128_0_2_3_1 : S1024x128x8x8.Transposes [0, 2, 3, 1] S1024x8x8x128
  pads_S1024x8x8x128_S1024x10x10x128_000_110_110_000 : S1024x8x8x128.Pads (![0, 1, 1, 0] : Fin 4 → Nat) ![0, 1, 1, 0] ![0, 0, 0, 0] S1024x10x10x128
  h_S_ : 0 < S_.numel
  bitsLt_bf16_f32 : FTy.bits .bf16 < FTy.bits .f32
  transposes_S32x128x3x3_S3x3x128x32_2_3_1_0 : S32x128x3x3.Transposes [2, 3, 1, 0] S3x3x128x32
  shapeCasts_S3x3x128x32_S9x128x32 : S3x3x128x32.ShapeCasts S9x128x32
  slices_S9x128x32_S8x128x32_0_0_0 : S9x128x32.Slices ![0, 0, 0] S8x128x32
  shapeCasts_S8x128x32_S4x256x32 : S8x128x32.ShapeCasts S4x256x32
  slices_S9x128x32_S1x128x32_8_0_0 : S9x128x32.Slices ![8, 0, 0] S1x128x32
  shapeCasts_S1x128x32_S128x32 : S1x128x32.ShapeCasts S128x32
  shapeCasts_S32_S1x32 : S32.ShapeCasts S1x32
  shapeCasts_S64x512_S64x32x4x4 : S64x512.ShapeCasts S64x32x4x4
  transposes_S64x32x4x4_S4x4x32x64_2_3_1_0 : S64x32x4x4.Transposes [2, 3, 1, 0] S4x4x32x64
  shapeCasts_S4x4x32x64_S512x64 : S4x4x32x64.ShapeCasts S512x64
  shapeCasts_S64_S1x64 : S64.ShapeCasts S1x64
  shapeCasts_S1_S1x1 : S1.ShapeCasts S1x1
  inb_S32x10x10x128_S32x10x10x128_0_0_0_0 : ∀ a, (![0, 0, 0, 0] : Fin 4 → Nat) a + S32x10x10x128.size a ≤ S32x10x10x128.size a
  h_S32x10x10x128 : 0 < S32x10x10x128.numel
  shapeCasts_S32x10x10x128_S32x10x10x128 : S32x10x10x128.ShapeCasts S32x10x10x128
  inb_S4x256x32_S4x256x32_0_0_0 : ∀ a, (![0, 0, 0] : Fin 3 → Nat) a + S4x256x32.size a ≤ S4x256x32.size a
  h_S4x256x32 : 0 < S4x256x32.numel
  shapeCasts_S4x256x32_S4x256x32 : S4x256x32.ShapeCasts S4x256x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  slices_S32x10x10x128_o0_0_0_0_S32x8x8x128 : S32x10x10x128.Slices ![0, 0, 0, 0] S32x8x8x128
  shapeCasts_S32x8x8x128_S2048x128 : S32x8x8x128.ShapeCasts S2048x128
  slices_S32x10x10x128_o0_0_1_0_S32x8x8x128 : S32x10x10x128.Slices ![0, 0, 1, 0] S32x8x8x128
  concatenates_S2048x128_S2048x128_S2048x256_d1 : Shape.Concatenates [S2048x128, S2048x128] S2048x256 1
  slices_S4x256x32_o0_0_0_S1x256x32 : S4x256x32.Slices ![0, 0, 0] S1x256x32
  shapeCasts_S1x256x32_S256x32 : S1x256x32.ShapeCasts S256x32
  slices_S32x10x10x128_o0_0_2_0_S32x8x8x128 : S32x10x10x128.Slices ![0, 0, 2, 0] S32x8x8x128
  slices_S32x10x10x128_o0_1_0_0_S32x8x8x128 : S32x10x10x128.Slices ![0, 1, 0, 0] S32x8x8x128
  slices_S4x256x32_o1_0_0_S1x256x32 : S4x256x32.Slices ![1, 0, 0] S1x256x32
  slices_S32x10x10x128_o0_1_1_0_S32x8x8x128 : S32x10x10x128.Slices ![0, 1, 1, 0] S32x8x8x128
  slices_S32x10x10x128_o0_1_2_0_S32x8x8x128 : S32x10x10x128.Slices ![0, 1, 2, 0] S32x8x8x128
  slices_S4x256x32_o2_0_0_S1x256x32 : S4x256x32.Slices ![2, 0, 0] S1x256x32
  slices_S32x10x10x128_o0_2_0_0_S32x8x8x128 : S32x10x10x128.Slices ![0, 2, 0, 0] S32x8x8x128
  slices_S32x10x10x128_o0_2_1_0_S32x8x8x128 : S32x10x10x128.Slices ![0, 2, 1, 0] S32x8x8x128
  slices_S4x256x32_o3_0_0_S1x256x32 : S4x256x32.Slices ![3, 0, 0] S1x256x32
  slices_S32x10x10x128_o0_2_2_0_S32x8x8x128 : S32x10x10x128.Slices ![0, 2, 2, 0] S32x8x8x128
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  reduces_S2048x32_S32 : S2048x32.Reduces [0] S32
  shapeCasts_S2048x32_S32x8x8x32 : S2048x32.ShapeCasts S32x8x8x32
  slices_S32x8x8x32_o0_0_0_0_S32x8x1x32 : S32x8x8x32.Slices ![0, 0, 0, 0] S32x8x1x32
  shapeCasts_S32x8x1x32_S32x8x32 : S32x8x1x32.ShapeCasts S32x8x32
  shapeCasts_S32x8x32_S256x32 : S32x8x32.ShapeCasts S256x32
  slices_S32x8x8x32_o0_0_1_0_S32x8x1x32 : S32x8x8x32.Slices ![0, 0, 1, 0] S32x8x1x32
  slices_S32x8x8x32_o0_0_2_0_S32x8x1x32 : S32x8x8x32.Slices ![0, 0, 2, 0] S32x8x1x32
  slices_S32x8x8x32_o0_0_3_0_S32x8x1x32 : S32x8x8x32.Slices ![0, 0, 3, 0] S32x8x1x32
  slices_S32x8x8x32_o0_0_4_0_S32x8x1x32 : S32x8x8x32.Slices ![0, 0, 4, 0] S32x8x1x32
  slices_S32x8x8x32_o0_0_5_0_S32x8x1x32 : S32x8x8x32.Slices ![0, 0, 5, 0] S32x8x1x32
  slices_S32x8x8x32_o0_0_6_0_S32x8x1x32 : S32x8x8x32.Slices ![0, 0, 6, 0] S32x8x1x32
  slices_S32x8x8x32_o0_0_7_0_S32x8x1x32 : S32x8x8x32.Slices ![0, 0, 7, 0] S32x8x1x32
  concatenates_S256x32_S256x32_S256x32_S256x32_S256x32_S256x32_S256x32_S256x32_S256x256_d1 : Shape.Concatenates [S256x32, S256x32, S256x32, S256x32, S256x32, S256x32, S256x32, S256x32] S256x256 1
  h_S256x256 : 0 < S256x256.numel
  shapeCasts_S256x256_S256x256 : S256x256.ShapeCasts S256x256
  concatenates_S1x32_S1x32_S1x32_S1x32_S1x32_S1x32_S1x32_S1x32_S1x256_d1 : Shape.Concatenates [S1x32, S1x32, S1x32, S1x32, S1x32, S1x32, S1x32, S1x32] S1x256 1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x256_S256x256_0_0 : ∀ a, (![0, 0] : Fin 2 → Nat) a + S256x256.size a ≤ S8192x256.size a
  broadcasts_S1x256_S256x256 : S1x256.Broadcasts S256x256
  shapeCasts_S256x256_S32x8x256 : S256x256.ShapeCasts S32x8x256
  slices_S32x8x256_o0_0_0_S32x1x256 : S32x8x256.Slices ![0, 0, 0] S32x1x256
  shapeCasts_S32x1x256_S32x256 : S32x1x256.ShapeCasts S32x256
  slices_S32x8x256_o0_1_0_S32x1x256 : S32x8x256.Slices ![0, 1, 0] S32x1x256
  slices_S32x256_o0_0_S32x32 : S32x256.Slices ![0, 0] S32x32
  slices_S32x256_o0_32_S32x32 : S32x256.Slices ![0, 32] S32x32
  slices_S32x256_o0_64_S32x32 : S32x256.Slices ![0, 64] S32x32
  slices_S32x256_o0_96_S32x32 : S32x256.Slices ![0, 96] S32x32
  slices_S32x256_o0_128_S32x32 : S32x256.Slices ![0, 128] S32x32
  slices_S32x256_o0_160_S32x32 : S32x256.Slices ![0, 160] S32x32
  slices_S32x256_o0_192_S32x32 : S32x256.Slices ![0, 192] S32x32
  slices_S32x256_o0_224_S32x32 : S32x256.Slices ![0, 224] S32x32
  slices_S32x8x256_o0_2_0_S32x1x256 : S32x8x256.Slices ![0, 2, 0] S32x1x256
  slices_S32x8x256_o0_3_0_S32x1x256 : S32x8x256.Slices ![0, 3, 0] S32x1x256
  slices_S32x8x256_o0_4_0_S32x1x256 : S32x8x256.Slices ![0, 4, 0] S32x1x256
  slices_S32x8x256_o0_5_0_S32x1x256 : S32x8x256.Slices ![0, 5, 0] S32x1x256
  slices_S32x8x256_o0_6_0_S32x1x256 : S32x8x256.Slices ![0, 6, 0] S32x1x256
  slices_S32x8x256_o0_7_0_S32x1x256 : S32x8x256.Slices ![0, 7, 0] S32x1x256
  concatenates_S32x32_S32x32_S32x32_S32x32_S32x32_S32x32_S32x32_S32x32_S32x32_S32x32_S32x32_S32x32_S32x32_S32x32_S32x32_S32x32_S32x512_d1 : Shape.Concatenates [S32x32, S32x32, S32x32, S32x32, S32x32, S32x32, S32x32, S32x32, S32x32, S32x32, S32x32, S32x32, S32x32, S32x32, S32x32, S32x32] S32x512 1
  broadcasts_S1x64_S32x64 : S1x64.Broadcasts S32x64
  reduces_S32x64_S32 : S32x64.Reduces [1] S32
  shapeCasts_S32_S32x1 : S32.ShapeCasts S32x1
  broadcasts_S1x1_S32x1 : S1x1.Broadcasts S32x1
  shapeCasts_S32x1_S32x1 : S32x1.ShapeCasts S32x1
  broadcasts_S32x1_S32x64 : S32x1.Broadcasts S32x64
  concatenates_S32x64_S32x64_S32x128_d1 : Shape.Concatenates [S32x64, S32x64] S32x128 1
  inb_S1024x128_S32x128_0_0 : ∀ a, (![0, 0] : Fin 2 → Nat) a + S32x128.size a ≤ S1024x128.size a
  h_S32x128 : 0 < S32x128.numel
  inb_S8192x256_S256x256_256_0 : ∀ a, (![256, 0] : Fin 2 → Nat) a + S256x256.size a ≤ S8192x256.size a
  inb_S1024x128_S32x128_32_0 : ∀ a, (![32, 0] : Fin 2 → Nat) a + S32x128.size a ≤ S1024x128.size a
  inb_S8192x256_S256x256_512_0 : ∀ a, (![512, 0] : Fin 2 → Nat) a + S256x256.size a ≤ S8192x256.size a
  inb_S1024x128_S32x128_64_0 : ∀ a, (![64, 0] : Fin 2 → Nat) a + S32x128.size a ≤ S1024x128.size a
  inb_S8192x256_S256x256_768_0 : ∀ a, (![768, 0] : Fin 2 → Nat) a + S256x256.size a ≤ S8192x256.size a
  inb_S1024x128_S32x128_96_0 : ∀ a, (![96, 0] : Fin 2 → Nat) a + S32x128.size a ≤ S1024x128.size a
  inb_S8192x256_S256x256_1024_0 : ∀ a, (![1024, 0] : Fin 2 → Nat) a + S256x256.size a ≤ S8192x256.size a
  inb_S1024x128_S32x128_128_0 : ∀ a, (![128, 0] : Fin 2 → Nat) a + S32x128.size a ≤ S1024x128.size a
  inb_S8192x256_S256x256_1280_0 : ∀ a, (![1280, 0] : Fin 2 → Nat) a + S256x256.size a ≤ S8192x256.size a
  inb_S1024x128_S32x128_160_0 : ∀ a, (![160, 0] : Fin 2 → Nat) a + S32x128.size a ≤ S1024x128.size a
  inb_S8192x256_S256x256_1536_0 : ∀ a, (![1536, 0] : Fin 2 → Nat) a + S256x256.size a ≤ S8192x256.size a
  inb_S1024x128_S32x128_192_0 : ∀ a, (![192, 0] : Fin 2 → Nat) a + S32x128.size a ≤ S1024x128.size a
  inb_S8192x256_S256x256_1792_0 : ∀ a, (![1792, 0] : Fin 2 → Nat) a + S256x256.size a ≤ S8192x256.size a
  inb_S1024x128_S32x128_224_0 : ∀ a, (![224, 0] : Fin 2 → Nat) a + S32x128.size a ≤ S1024x128.size a
  inb_S8192x256_S256x256_2048_0 : ∀ a, (![2048, 0] : Fin 2 → Nat) a + S256x256.size a ≤ S8192x256.size a
  inb_S1024x128_S32x128_256_0 : ∀ a, (![256, 0] : Fin 2 → Nat) a + S32x128.size a ≤ S1024x128.size a
  inb_S8192x256_S256x256_2304_0 : ∀ a, (![2304, 0] : Fin 2 → Nat) a + S256x256.size a ≤ S8192x256.size a
  inb_S1024x128_S32x128_288_0 : ∀ a, (![288, 0] : Fin 2 → Nat) a + S32x128.size a ≤ S1024x128.size a
  inb_S8192x256_S256x256_2560_0 : ∀ a, (![2560, 0] : Fin 2 → Nat) a + S256x256.size a ≤ S8192x256.size a
  inb_S1024x128_S32x128_320_0 : ∀ a, (![320, 0] : Fin 2 → Nat) a + S32x128.size a ≤ S1024x128.size a
  inb_S8192x256_S256x256_2816_0 : ∀ a, (![2816, 0] : Fin 2 → Nat) a + S256x256.size a ≤ S8192x256.size a
  inb_S1024x128_S32x128_352_0 : ∀ a, (![352, 0] : Fin 2 → Nat) a + S32x128.size a ≤ S1024x128.size a
  inb_S8192x256_S256x256_3072_0 : ∀ a, (![3072, 0] : Fin 2 → Nat) a + S256x256.size a ≤ S8192x256.size a
  inb_S1024x128_S32x128_384_0 : ∀ a, (![384, 0] : Fin 2 → Nat) a + S32x128.size a ≤ S1024x128.size a
  inb_S8192x256_S256x256_3328_0 : ∀ a, (![3328, 0] : Fin 2 → Nat) a + S256x256.size a ≤ S8192x256.size a
  inb_S1024x128_S32x128_416_0 : ∀ a, (![416, 0] : Fin 2 → Nat) a + S32x128.size a ≤ S1024x128.size a
  inb_S8192x256_S256x256_3584_0 : ∀ a, (![3584, 0] : Fin 2 → Nat) a + S256x256.size a ≤ S8192x256.size a
  inb_S1024x128_S32x128_448_0 : ∀ a, (![448, 0] : Fin 2 → Nat) a + S32x128.size a ≤ S1024x128.size a
  inb_S8192x256_S256x256_3840_0 : ∀ a, (![3840, 0] : Fin 2 → Nat) a + S256x256.size a ≤ S8192x256.size a
  inb_S1024x128_S32x128_480_0 : ∀ a, (![480, 0] : Fin 2 → Nat) a + S32x128.size a ≤ S1024x128.size a
  inb_S8192x256_S256x256_4096_0 : ∀ a, (![4096, 0] : Fin 2 → Nat) a + S256x256.size a ≤ S8192x256.size a
  inb_S1024x128_S32x128_512_0 : ∀ a, (![512, 0] : Fin 2 → Nat) a + S32x128.size a ≤ S1024x128.size a
  inb_S8192x256_S256x256_4352_0 : ∀ a, (![4352, 0] : Fin 2 → Nat) a + S256x256.size a ≤ S8192x256.size a
  inb_S1024x128_S32x128_544_0 : ∀ a, (![544, 0] : Fin 2 → Nat) a + S32x128.size a ≤ S1024x128.size a
  inb_S8192x256_S256x256_4608_0 : ∀ a, (![4608, 0] : Fin 2 → Nat) a + S256x256.size a ≤ S8192x256.size a
  inb_S1024x128_S32x128_576_0 : ∀ a, (![576, 0] : Fin 2 → Nat) a + S32x128.size a ≤ S1024x128.size a
  inb_S8192x256_S256x256_4864_0 : ∀ a, (![4864, 0] : Fin 2 → Nat) a + S256x256.size a ≤ S8192x256.size a
  inb_S1024x128_S32x128_608_0 : ∀ a, (![608, 0] : Fin 2 → Nat) a + S32x128.size a ≤ S1024x128.size a
  inb_S8192x256_S256x256_5120_0 : ∀ a, (![5120, 0] : Fin 2 → Nat) a + S256x256.size a ≤ S8192x256.size a
  inb_S1024x128_S32x128_640_0 : ∀ a, (![640, 0] : Fin 2 → Nat) a + S32x128.size a ≤ S1024x128.size a
  inb_S8192x256_S256x256_5376_0 : ∀ a, (![5376, 0] : Fin 2 → Nat) a + S256x256.size a ≤ S8192x256.size a
  inb_S1024x128_S32x128_672_0 : ∀ a, (![672, 0] : Fin 2 → Nat) a + S32x128.size a ≤ S1024x128.size a
  inb_S8192x256_S256x256_5632_0 : ∀ a, (![5632, 0] : Fin 2 → Nat) a + S256x256.size a ≤ S8192x256.size a
  inb_S1024x128_S32x128_704_0 : ∀ a, (![704, 0] : Fin 2 → Nat) a + S32x128.size a ≤ S1024x128.size a
  inb_S8192x256_S256x256_5888_0 : ∀ a, (![5888, 0] : Fin 2 → Nat) a + S256x256.size a ≤ S8192x256.size a
  inb_S1024x128_S32x128_736_0 : ∀ a, (![736, 0] : Fin 2 → Nat) a + S32x128.size a ≤ S1024x128.size a
  inb_S8192x256_S256x256_6144_0 : ∀ a, (![6144, 0] : Fin 2 → Nat) a + S256x256.size a ≤ S8192x256.size a
  inb_S1024x128_S32x128_768_0 : ∀ a, (![768, 0] : Fin 2 → Nat) a + S32x128.size a ≤ S1024x128.size a
  inb_S8192x256_S256x256_6400_0 : ∀ a, (![6400, 0] : Fin 2 → Nat) a + S256x256.size a ≤ S8192x256.size a
  inb_S1024x128_S32x128_800_0 : ∀ a, (![800, 0] : Fin 2 → Nat) a + S32x128.size a ≤ S1024x128.size a
  inb_S8192x256_S256x256_6656_0 : ∀ a, (![6656, 0] : Fin 2 → Nat) a + S256x256.size a ≤ S8192x256.size a
  inb_S1024x128_S32x128_832_0 : ∀ a, (![832, 0] : Fin 2 → Nat) a + S32x128.size a ≤ S1024x128.size a
  inb_S8192x256_S256x256_6912_0 : ∀ a, (![6912, 0] : Fin 2 → Nat) a + S256x256.size a ≤ S8192x256.size a
  inb_S1024x128_S32x128_864_0 : ∀ a, (![864, 0] : Fin 2 → Nat) a + S32x128.size a ≤ S1024x128.size a
  inb_S8192x256_S256x256_7168_0 : ∀ a, (![7168, 0] : Fin 2 → Nat) a + S256x256.size a ≤ S8192x256.size a
  inb_S1024x128_S32x128_896_0 : ∀ a, (![896, 0] : Fin 2 → Nat) a + S32x128.size a ≤ S1024x128.size a
  inb_S8192x256_S256x256_7424_0 : ∀ a, (![7424, 0] : Fin 2 → Nat) a + S256x256.size a ≤ S8192x256.size a
  inb_S1024x128_S32x128_928_0 : ∀ a, (![928, 0] : Fin 2 → Nat) a + S32x128.size a ≤ S1024x128.size a
  inb_S8192x256_S256x256_7680_0 : ∀ a, (![7680, 0] : Fin 2 → Nat) a + S256x256.size a ≤ S8192x256.size a
  inb_S1024x128_S32x128_960_0 : ∀ a, (![960, 0] : Fin 2 → Nat) a + S32x128.size a ≤ S1024x128.size a
  inb_S8192x256_S256x256_7936_0 : ∀ a, (![7936, 0] : Fin 2 → Nat) a + S256x256.size a ≤ S8192x256.size a
  inb_S1024x128_S32x128_992_0 : ∀ a, (![992, 0] : Fin 2 → Nat) a + S32x128.size a ≤ S1024x128.size a
  slices_S1024x128_S1024x64_0_0 : S1024x128.Slices ![0, 0] S1024x64
  slices_S1024x128_S1024x1_0_64 : S1024x128.Slices ![0, 64] S1024x1
  dot_S2048x256_S256x32_S2048x32_1_0_0_1_n_n_wf : DotDims.WF S2048x256 S256x32 S2048x32 [1] [0] [0] [1] [] []
  dot_S2048x128_S128x32_S2048x32_1_0_0_1_n_n_wf : DotDims.WF S2048x128 S128x32 S2048x32 [1] [0] [0] [1] [] []
  dot_S32x512_S512x64_S32x64_1_0_0_1_n_n_wf : DotDims.WF S32x512 S512x64 S32x64 [1] [0] [0] [1] [] []
  hrank0 : 0 < grid0.rank
  k0_mult1_dvd : ∀ i : grid0.Coords, 8 ∣ (k0_mult1 i).toNat
  k0_off1_inb : ∀ i : grid0.Coords, ∀ a, (k0_off1 i) a + S256x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x10x10x128.size a ≤ S1024x10x10x128.size a
  hwx0_0 : ∀ i : grid0.Coords, EltTy.bits .bf16 = 32 ∨ (Rect.block (s := S1024x10x10x128) S32x10x10x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x32.size a ≤ S4x256x32.size a
  hwx0_1 : ∀ i : grid0.Coords, EltTy.bits .bf16 = 32 ∨ (Rect.block (s := S4x256x32) S4x256x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .bf16 = 32 ∨ (Rect.block (s := S128x32) S128x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .bf16 = 32 ∨ (Rect.block (s := S512x64) S512x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S1024x128.size a
  hwx0_10 : ∀ i : grid0.Coords, EltTy.bits .f32 = 32 ∨ (Rect.block (s := S1024x128) S1024x128.size (cc0_transform_10 i) (hinb0_10 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf

abbrev win0_0 : Pipeline.Window sig grid0 :=
  Pipeline.Window.ofSpec (Memref.whole main_v2) S32x10x10x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4x256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1024x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== Proof.RefShared.lean ====
import proofs.«159686_g2000604559473765_pallasbulk_680_3_alg».proof.Proof.Gen.ReferenceIdeal.Frame
import proofs.«159686_g2000604559473765_pallasbulk_680_3_alg».proof.Proof.Gen.ReferenceIdeal.Skeleton

set_option maxRecDepth 16384

noncomputable section

/-! The fused reference kernel runs at 32 grid points. Its first conditional (the point is the first) zeroes the two
    running batch statistics; its second (the point is the last) runs the head over all 32 slices of the convolution
    scratch. Both are decided here over the grid, with the row offset of the slice a point fills, and where the output
    window is idle. The three scratch buffers are named as whole memrefs, and the class's invariant is restated as
    "each scratch owned at some contents, the generator register at some state". -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The first conditional's condition, from the grid coordinate: the point is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)
/-- The second conditional's condition: the point is the last. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)
/-- Point `t` fills rows `256 t … 256 t + 255` of the convolution scratch. -/
theorem hoff : ∀ t : Fin cfg0.N, k0_off1 (grid0.coords t) = ![256 * t.val, 0] :=
  (by decide +kernel : ∀ t : Fin grid0.N, k0_off1 (grid0.coords t) = ![256 * t.val, 0])
/-- The output window is idle and not written back before the last point, live at it; every input window is live. -/
theorem idle10 : ∀ t : Fin cfg0.N, ¬ t.val % 32 = 31 → cfg0.idle 10 (grid0.coords t) = true := by decide +kernel
theorem live10 : ∀ t : Fin cfg0.N, t.val % 32 = 31 → cfg0.idle 10 (grid0.coords t) = false := by decide +kernel
theorem noFlush10 : ∀ t : Fin cfg0.N, ¬ t.val % 32 = 31 → (cfg0.win 10).flush t = false := by decide +kernel
theorem liveIn : ∀ (w : Fin 10) (t : Fin cfg0.N), cfg0.idle (w.castSucc) (grid0.coords t) = false := by decide +kernel

/-- The three scratch operands: the convolution scratch and the two running statistics. -/
abbrev scM0 : Memref sig .tc .vmem S8192x256 .f32 := Memref.whole cc0_scratch0
abbrev scM1 : Memref sig .tc .vmem S1x32 .f32 := Memref.whole cc0_scratch1
abbrev scM2 : Memref sig .tc .vmem S1x32 .f32 := Memref.whole cc0_scratch2

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.ReferenceIdeal.Body
end
-- ==== Proof.RefRunA.lean ====
import proofs.«159686_g2000604559473765_pallasbulk_680_3_alg».proof.Proof.RefShared

set_option maxRecDepth 16384

noncomputable section

/-! The body at the first point: the two running statistics are zeroed, then the convolution of the point's input tile
    is added into them and stored into the first slice of the convolution scratch; the output window is left as it
    was. The two statistics are stored whole, so what they held before does not matter. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 16000000 in
noncomputable def kernelRun0_A (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : cond0_0 i) (hc1 : ¬cond0_1 i)
    (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32)  :
    Σ' (LS0 : List (View.Piece (Elt F) S8192x256 .f32)), Σ' (LS1 : List (View.Piece (Elt F) S1x32 .f32)), { LS2 : List (View.Piece (Elt F) S1x32 .f32) //
      ∀ (xo : Vec F S1024x128 .f32) (xs0 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (arg12.view.loc (c : Thread nD τ) ↦[arg12.view.set]{fullShare} arg12.view.writes (Elt F) (harg12.unread xs0) LS0) ∗ (∃ f, (arg13.view.loc (c : Thread nD τ) ↦[arg13.view.set]{fullShare} arg13.view.writes (Elt F) f LS1)) ∗ (∃ f, (arg14.view.loc (c : Thread nD τ) ↦[arg14.view.set]{fullShare} arg14.view.writes (Elt F) f LS2))) -∗ K ⟨⟩))
          ⊢ wp frame (wpE (defs₀ (F := F)) Variants.none c none) E (cc0_fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xo xs0 E K => ?run⟩
  case run =>
    simp only [cc0_fused_kernel_eq_skeleton]; unfold cc0_fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%ds1, %fs1, -, HS1⟩, ⟨%ds2, %fs2, -, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hfs0
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [HS0]; · iexact HS0
    isplitl [HS1]; · iexists _; iexact HS1
    iexists _; iexact HS2

end Cert.ReferenceIdeal.Body
end
-- ==== Proof.RefRunB.lean ====
import proofs.«159686_g2000604559473765_pallasbulk_680_3_alg».proof.Proof.RefShared

set_option maxRecDepth 16384

noncomputable section

/-! The body at a point that is neither the first nor the last: the convolution of the point's input tile is added
    into the two running statistics and stored into the point's slice of the convolution scratch; the output window is
    left as it was. The pieces each scratch buffer ends with are what running the body's skeleton finds. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 16000000 in
noncomputable def kernelRun0_B (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : ¬cond0_1 i)
    (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 : Vec F S1x32 .f32) (xs2 : Vec F S1x32 .f32) :
    Σ' (LS0 : List (View.Piece (Elt F) S8192x256 .f32)), Σ' (LS1 : List (View.Piece (Elt F) S1x32 .f32)), { LS2 : List (View.Piece (Elt F) S1x32 .f32) //
      ∀ (xo : Vec F S1024x128 .f32) (xs0 : Vec F S8192x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ (arg12.view.loc (c : Thread nD τ) ↦[arg12.view.set]{fullShare} arg12.view.writes (Elt F) (harg12.unread xs0) LS0) ∗ (∃ f, (arg13.view.loc (c : Thread nD τ) ↦[arg13.view.set]{fullShare} arg13.view.writes (Elt F) f LS1)) ∗ (∃ f, (arg14.view.loc (c : Thread nD τ) ↦[arg14.view.set]{fullShare} arg14.view.writes (Elt F) f LS2))) -∗ K ⟨⟩))
          ⊢ wp frame (wpE (defs₀ (F := F)) Variants.none c none) E (cc0_fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xo xs0 E K => ?run⟩
  case run =>
    simp only [cc0_fused_kernel_eq_skeleton]; unfold cc0_fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hfs0; obtain rfl := harg13.eq_unread hfs1; obtain rfl := harg14.eq_unread hfs2
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [HS0]; · iexact HS0
    isplitl [HS1]; · iexists _; iexact HS1
    iexists _; iexact HS2

end Cert.ReferenceIdeal.Body
end
-- ==== Proof.RefRunC.lean ====
import proofs.«159686_g2000604559473765_pallasbulk_680_3_alg».proof.Proof.RefShared

set_option maxRecDepth 16384

noncomputable section

/-! The body at the last point: the convolution of the point's input tile is added into the two running statistics and
    stored into the last slice of the convolution scratch; then the batch statistics are finalised and the head
    (normalise, rectify, pool, two dense layers) is run over each of the 32 slices of the scratch in turn, each writing
    32 rows of the output window. The slices of the 31 earlier points enter as parameters: the scratch may hold
    anything whose reads at those slices are the parameters. The output window's 32 stores tile it. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 16000000 in
noncomputable def kernelRun0_C (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : cond0_1 i) (hl0 : k0_off1 i = ![7936, 0])
    (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 : Vec F S1x32 .f32) (xs2 : Vec F S1x32 .f32) (ps0_0 : Vec F S256x256 .f32) (ps0_1 : Vec F S256x256 .f32) (ps0_2 : Vec F S256x256 .f32) (ps0_3 : Vec F S256x256 .f32) (ps0_4 : Vec F S256x256 .f32) (ps0_5 : Vec F S256x256 .f32) (ps0_6 : Vec F S256x256 .f32) (ps0_7 : Vec F S256x256 .f32) (ps0_8 : Vec F S256x256 .f32) (ps0_9 : Vec F S256x256 .f32) (ps0_10 : Vec F S256x256 .f32) (ps0_11 : Vec F S256x256 .f32) (ps0_12 : Vec F S256x256 .f32) (ps0_13 : Vec F S256x256 .f32) (ps0_14 : Vec F S256x256 .f32) (ps0_15 : Vec F S256x256 .f32) (ps0_16 : Vec F S256x256 .f32) (ps0_17 : Vec F S256x256 .f32) (ps0_18 : Vec F S256x256 .f32) (ps0_19 : Vec F S256x256 .f32) (ps0_20 : Vec F S256x256 .f32) (ps0_21 : Vec F S256x256 .f32) (ps0_22 : Vec F S256x256 .f32) (ps0_23 : Vec F S256x256 .f32) (ps0_24 : Vec F S256x256 .f32) (ps0_25 : Vec F S256x256 .f32) (ps0_26 : Vec F S256x256 .f32) (ps0_27 : Vec F S256x256 .f32) (ps0_28 : Vec F S256x256 .f32) (ps0_29 : Vec F S256x256 .f32) (ps0_30 : Vec F S256x256 .f32) :
    Σ' (L10 : List (View.Piece (Elt F) S1024x128 .f32)), Σ' (LS0 : List (View.Piece (Elt F) S8192x256 .f32)), Σ' (LS1 : List (View.Piece (Elt F) S1x32 .f32)), { LS2 : List (View.Piece (Elt F) S1x32 .f32) //
      ∀ (xs0 : Vec F S8192x256 .f32) (hps0_0 : View.readAt (Elt F) arg12.view (Rect.unit (s := S8192x256) ![0, 0] S256x256.size inb_S8192x256_S256x256_0_0).toLoadRect (harg12.unread xs0) = ps0_0) (hps0_1 : View.readAt (Elt F) arg12.view (Rect.unit (s := S8192x256) ![256, 0] S256x256.size inb_S8192x256_S256x256_256_0).toLoadRect (harg12.unread xs0) = ps0_1) (hps0_2 : View.readAt (Elt F) arg12.view (Rect.unit (s := S8192x256) ![512, 0] S256x256.size inb_S8192x256_S256x256_512_0).toLoadRect (harg12.unread xs0) = ps0_2) (hps0_3 : View.readAt (Elt F) arg12.view (Rect.unit (s := S8192x256) ![768, 0] S256x256.size inb_S8192x256_S256x256_768_0).toLoadRect (harg12.unread xs0) = ps0_3) (hps0_4 : View.readAt (Elt F) arg12.view (Rect.unit (s := S8192x256) ![1024, 0] S256x256.size inb_S8192x256_S256x256_1024_0).toLoadRect (harg12.unread xs0) = ps0_4) (hps0_5 : View.readAt (Elt F) arg12.view (Rect.unit (s := S8192x256) ![1280, 0] S256x256.size inb_S8192x256_S256x256_1280_0).toLoadRect (harg12.unread xs0) = ps0_5) (hps0_6 : View.readAt (Elt F) arg12.view (Rect.unit (s := S8192x256) ![1536, 0] S256x256.size inb_S8192x256_S256x256_1536_0).toLoadRect (harg12.unread xs0) = ps0_6) (hps0_7 : View.readAt (Elt F) arg12.view (Rect.unit (s := S8192x256) ![1792, 0] S256x256.size inb_S8192x256_S256x256_1792_0).toLoadRect (harg12.unread xs0) = ps0_7) (hps0_8 : View.readAt (Elt F) arg12.view (Rect.unit (s := S8192x256) ![2048, 0] S256x256.size inb_S8192x256_S256x256_2048_0).toLoadRect (harg12.unread xs0) = ps0_8) (hps0_9 : View.readAt (Elt F) arg12.view (Rect.unit (s := S8192x256) ![2304, 0] S256x256.size inb_S8192x256_S256x256_2304_0).toLoadRect (harg12.unread xs0) = ps0_9) (hps0_10 : View.readAt (Elt F) arg12.view (Rect.unit (s := S8192x256) ![2560, 0] S256x256.size inb_S8192x256_S256x256_2560_0).toLoadRect (harg12.unread xs0) = ps0_10) (hps0_11 : View.readAt (Elt F) arg12.view (Rect.unit (s := S8192x256) ![2816, 0] S256x256.size inb_S8192x256_S256x256_2816_0).toLoadRect (harg12.unread xs0) = ps0_11) (hps0_12 : View.readAt (Elt F) arg12.view (Rect.unit (s := S8192x256) ![3072, 0] S256x256.size inb_S8192x256_S256x256_3072_0).toLoadRect (harg12.unread xs0) = ps0_12) (hps0_13 : View.readAt (Elt F) arg12.view (Rect.unit (s := S8192x256) ![3328, 0] S256x256.size inb_S8192x256_S256x256_3328_0).toLoadRect (harg12.unread xs0) = ps0_13) (hps0_14 : View.readAt (Elt F) arg12.view (Rect.unit (s := S8192x256) ![3584, 0] S256x256.size inb_S8192x256_S256x256_3584_0).toLoadRect (harg12.unread xs0) = ps0_14) (hps0_15 : View.readAt (Elt F) arg12.view (Rect.unit (s := S8192x256) ![3840, 0] S256x256.size inb_S8192x256_S256x256_3840_0).toLoadRect (harg12.unread xs0) = ps0_15) (hps0_16 : View.readAt (Elt F) arg12.view (Rect.unit (s := S8192x256) ![4096, 0] S256x256.size inb_S8192x256_S256x256_4096_0).toLoadRect (harg12.unread xs0) = ps0_16) (hps0_17 : View.readAt (Elt F) arg12.view (Rect.unit (s := S8192x256) ![4352, 0] S256x256.size inb_S8192x256_S256x256_4352_0).toLoadRect (harg12.unread xs0) = ps0_17) (hps0_18 : View.readAt (Elt F) arg12.view (Rect.unit (s := S8192x256) ![4608, 0] S256x256.size inb_S8192x256_S256x256_4608_0).toLoadRect (harg12.unread xs0) = ps0_18) (hps0_19 : View.readAt (Elt F) arg12.view (Rect.unit (s := S8192x256) ![4864, 0] S256x256.size inb_S8192x256_S256x256_4864_0).toLoadRect (harg12.unread xs0) = ps0_19) (hps0_20 : View.readAt (Elt F) arg12.view (Rect.unit (s := S8192x256) ![5120, 0] S256x256.size inb_S8192x256_S256x256_5120_0).toLoadRect (harg12.unread xs0) = ps0_20) (hps0_21 : View.readAt (Elt F) arg12.view (Rect.unit (s := S8192x256) ![5376, 0] S256x256.size inb_S8192x256_S256x256_5376_0).toLoadRect (harg12.unread xs0) = ps0_21) (hps0_22 : View.readAt (Elt F) arg12.view (Rect.unit (s := S8192x256) ![5632, 0] S256x256.size inb_S8192x256_S256x256_5632_0).toLoadRect (harg12.unread xs0) = ps0_22) (hps0_23 : View.readAt (Elt F) arg12.view (Rect.unit (s := S8192x256) ![5888, 0] S256x256.size inb_S8192x256_S256x256_5888_0).toLoadRect (harg12.unread xs0) = ps0_23) (hps0_24 : View.readAt (Elt F) arg12.view (Rect.unit (s := S8192x256) ![6144, 0] S256x256.size inb_S8192x256_S256x256_6144_0).toLoadRect (harg12.unread xs0) = ps0_24) (hps0_25 : View.readAt (Elt F) arg12.view (Rect.unit (s := S8192x256) ![6400, 0] S256x256.size inb_S8192x256_S256x256_6400_0).toLoadRect (harg12.unread xs0) = ps0_25) (hps0_26 : View.readAt (Elt F) arg12.view (Rect.unit (s := S8192x256) ![6656, 0] S256x256.size inb_S8192x256_S256x256_6656_0).toLoadRect (harg12.unread xs0) = ps0_26) (hps0_27 : View.readAt (Elt F) arg12.view (Rect.unit (s := S8192x256) ![6912, 0] S256x256.size inb_S8192x256_S256x256_6912_0).toLoadRect (harg12.unread xs0) = ps0_27) (hps0_28 : View.readAt (Elt F) arg12.view (Rect.unit (s := S8192x256) ![7168, 0] S256x256.size inb_S8192x256_S256x256_7168_0).toLoadRect (harg12.unread xs0) = ps0_28) (hps0_29 : View.readAt (Elt F) arg12.view (Rect.unit (s := S8192x256) ![7424, 0] S256x256.size inb_S8192x256_S256x256_7424_0).toLoadRect (harg12.unread xs0) = ps0_29) (hps0_30 : View.readAt (Elt F) arg12.view (Rect.unit (s := S8192x256) ![7680, 0] S256x256.size inb_S8192x256_S256x256_7680_0).toLoadRect (harg12.unread xs0) = ps0_30) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, (arg11.view.loc (c : Thread nD τ) ↦[arg11.view.set]{fullShare} arg11.view.writes (Elt F) f L10)) ∗ (arg12.view.loc (c : Thread nD τ) ↦[arg12.view.set]{fullShare} arg12.view.writes (Elt F) (harg12.unread xs0) LS0) ∗ (∃ f, (arg13.view.loc (c : Thread nD τ) ↦[arg13.view.set]{fullShare} arg13.view.writes (Elt F) f LS1)) ∗ (∃ f, (arg14.view.loc (c : Thread nD τ) ↦[arg14.view.set]{fullShare} arg14.view.writes (Elt F) f LS2))) -∗ K ⟨⟩))
          ⊢ wp frame (wpE (defs₀ (F := F)) Variants.none c none) E (cc0_fused_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xs0 hps0_0 hps0_1 hps0_2 hps0_3 hps0_4 hps0_5 hps0_6 hps0_7 hps0_8 hps0_9 hps0_10 hps0_11 hps0_12 hps0_13 hps0_14 hps0_15 hps0_16 hps0_17 hps0_18 hps0_19 hps0_20 hps0_21 hps0_22 hps0_23 hps0_24 hps0_25 hps0_26 hps0_27 hps0_28 hps0_29 hps0_30 E K => ?run⟩
  case run =>
    letI : ClosedOff (k0_off1 i) := ⟨![7936, 0], hl0⟩
    simp only [cc0_fused_kernel_eq_skeleton]; unfold cc0_fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hfs0; obtain rfl := harg13.eq_unread hfs1; obtain rfl := harg14.eq_unread hfs2
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [HS0]; · iexact HS0
    isplitl [HS1]; · iexists _; iexact HS1
    iexists _; iexact HS2

end Cert.ReferenceIdeal.Body
end
-- ==== Proof.RefPieces.lean ====
import proofs.«159686_g2000604559473765_pallasbulk_680_3_alg».proof.Proof.RefRunA
import proofs.«159686_g2000604559473765_pallasbulk_680_3_alg».proof.Proof.RefRunB
import proofs.«159686_g2000604559473765_pallasbulk_680_3_alg».proof.Proof.RefRunC
import Idealize.ShloMosaic.Lib.Pipeline.Value

set_option maxRecDepth 16384

noncomputable section

/-! What the three runs of the reference's body found, through the body's payload names: the slice of the convolution
    scratch a point fills holds the point's lane-dense convolution tile; each running statistic holds the statistic
    it was handed (zero at the first point) with the tile's column sums added. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

/-- The lane-dense convolution tile of one input tile: 256 rows (batch row, image row) by 256 columns (image column,
    channel), from the padded input tile, the paired and the last tap weights, and the bias. -/
def tileOf (x0 : Vec F S32x10x10x128 .bf16) (x1 : Vec F S4x256x32 .bf16) (x2 : Vec F S128x32 .bf16) (x3 : Vec F S1x32 .f32) : Vec F S256x256 .f32 :=
  k0_pay1 (k0_pay491 (k0_pay483 x2) (k0_pay484 x0 x1) (k0_pay485 x0) x3) (k0_pay492 (k0_pay483 x2) (k0_pay484 x0 x1) (k0_pay485 x0) x3) (k0_pay493 (k0_pay483 x2) (k0_pay484 x0 x1) (k0_pay485 x0) x3) (k0_pay494 (k0_pay483 x2) (k0_pay484 x0 x1) (k0_pay485 x0) x3) (k0_pay495 (k0_pay483 x2) (k0_pay484 x0 x1) (k0_pay485 x0) x3) (k0_pay496 (k0_pay483 x2) (k0_pay484 x0 x1) (k0_pay485 x0) x3) (k0_pay497 (k0_pay483 x2) (k0_pay484 x0 x1) (k0_pay485 x0) x3)
/-- A running per-channel sum `s` with the tile's column sums of the convolution added. -/
def acc1 (x0 : Vec F S32x10x10x128 .bf16) (x1 : Vec F S4x256x32 .bf16) (x2 : Vec F S128x32 .bf16) (x3 : Vec F S1x32 .f32) (s : Vec F S1x32 .f32) : Vec F S1x32 .f32 :=
  k0_pay489 (k0_pay483 x2) (k0_pay484 x0 x1) (k0_pay485 x0) x3 s
/-- A running per-channel sum of squares `s` with the tile's column sums of the squared convolution added. -/
def acc2 (x0 : Vec F S32x10x10x128 .bf16) (x1 : Vec F S4x256x32 .bf16) (x2 : Vec F S128x32 .bf16) (x3 : Vec F S1x32 .f32) (s : Vec F S1x32 .f32) : Vec F S1x32 .f32 :=
  k0_pay490 (k0_pay483 x2) (k0_pay484 x0 x1) (k0_pay485 x0) x3 s

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

section first
variable (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : cond0_0 i) (hc1 : ¬cond0_1 i) (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32)
theorem A_conv : (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).1 = [⟨Rect.unit (k0_off1 i) S256x256.size (k0_off1_inb i), tileOf x0 x1 x2 x3⟩] := by
  unfold kernelRun0_A; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rfl
theorem A_stat1 (f) : arg13.view.read (Elt F) (arg13.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.1) = acc1 x0 x1 x2 x3 k0_pay487 := by
  unfold kernelRun0_A; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rw [View.readCov_unit_zero _ hz2]
  rfl
theorem A_stat2 (f) : arg14.view.read (Elt F) (arg14.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9).2.2.1) = acc2 x0 x1 x2 x3 k0_pay488 := by
  unfold kernelRun0_A; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rw [View.readCov_unit_zero _ hz2]
  rfl
end first

section middle
variable (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : ¬cond0_1 i) (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 xs2 : Vec F S1x32 .f32)
theorem B_conv : (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs1 xs2).1 = [⟨Rect.unit (k0_off1 i) S256x256.size (k0_off1_inb i), tileOf x0 x1 x2 x3⟩] := by
  unfold kernelRun0_B; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rfl
theorem B_stat1 (f) : arg13.view.read (Elt F) (arg13.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs1 xs2).2.1) = acc1 x0 x1 x2 x3 xs1 := by
  unfold kernelRun0_B; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rfl
theorem B_stat2 (f) : arg14.view.read (Elt F) (arg14.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs1 xs2).2.2.1) = acc2 x0 x1 x2 x3 xs2 := by
  unfold kernelRun0_B; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rfl
end middle

section last
variable (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : cond0_1 i) (hl0 : k0_off1 i = ![7936, 0]) (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 xs2 : Vec F S1x32 .f32) (ps0_0 : Vec F S256x256 .f32) (ps0_1 : Vec F S256x256 .f32) (ps0_2 : Vec F S256x256 .f32) (ps0_3 : Vec F S256x256 .f32) (ps0_4 : Vec F S256x256 .f32) (ps0_5 : Vec F S256x256 .f32) (ps0_6 : Vec F S256x256 .f32) (ps0_7 : Vec F S256x256 .f32) (ps0_8 : Vec F S256x256 .f32) (ps0_9 : Vec F S256x256 .f32) (ps0_10 : Vec F S256x256 .f32) (ps0_11 : Vec F S256x256 .f32) (ps0_12 : Vec F S256x256 .f32) (ps0_13 : Vec F S256x256 .f32) (ps0_14 : Vec F S256x256 .f32) (ps0_15 : Vec F S256x256 .f32) (ps0_16 : Vec F S256x256 .f32) (ps0_17 : Vec F S256x256 .f32) (ps0_18 : Vec F S256x256 .f32) (ps0_19 : Vec F S256x256 .f32) (ps0_20 : Vec F S256x256 .f32) (ps0_21 : Vec F S256x256 .f32) (ps0_22 : Vec F S256x256 .f32) (ps0_23 : Vec F S256x256 .f32) (ps0_24 : Vec F S256x256 .f32) (ps0_25 : Vec F S256x256 .f32) (ps0_26 : Vec F S256x256 .f32) (ps0_27 : Vec F S256x256 .f32) (ps0_28 : Vec F S256x256 .f32) (ps0_29 : Vec F S256x256 .f32) (ps0_30 : Vec F S256x256 .f32)
set_option maxHeartbeats 4000000 in
theorem C_conv : (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).2.1 = [⟨Rect.unit (k0_off1 i) S256x256.size (k0_off1_inb i), tileOf x0 x1 x2 x3⟩] := by
  unfold kernelRun0_C; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rfl
set_option maxHeartbeats 4000000 in
theorem C_stat1 (f) : arg13.view.read (Elt F) (arg13.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).2.2.1) = acc1 x0 x1 x2 x3 xs1 := by
  unfold kernelRun0_C; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rfl
set_option maxHeartbeats 4000000 in
theorem C_stat2 (f) : arg14.view.read (Elt F) (arg14.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).2.2.2.1) = acc2 x0 x1 x2 x3 xs2 := by
  unfold kernelRun0_C; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rw [View.read_writes_eq_canon _ _ _ (fun y => ⟨_, List.mem_cons_self, View.mem_set_unit_zero hz2 inb_S1x32_S1x32_0_0 y⟩), View.canon_cons_unit_zero hz2]
  rfl
end last

end Cert.ReferenceIdeal.Body
end
-- ==== Proof.RefSlices.lean ====
import proofs.«159686_g2000604559473765_pallasbulk_680_3_alg».proof.ReferenceIdeal
import Idealize.ShloMosaic.Lib.Pipeline.Value
import Idealize.ShloMosaic.Lib.Exec.Geometry

set_option maxRecDepth 16384

noncomputable section

/-! The convolution scratch has 8192 rows, filled 256 rows at a time. Slice `j` is rows `256 j … 256 j + 255`, all 256
    columns. After one store of a tile at slice `t`, a read of slice `t` is the tile, and a read of any other slice
    is what it was before: the two row ranges are disjoint. -/

namespace Cert.ReferenceIdeal.Body
open Idealize.ShloMosaic
open Cert.ReferenceIdeal

variable {Val : EltTy → Type} [∀ e, Nonempty (Val e)]

theorem slice_inb (j : Fin 32) : ∀ a, (![256 * j.val, 0] : Fin 2 → ℕ) a + S256x256.size a ≤ S8192x256.size a := by
  intro a; have := j.isLt
  fin_cases a
  · show 256 * j.val + 256 ≤ 8192; omega
  · show 0 + 256 ≤ 256; omega

/-- Slice `j` of the scratch. -/
abbrev sliceRect (j : Fin 32) : Rect S8192x256 := Rect.unit (s := S8192x256) ![256 * j.val, 0] S256x256.size (slice_inb j)

variable {sig : RefSig} {κ : Kind} {sp : Space}

/-- A read of the slice just stored is the stored tile. -/
theorem read_slice_same (v : View sig κ sp S8192x256 .f32) (f : v.ty.Contents Val) (t : Fin 32)
    (off : Fin 2 → ℕ) (hoff : off = ![256 * t.val, 0]) (inb : ∀ a, off a + S256x256.size a ≤ S8192x256.size a)
    (w : S256x256.Idx → Val .f32) :
    v.readAt Val (sliceRect t).toLoadRect (v.writes Val f [⟨Rect.unit off S256x256.size inb, w⟩]) = w := by
  subst hoff
  have hc : ∀ x : (sliceRect t).toLoadRect.shape.Idx, ∃ p ∈ ([⟨Rect.unit ![256 * t.val, 0] S256x256.size inb, w⟩] : List (View.Piece Val S8192x256 .f32)),
      (sliceRect t).toLoadRect.idx x ∈ p.1.set := fun x =>
    ⟨_, List.mem_singleton_self _, by
      have hm := LoadRect.idx_mem (Rect.unit (s := S8192x256) ![256 * t.val, 0] S256x256.size inb).toLoadRect x
      exact hm⟩
  rw [View.readAt_writes_of_cover v f _ _ hc, View.readCov_eq_canon v _ _ hc]
  funext x
  exact View.canon_cons_emb (Rect.unit (s := S8192x256) ![256 * t.val, 0] S256x256.size inb) w [] x

/-- A read of another slice is what that slice held. -/
theorem read_slice_other (v : View sig κ sp S8192x256 .f32) (f : v.ty.Contents Val) (t j : Fin 32) (hj : j ≠ t)
    (off : Fin 2 → ℕ) (hoff : off = ![256 * t.val, 0]) (inb : ∀ a, off a + S256x256.size a ≤ S8192x256.size a)
    (w : S256x256.Idx → Val .f32) :
    v.readAt Val (sliceRect j).toLoadRect (v.writes Val f [⟨Rect.unit off S256x256.size inb, w⟩]) = v.readAt Val (sliceRect j).toLoadRect f := by
  subst hoff
  refine View.readAt_writes_of_forall_not_mem v f _ _ (fun x p hp => ?_)
  rw [List.mem_singleton] at hp; subst hp
  rw [Rect.mem_set_unit]
  intro h
  have h0 := h 0
  have hx : ((sliceRect j).toLoadRect.idx x 0 : ℕ) = 256 * j.val + 1 * (x 0).val := rfl
  have hxlt : (x 0).val < 256 := (x 0).isLt
  have e0 : (![256 * t.val, 0] : Fin 2 → ℕ) 0 = 256 * t.val := rfl
  have s0 : S256x256.size 0 = 256 := rfl
  rw [hx, e0, s0] at h0
  have : j.val ≠ t.val := fun e => hj (Fin.ext e)
  omega

end Cert.ReferenceIdeal.Body
end
-- ==== Proof.RefData.lean ====
import proofs.«159686_g2000604559473765_pallasbulk_680_3_alg».proof.Proof.RefPieces
import proofs.«159686_g2000604559473765_pallasbulk_680_3_alg».proof.Proof.RefSlices

set_option maxRecDepth 16384

noncomputable section

/-! The proof data of the reference's one pipeline. Point `n` adds its input tile's convolution into the two running
    statistics (`stat`) and stores the tile into slice `n` of the convolution scratch (`tileAt`). The invariant before
    point `n + 1` says: the scratch holds some contents whose slices `0 … n` read as the tiles of points `0 … n`, and the
    two statistics are at `stat n`. The output window is written at the last point only; what it then holds is named
    through the pieces the last case's run found. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `n` (taken mod 32). -/
def pt (n : ℕ) : Fin cfg0.N := ⟨n % 32, lt_of_lt_of_eq (Nat.mod_lt n (by decide)) N_0.symm⟩
theorem pt_val (t : Fin cfg0.N) : pt t.val = t :=
  Fin.ext (Nat.mod_eq_of_lt (lt_of_lt_of_eq t.isLt (show cfg0.N = 32 from N_0)))

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
theorem live0_6 : ∀ t : Fin cfg0.N, cfg0.idle 6 (grid0.coords t) = false := by decide +kernel
theorem live0_7 : ∀ t : Fin cfg0.N, cfg0.idle 7 (grid0.coords t) = false := by decide +kernel
theorem live0_8 : ∀ t : Fin cfg0.N, cfg0.idle 8 (grid0.coords t) = false := by decide +kernel
theorem live0_9 : ∀ t : Fin cfg0.N, cfg0.idle 9 (grid0.coords t) = false := by decide +kernel

/-- The convolution tile of point `n`. -/
def tileAt (c : Dev nD) (n : ℕ) : Vec F S256x256 .f32 := tileOf (iblk m c 0 (pt n)) (iblk m c 1 (pt n)) (iblk m c 2 (pt n)) (iblk m c 3 (pt n))
/-- The two running statistics after point `n`. -/
def stat (c : Dev nD) : ℕ → Vec F S1x32 .f32 × Vec F S1x32 .f32
  | 0 => (acc1 (iblk m c 0 (pt 0)) (iblk m c 1 (pt 0)) (iblk m c 2 (pt 0)) (iblk m c 3 (pt 0)) k0_pay487, acc2 (iblk m c 0 (pt 0)) (iblk m c 1 (pt 0)) (iblk m c 2 (pt 0)) (iblk m c 3 (pt 0)) k0_pay488)
  | n + 1 => (acc1 (iblk m c 0 (pt (n + 1))) (iblk m c 1 (pt (n + 1))) (iblk m c 2 (pt (n + 1))) (iblk m c 3 (pt (n + 1))) (stat c n).1, acc2 (iblk m c 0 (pt (n + 1))) (iblk m c 1 (pt (n + 1))) (iblk m c 2 (pt (n + 1))) (iblk m c 3 (pt (n + 1))) (stat c n).2)

/-- Slice `j` of scratch contents `xs0`, read through the scratch's whole memref. -/
def slice (j : Fin 32) (xs0 : Vec F S8192x256 .f32) : Vec F S256x256 .f32 :=
  scM0.view.readAt (Elt F) (sliceRect j).toLoadRect ((Memref.isWhole_whole cc0_scratch0).unread xs0)
/-- The slices below `n` are the tiles of the points below `n`. -/
def convFacts (c : Dev nD) (n : ℕ) (xs0 : Vec F S8192x256 .f32) : Prop := ∀ j : Fin 32, j.val < n → slice j xs0 = tileAt m c j.val

/-- The region invariant before point `n`. -/
def PhiS (c : Dev nD) : ℕ → sProp 𝕄
  | 0 => Pipeline.ΦA spec0 c
  | n + 1 => iprop(iprop((∃ xs0, owns (c : Thread nD τ) scM0 fullShare xs0 ∗ ⌜convFacts m c (n + 1) xs0⌝) ∗ owns (c : Thread nD τ) scM1 fullShare (stat m c n).1 ∗ owns (c : Thread nD τ) scM2 fullShare (stat m c n).2) ∗ (∃ r, prngReg c r))

/-- The last point, and its case's hypotheses. -/
abbrev t31 : Fin cfg0.N := pt 31
theorem hc0_31 : ¬cond0_0 (grid0.coords t31) := fun h => absurd ((hcond0_0 t31).mp h) (by decide)
theorem hc1_31 : cond0_1 (grid0.coords t31) := (hcond0_1 t31).mpr (by decide)
theorem hl_31 : k0_off1 (grid0.coords t31) = ![7936, 0] := (hoff t31).trans (by decide)

/-- One staging buffer of the output window, through which its contents are stated. -/
abbrev VO10 : View sig .tc .vmem S1024x128 .f32 := (Memref.whole cc0_stg10_0 : Memref sig .tc .vmem S1024x128 .f32).view

/-- The pieces the last case stores into the output window tile it. -/
theorem cover10 (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : cond0_1 i) (hl0 : k0_off1 i = ![7936, 0]) (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 xs2 : Vec F S1x32 .f32) (ps0_0 : Vec F S256x256 .f32) (ps0_1 : Vec F S256x256 .f32) (ps0_2 : Vec F S256x256 .f32) (ps0_3 : Vec F S256x256 .f32) (ps0_4 : Vec F S256x256 .f32) (ps0_5 : Vec F S256x256 .f32) (ps0_6 : Vec F S256x256 .f32) (ps0_7 : Vec F S256x256 .f32) (ps0_8 : Vec F S256x256 .f32) (ps0_9 : Vec F S256x256 .f32) (ps0_10 : Vec F S256x256 .f32) (ps0_11 : Vec F S256x256 .f32) (ps0_12 : Vec F S256x256 .f32) (ps0_13 : Vec F S256x256 .f32) (ps0_14 : Vec F S256x256 .f32) (ps0_15 : Vec F S256x256 .f32) (ps0_16 : Vec F S256x256 .f32) (ps0_17 : Vec F S256x256 .f32) (ps0_18 : Vec F S256x256 .f32) (ps0_19 : Vec F S256x256 .f32) (ps0_20 : Vec F S256x256 .f32) (ps0_21 : Vec F S256x256 .f32) (ps0_22 : Vec F S256x256 .f32) (ps0_23 : Vec F S256x256 .f32) (ps0_24 : Vec F S256x256 .f32) (ps0_25 : Vec F S256x256 .f32) (ps0_26 : Vec F S256x256 .f32) (ps0_27 : Vec F S256x256 .f32) (ps0_28 : Vec F S256x256 .f32) (ps0_29 : Vec F S256x256 .f32) (ps0_30 : Vec F S256x256 .f32) (y : S1024x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).1 S32x128.size (by sl_kernel_rfl) y

/-- What the output window holds after the last point. -/
def outFinal (c : Dev nD) : Vec F S1024x128 .f32 :=
  VO10.read (Elt F) (VO10.writes (Elt F) VO10.junk (kernelRun0_C c (grid0.coords t31) (ms0_0 t31) (hs0_0 t31) (ms0_1 t31) (hs0_1 t31) (ms0_2 t31) (hs0_2 t31) (ms0_3 t31) (hs0_3 t31) (ms0_4 t31) (hs0_4 t31) (ms0_5 t31) (hs0_5 t31) (ms0_6 t31) (hs0_6 t31) (ms0_7 t31) (hs0_7 t31) (ms0_8 t31) (hs0_8 t31) (ms0_9 t31) (hs0_9 t31) (ms0_10 t31) (hs0_10 t31) scM0 (Memref.isWhole_whole _) scM1 (Memref.isWhole_whole _) scM2 (Memref.isWhole_whole _) hc0_31 hc1_31 hl_31 (iblk m c 0 t31) (iblk m c 1 t31) (iblk m c 2 t31) (iblk m c 3 t31) (iblk m c 4 t31) (iblk m c 5 t31) (iblk m c 6 t31) (iblk m c 7 t31) (iblk m c 8 t31) (iblk m c 9 t31) (stat m c 30).1 (stat m c 30).2 (tileAt m c 0) (tileAt m c 1) (tileAt m c 2) (tileAt m c 3) (tileAt m c 4) (tileAt m c 5) (tileAt m c 6) (tileAt m c 7) (tileAt m c 8) (tileAt m c 9) (tileAt m c 10) (tileAt m c 11) (tileAt m c 12) (tileAt m c 13) (tileAt m c 14) (tileAt m c 15) (tileAt m c 16) (tileAt m c 17) (tileAt m c 18) (tileAt m c 19) (tileAt m c 20) (tileAt m c 21) (tileAt m c 22) (tileAt m c 23) (tileAt m c 24) (tileAt m c 25) (tileAt m c 26) (tileAt m c 27) (tileAt m c 28) (tileAt m c 29) (tileAt m c 30)).1)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outFinal m c
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outFinal m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.ReferenceIdeal.Body
end
-- ==== Proof.RefBody.lean ====
import proofs.«159686_g2000604559473765_pallasbulk_680_3_alg».proof.Proof.RefData

set_option maxRecDepth 16384

noncomputable section

/-! The body obligation of the reference's pipeline at every point: by cases on the point being the first, the last, or
    neither. Each case applies its run, and hands the invariant on with the point's tile stored in its slice and the
    point's column sums added into the running statistics. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiS_succ (c : Dev nD) (n : ℕ) : PhiS m c (n + 1)
    = iprop(iprop((∃ xs0, owns (c : Thread nD τ) scM0 fullShare xs0 ∗ ⌜convFacts m c (n + 1) xs0⌝) ∗ owns (c : Thread nD τ) scM1 fullShare (stat m c n).1 ∗ owns (c : Thread nD τ) scM2 fullShare (stat m c n).2) ∗ (∃ r, prngReg c r)) := rfl

/-- The statistics after the first point. -/
theorem stat_first (c : Dev nD) (t : Fin cfg0.N) (h0 : t.val = 0) :
    stat m c t.val = (acc1 (iblk m c 0 t) (iblk m c 1 t) (iblk m c 2 t) (iblk m c 3 t) k0_pay487, acc2 (iblk m c 0 t) (iblk m c 1 t) (iblk m c 2 t) (iblk m c 3 t) k0_pay488) := by
  obtain rfl : pt 0 = t := by rw [← h0]; exact pt_val t
  rfl
/-- The statistics after a later point, from those after the point before. -/
theorem stat_next (c : Dev nD) (t : Fin cfg0.N) (k : ℕ) (hk : t.val = k + 1) :
    stat m c t.val = (acc1 (iblk m c 0 t) (iblk m c 1 t) (iblk m c 2 t) (iblk m c 3 t) (stat m c k).1, acc2 (iblk m c 0 t) (iblk m c 1 t) (iblk m c 2 t) (iblk m c 3 t) (stat m c k).2) := by
  have e : pt (k + 1) = t := by rw [← hk]; exact pt_val t
  rw [hk]; subst e; rfl

/-- One point's store into its slice extends the slice facts by one point. -/
theorem conv_step (c : Dev nD) (t : Fin cfg0.N) (xs0 : Vec F S8192x256 .f32) (h : convFacts m c t.val xs0)
    (LS0 : List (View.Piece (Elt F) S8192x256 .f32))
    (hL : LS0 = [⟨Rect.unit (k0_off1 (grid0.coords t)) S256x256.size (k0_off1_inb (grid0.coords t)), tileOf (iblk m c 0 t) (iblk m c 1 t) (iblk m c 2 t) (iblk m c 3 t)⟩]) :
    convFacts m c (t.val + 1) (scM0.view.read (Elt F) (scM0.view.writes (Elt F) ((Memref.isWhole_whole cc0_scratch0).unread xs0) LS0)) := by
  subst hL
  have hN : t.val < 32 := lt_of_lt_of_eq t.isLt (show cfg0.N = 32 from N_0)
  intro j hj
  unfold slice
  rw [Memref.IsWhole.unread_read]
  by_cases hjt : j.val = t.val
  · obtain rfl : j = ⟨t.val, hN⟩ := Fin.ext hjt
    rw [read_slice_same scM0.view _ ⟨t.val, hN⟩ _ (hoff t) _ _]
    unfold tileAt; rw [pt_val]
  · rw [read_slice_other scM0.view _ ⟨t.val, hN⟩ j (fun e => hjt (congrArg Fin.val e)) _ (hoff t) _ _]
    exact h j (by omega)

theorem leaves0_0 (c : Dev nD) (t : Fin cfg0.N) : (dats m 0 c).leavesExact 0 t = owns (c : Thread nD τ) (ms0_0 t) fullShare (iblk m c 0 t) := by
  unfold Dat.leavesExact; rw [live0_0 t, after0_0]
theorem leaves0_1 (c : Dev nD) (t : Fin cfg0.N) : (dats m 0 c).leavesExact 1 t = owns (c : Thread nD τ) (ms0_1 t) fullShare (iblk m c 1 t) := by
  unfold Dat.leavesExact; rw [live0_1 t, after0_1]
theorem leaves0_2 (c : Dev nD) (t : Fin cfg0.N) : (dats m 0 c).leavesExact 2 t = owns (c : Thread nD τ) (ms0_2 t) fullShare (iblk m c 2 t) := by
  unfold Dat.leavesExact; rw [live0_2 t, after0_2]
theorem leaves0_3 (c : Dev nD) (t : Fin cfg0.N) : (dats m 0 c).leavesExact 3 t = owns (c : Thread nD τ) (ms0_3 t) fullShare (iblk m c 3 t) := by
  unfold Dat.leavesExact; rw [live0_3 t, after0_3]
theorem leaves0_4 (c : Dev nD) (t : Fin cfg0.N) : (dats m 0 c).leavesExact 4 t = owns (c : Thread nD τ) (ms0_4 t) fullShare (iblk m c 4 t) := by
  unfold Dat.leavesExact; rw [live0_4 t, after0_4]
theorem leaves0_5 (c : Dev nD) (t : Fin cfg0.N) : (dats m 0 c).leavesExact 5 t = owns (c : Thread nD τ) (ms0_5 t) fullShare (iblk m c 5 t) := by
  unfold Dat.leavesExact; rw [live0_5 t, after0_5]
theorem leaves0_6 (c : Dev nD) (t : Fin cfg0.N) : (dats m 0 c).leavesExact 6 t = owns (c : Thread nD τ) (ms0_6 t) fullShare (iblk m c 6 t) := by
  unfold Dat.leavesExact; rw [live0_6 t, after0_6]
theorem leaves0_7 (c : Dev nD) (t : Fin cfg0.N) : (dats m 0 c).leavesExact 7 t = owns (c : Thread nD τ) (ms0_7 t) fullShare (iblk m c 7 t) := by
  unfold Dat.leavesExact; rw [live0_7 t, after0_7]
theorem leaves0_8 (c : Dev nD) (t : Fin cfg0.N) : (dats m 0 c).leavesExact 8 t = owns (c : Thread nD τ) (ms0_8 t) fullShare (iblk m c 8 t) := by
  unfold Dat.leavesExact; rw [live0_8 t, after0_8]
theorem leaves0_9 (c : Dev nD) (t : Fin cfg0.N) : (dats m 0 c).leavesExact 9 t = owns (c : Thread nD τ) (ms0_9 t) fullShare (iblk m c 9 t) := by
  unfold Dat.leavesExact; rw [live0_9 t, after0_9]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from by dsimp only [dats]; simp only [Fin.coe_castSucc]]
  rw [leaves0_0, leaves0_1, leaves0_2, leaves0_3, leaves0_4, leaves0_5, leaves0_6, leaves0_7, leaves0_8, leaves0_9]
  have hN : t.val < 32 := lt_of_lt_of_eq t.isLt (show cfg0.N = 32 from N_0)
  by_cases h0 : t.val = 0
  · -- the first point
    have hm0 : t.val % 32 = 0 := by omega
    have hm1 : ¬ t.val % 32 = 31 := by omega
    have hc0 : cond0_0 (grid0.coords t) := (hcond0_0 t).mpr hm0
    have hc1 : ¬cond0_1 (grid0.coords t) := fun h => hm1 ((hcond0_1 t).mp h)
    rw [Dat.leavesExact_idle (dats m 0 c) 10 t (idle10 t hm1) (noFlush10 t hm1)]
    rw [show PhiS m c t.val = Pipeline.ΦA spec0 c from by rw [h0]; rfl, PhiA0_eq, PhiS_succ]
    iintro ⟨⟨⟨⟨%dS0, HS0⟩, ⟨%dS1, HS1⟩, ⟨%dS2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) (iblk m c 9 t)).2.2.2 _ dS0 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexists _; iexact HS1
    isplitl [HS2]; · iexists _; iexact HS2
    iintro ⟨H0, H1, H2, H3, H4, H5, H6, H7, H8, H9, H10, HS0, ⟨%es1, HS1⟩, ⟨%es2, HS2⟩⟩
    isplitl [HS0 HS1 HS2 Hg]
    · isplitl [HS0 HS1 HS2]
      · isplitl [HS0]
        · iexists (scM0.view.read (Elt F) (scM0.view.writes (Elt F) ((Memref.isWhole_whole cc0_scratch0).unread dS0) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t)).1))
          isplitl [HS0]
          · unfold owns; iexists _; isplitr
            swap; · iexact HS0
            ipureintro; rfl
          · ipureintro
            exact conv_step m c t dS0 (fun j hj => absurd hj (by omega)) _ (A_conv ..)
        isplitl [HS1]
        · unfold owns; iexists _; isplitr
          swap; · iexact HS1
          ipureintro; rw [stat_first m c t h0]; exact A_stat1 ..
        · unfold owns; iexists _; isplitr
          swap; · iexact HS2
          ipureintro; rw [stat_first m c t h0]; exact A_stat2 ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h1 : t.val = 31
    · -- the last point
      obtain rfl : t31 = t := Fin.ext (by rw [h1]; rfl)
      rw [show (dats m 0 c).leavesExact 10 t31 = owns (c : Thread nD τ) (ms0_10 t31) fullShare (outFinal m c) from by
        unfold Dat.leavesExact; rw [live10 t31 (by decide), after0_10]]
      rw [show PhiS m c t31.val = PhiS m c (30 + 1) from rfl, PhiS_succ, PhiS_succ]
      iintro ⟨⟨⟨⟨%xs0, HS0, %hconv⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t31) _ _ _ _ _ _ _ _ _ _ _ _ _ _ _ _ _ _ _ _ _ _ _ _ _ _ _ _ hc0_31 hc1_31 hl_31 (iblk m c 0 t31) (iblk m c 1 t31) (iblk m c 2 t31) (iblk m c 3 t31) (iblk m c 4 t31) (iblk m c 5 t31) (iblk m c 6 t31) (iblk m c 7 t31) (iblk m c 8 t31) (iblk m c 9 t31) (stat m c 30).1 (stat m c 30).2 (tileAt m c 0) (tileAt m c 1) (tileAt m c 2) (tileAt m c 3) (tileAt m c 4) (tileAt m c 5) (tileAt m c 6) (tileAt m c 7) (tileAt m c 8) (tileAt m c 9) (tileAt m c 10) (tileAt m c 11) (tileAt m c 12) (tileAt m c 13) (tileAt m c 14) (tileAt m c 15) (tileAt m c 16) (tileAt m c 17) (tileAt m c 18) (tileAt m c 19) (tileAt m c 20) (tileAt m c 21) (tileAt m c 22) (tileAt m c 23) (tileAt m c 24) (tileAt m c 25) (tileAt m c 26) (tileAt m c 27) (tileAt m c 28) (tileAt m c 29) (tileAt m c 30)).2.2.2.2 xs0 (hconv ⟨0, by decide⟩ (by decide)) (hconv ⟨1, by decide⟩ (by decide)) (hconv ⟨2, by decide⟩ (by decide)) (hconv ⟨3, by decide⟩ (by decide)) (hconv ⟨4, by decide⟩ (by decide)) (hconv ⟨5, by decide⟩ (by decide)) (hconv ⟨6, by decide⟩ (by decide)) (hconv ⟨7, by decide⟩ (by decide)) (hconv ⟨8, by decide⟩ (by decide)) (hconv ⟨9, by decide⟩ (by decide)) (hconv ⟨10, by decide⟩ (by decide)) (hconv ⟨11, by decide⟩ (by decide)) (hconv ⟨12, by decide⟩ (by decide)) (hconv ⟨13, by decide⟩ (by decide)) (hconv ⟨14, by decide⟩ (by decide)) (hconv ⟨15, by decide⟩ (by decide)) (hconv ⟨16, by decide⟩ (by decide)) (hconv ⟨17, by decide⟩ (by decide)) (hconv ⟨18, by decide⟩ (by decide)) (hconv ⟨19, by decide⟩ (by decide)) (hconv ⟨20, by decide⟩ (by decide)) (hconv ⟨21, by decide⟩ (by decide)) (hconv ⟨22, by decide⟩ (by decide)) (hconv ⟨23, by decide⟩ (by decide)) (hconv ⟨24, by decide⟩ (by decide)) (hconv ⟨25, by decide⟩ (by decide)) (hconv ⟨26, by decide⟩ (by decide)) (hconv ⟨27, by decide⟩ (by decide)) (hconv ⟨28, by decide⟩ (by decide)) (hconv ⟨29, by decide⟩ (by decide)) (hconv ⟨30, by decide⟩ (by decide)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, ⟨%e10, H10⟩, HS0, ⟨%es1, HS1⟩, ⟨%es2, HS2⟩⟩
      isplitl [HS0 HS1 HS2 Hg]
      · isplitl [HS0 HS1 HS2]
        · isplitl [HS0]
          · iexists (scM0.view.read (Elt F) (scM0.view.writes (Elt F) ((Memref.isWhole_whole cc0_scratch0).unread xs0) (kernelRun0_C c (grid0.coords t31) (ms0_0 t31) (hs0_0 t31) (ms0_1 t31) (hs0_1 t31) (ms0_2 t31) (hs0_2 t31) (ms0_3 t31) (hs0_3 t31) (ms0_4 t31) (hs0_4 t31) (ms0_5 t31) (hs0_5 t31) (ms0_6 t31) (hs0_6 t31) (ms0_7 t31) (hs0_7 t31) (ms0_8 t31) (hs0_8 t31) (ms0_9 t31) (hs0_9 t31) (ms0_10 t31) (hs0_10 t31) scM0 (Memref.isWhole_whole _) scM1 (Memref.isWhole_whole _) scM2 (Memref.isWhole_whole _) hc0_31 hc1_31 hl_31 (iblk m c 0 t31) (iblk m c 1 t31) (iblk m c 2 t31) (iblk m c 3 t31) (iblk m c 4 t31) (iblk m c 5 t31) (iblk m c 6 t31) (iblk m c 7 t31) (iblk m c 8 t31) (iblk m c 9 t31) (stat m c 30).1 (stat m c 30).2 (tileAt m c 0) (tileAt m c 1) (tileAt m c 2) (tileAt m c 3) (tileAt m c 4) (tileAt m c 5) (tileAt m c 6) (tileAt m c 7) (tileAt m c 8) (tileAt m c 9) (tileAt m c 10) (tileAt m c 11) (tileAt m c 12) (tileAt m c 13) (tileAt m c 14) (tileAt m c 15) (tileAt m c 16) (tileAt m c 17) (tileAt m c 18) (tileAt m c 19) (tileAt m c 20) (tileAt m c 21) (tileAt m c 22) (tileAt m c 23) (tileAt m c 24) (tileAt m c 25) (tileAt m c 26) (tileAt m c 27) (tileAt m c 28) (tileAt m c 29) (tileAt m c 30)).2.1))
            isplitl [HS0]
            · unfold owns; iexists _; isplitr
              swap; · iexact HS0
              ipureintro; rfl
            · ipureintro
              exact conv_step m c t31 xs0 hconv _ (C_conv ..)
          isplitl [HS1]
          · unfold owns; iexists _; isplitr
            swap; · iexact HS1
            ipureintro; rw [stat_next m c t31 30 rfl]; exact C_stat1 ..
          · unfold owns; iexists _; isplitr
            swap; · iexact HS2
            ipureintro; rw [stat_next m c t31 30 rfl]; exact C_stat2 ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; unfold outFinal
      exact View.read_writes_of_cover _ _ _ _ _ (cover10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · -- a point in between
      obtain ⟨k, hk⟩ := Nat.exists_eq_succ_of_ne_zero h0
      have hm0 : ¬ t.val % 32 = 0 := by omega
      have hm1 : ¬ t.val % 32 = 31 := by omega
      have hc0 : ¬cond0_0 (grid0.coords t) := fun h => hm0 ((hcond0_0 t).mp h)
      have hc1 : ¬cond0_1 (grid0.coords t) := fun h => hm1 ((hcond0_1 t).mp h)
      rw [Dat.leavesExact_idle (dats m 0 c) 10 t (idle10 t hm1) (noFlush10 t hm1)]
      rw [show PhiS m c t.val = PhiS m c (k + 1) from by rw [hk], PhiS_succ, PhiS_succ]
      iintro ⟨⟨⟨⟨%xs0, HS0, %hconv⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) (iblk m c 7 t) (iblk m c 8 t) (iblk m c 9 t) (stat m c k).1 (stat m c k).2).2.2.2 _ xs0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, ⟨%es1, HS1⟩, ⟨%es2, HS2⟩⟩
      isplitl [HS0 HS1 HS2 Hg]
      · isplitl [HS0 HS1 HS2]
        · isplitl [HS0]
          · iexists (scM0.view.read (Elt F) (scM0.view.writes (Elt F) ((Memref.isWhole_whole cc0_scratch0).unread xs0) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0 (Memref.isWhole_whole _) scM1 (Memref.isWhole_whole _) scM2 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (stat m c k).1 (stat m c k).2).1))
            isplitl [HS0]
            · unfold owns; iexists _; isplitr
              swap; · iexact HS0
              ipureintro; rfl
            · ipureintro
              exact conv_step m c t xs0 (by rw [hk]; exact hconv) _ (B_conv ..)
          isplitl [HS1]
          · unfold owns; iexists _; isplitr
            swap; · iexact HS1
            ipureintro; rw [stat_next m c t k hk]; exact B_stat1 ..
          · unfold owns; iexists _; isplitr
            swap; · iexact HS2
            ipureintro; rw [stat_next m c t k hk]; exact B_stat2 ..
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.ReferenceIdeal.Body
end
-- ==== Proof.RefRun.lean ====
import proofs.«159686_g2000604559473765_pallasbulk_680_3_alg».proof.Proof.RefBody

set_option maxRecDepth 16384

noncomputable section

/-! The reference's frame run: the launch hands the region the class's invariant, which is the invariant before the
    first point; after the last point the named scratch contents are forgotten again. The run ends with every array
    of the pipeline at what the proof data computes, and the frame claim follows. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (31 + 1) from rfl, PhiS_succ, PhiA0_eq]
  iintro ⟨⟨⟨%xs0, HS0, -⟩, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  frame_of m ρ (dats m) (A_eq m) (run_main m ρ)

end Cert.ReferenceIdeal.Body
end
-- ==== Proof.RefHeadDef.lean ====
import proofs.«159686_g2000604559473765_pallasbulk_680_3_alg».proof.Proof.Gen.ReferenceIdeal.Skeleton

set_option maxRecDepth 16384

noncomputable section

/-! The head of the reference's last point, on one convolution tile of 32 batch elements: from the widened scale
    `A` and shift `D` (each channel's value repeated over the eight image columns), the first weight and bias, the
    second weight and bias, and the tile `y` (256 rows = 32 batch elements by 8 image rows, 256 lanes = 8 image
    columns by 32 channels), the 32 by 128 block of results: per batch element the 64 hidden values, then the output
    number repeated 64 times. -/

namespace Cert.ReferenceIdeal.Body
open Idealize.ShloMosaic Idealize.ShloMosaic.TcCoe
open Cert.ReferenceIdeal Cert.ReferenceIdeal.Gen
variable {F : FTy → Type} [FloatOps F]

/-- The head on one tile. -/
def headOf (A D : FVec F S1x256 .f32) (W1 : FVec F S512x64 .bf16) (B1 : FVec F S1x64 .f32) (x8 : Vec F S1x64 .f32) (B2 : FVec F S1x1 .f32) (y : Vec F S256x256 .f32) : FVec F S32x128 .f32 :=
  k0_pay52 W1 B1 x8 B2 (k0_pay40 A D y) (k0_pay42 A D y) (k0_pay43 A D y) (k0_pay44 A D y) (k0_pay45 A D y) (k0_pay47 A D y) (k0_pay48 A D y) (k0_pay49 A D y) (k0_pay50 A D y) (k0_pay51 A D y)

end Cert.ReferenceIdeal.Body
end
-- ==== Proof.RefOutList.lean ====
import proofs.«159686_g2000604559473765_pallasbulk_680_3_alg».proof.Proof.RefPieces
import proofs.«159686_g2000604559473765_pallasbulk_680_3_alg».proof.Proof.RefHeadDef

set_option maxRecDepth 16384

noncomputable section

/-! What the last point's run stores into the output window: 32 pieces, one per tile of 32 batch elements, the piece
    of tile `j` at rows `32 j … 32 j + 31`. Each is the head of that tile's convolution slice under the batch
    statistics with the last point's column sums added in: the slices of the 31 earlier points as they were handed in,
    the last point's own slice read back from the store just made. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

/-- A read through the rectangle of the ONE store just made is the stored tile, whatever way the two offsets are spelt. -/
theorem readCov_same {Val : EltTy → Type} [∀ e, Nonempty (Val e)] {sig' : RefSig} {κ : Kind} {sp : Space} (v : View sig' κ sp S8192x256 .f32)
    (off off' : Fin 2 → ℕ) (hoff : off = off')
    (inb : ∀ a, off a + S256x256.size a ≤ S8192x256.size a) (inb' : ∀ a, off' a + S256x256.size a ≤ S8192x256.size a)
    (w : S256x256.Idx → Val .f32) :
    v.readCov [(⟨Rect.unit (s := S8192x256) off S256x256.size inb, w⟩ : View.Piece Val S8192x256 .f32)] (Rect.unit (s := S8192x256) off' S256x256.size inb').toLoadRect = w := by
  subst hoff
  exact View.readCov_cons_toLoadRect v (Rect.unit (s := S8192x256) off S256x256.size inb) w []

section last
variable (c : Dev nD) (i : grid0.Coords) (arg1 : Memref sig .tc .vmem S32x10x10x128 .bf16) (harg1 : arg1.IsWhole) (arg2 : Memref sig .tc .vmem S4x256x32 .bf16) (harg2 : arg2.IsWhole) (arg3 : Memref sig .tc .vmem S128x32 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S512x64 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x1 .f32) (harg10 : arg10.IsWhole) (arg11 : Memref sig .tc .vmem S1024x128 .f32) (harg11 : arg11.IsWhole) (arg12 : Memref sig .tc .vmem S8192x256 .f32) (harg12 : arg12.IsWhole) (arg13 : Memref sig .tc .vmem S1x32 .f32) (harg13 : arg13.IsWhole) (arg14 : Memref sig .tc .vmem S1x32 .f32) (harg14 : arg14.IsWhole) (hc0 : ¬cond0_0 i) (hc1 : cond0_1 i) (hl0 : k0_off1 i = ![7936, 0]) (x0 : Vec F S32x10x10x128 .bf16) (x1 : Vec F S4x256x32 .bf16) (x2 : Vec F S128x32 .bf16) (x3 : Vec F S1x32 .f32) (x4 : Vec F S1x32 .f32) (x5 : Vec F S1x32 .f32) (x6 : Vec F S512x64 .bf16) (x7 : Vec F S1x64 .f32) (x8 : Vec F S1x64 .f32) (x9 : Vec F S1x1 .f32) (xs1 xs2 : Vec F S1x32 .f32) (ps0_0 : Vec F S256x256 .f32) (ps0_1 : Vec F S256x256 .f32) (ps0_2 : Vec F S256x256 .f32) (ps0_3 : Vec F S256x256 .f32) (ps0_4 : Vec F S256x256 .f32) (ps0_5 : Vec F S256x256 .f32) (ps0_6 : Vec F S256x256 .f32) (ps0_7 : Vec F S256x256 .f32) (ps0_8 : Vec F S256x256 .f32) (ps0_9 : Vec F S256x256 .f32) (ps0_10 : Vec F S256x256 .f32) (ps0_11 : Vec F S256x256 .f32) (ps0_12 : Vec F S256x256 .f32) (ps0_13 : Vec F S256x256 .f32) (ps0_14 : Vec F S256x256 .f32) (ps0_15 : Vec F S256x256 .f32) (ps0_16 : Vec F S256x256 .f32) (ps0_17 : Vec F S256x256 .f32) (ps0_18 : Vec F S256x256 .f32) (ps0_19 : Vec F S256x256 .f32) (ps0_20 : Vec F S256x256 .f32) (ps0_21 : Vec F S256x256 .f32) (ps0_22 : Vec F S256x256 .f32) (ps0_23 : Vec F S256x256 .f32) (ps0_24 : Vec F S256x256 .f32) (ps0_25 : Vec F S256x256 .f32) (ps0_26 : Vec F S256x256 .f32) (ps0_27 : Vec F S256x256 .f32) (ps0_28 : Vec F S256x256 .f32) (ps0_29 : Vec F S256x256 .f32) (ps0_30 : Vec F S256x256 .f32)
set_option maxHeartbeats 16000000 in
theorem C_out_list : (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 hl0 x0 x1 x2 x3 x4 x5 x6 x7 x8 x9 xs1 xs2 ps0_0 ps0_1 ps0_2 ps0_3 ps0_4 ps0_5 ps0_6 ps0_7 ps0_8 ps0_9 ps0_10 ps0_11 ps0_12 ps0_13 ps0_14 ps0_15 ps0_16 ps0_17 ps0_18 ps0_19 ps0_20 ps0_21 ps0_22 ps0_23 ps0_24 ps0_25 ps0_26 ps0_27 ps0_28 ps0_29 ps0_30).1 = [⟨Rect.unit (s := S1024x128) ![992, 0] S32x128.size inb_S1024x128_S32x128_992_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) (tileOf x0 x1 x2 x3)⟩,
    ⟨Rect.unit (s := S1024x128) ![960, 0] S32x128.size inb_S1024x128_S32x128_960_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_30⟩,
    ⟨Rect.unit (s := S1024x128) ![928, 0] S32x128.size inb_S1024x128_S32x128_928_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_29⟩,
    ⟨Rect.unit (s := S1024x128) ![896, 0] S32x128.size inb_S1024x128_S32x128_896_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_28⟩,
    ⟨Rect.unit (s := S1024x128) ![864, 0] S32x128.size inb_S1024x128_S32x128_864_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_27⟩,
    ⟨Rect.unit (s := S1024x128) ![832, 0] S32x128.size inb_S1024x128_S32x128_832_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_26⟩,
    ⟨Rect.unit (s := S1024x128) ![800, 0] S32x128.size inb_S1024x128_S32x128_800_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_25⟩,
    ⟨Rect.unit (s := S1024x128) ![768, 0] S32x128.size inb_S1024x128_S32x128_768_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_24⟩,
    ⟨Rect.unit (s := S1024x128) ![736, 0] S32x128.size inb_S1024x128_S32x128_736_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_23⟩,
    ⟨Rect.unit (s := S1024x128) ![704, 0] S32x128.size inb_S1024x128_S32x128_704_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_22⟩,
    ⟨Rect.unit (s := S1024x128) ![672, 0] S32x128.size inb_S1024x128_S32x128_672_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_21⟩,
    ⟨Rect.unit (s := S1024x128) ![640, 0] S32x128.size inb_S1024x128_S32x128_640_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_20⟩,
    ⟨Rect.unit (s := S1024x128) ![608, 0] S32x128.size inb_S1024x128_S32x128_608_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_19⟩,
    ⟨Rect.unit (s := S1024x128) ![576, 0] S32x128.size inb_S1024x128_S32x128_576_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_18⟩,
    ⟨Rect.unit (s := S1024x128) ![544, 0] S32x128.size inb_S1024x128_S32x128_544_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_17⟩,
    ⟨Rect.unit (s := S1024x128) ![512, 0] S32x128.size inb_S1024x128_S32x128_512_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_16⟩,
    ⟨Rect.unit (s := S1024x128) ![480, 0] S32x128.size inb_S1024x128_S32x128_480_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_15⟩,
    ⟨Rect.unit (s := S1024x128) ![448, 0] S32x128.size inb_S1024x128_S32x128_448_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_14⟩,
    ⟨Rect.unit (s := S1024x128) ![416, 0] S32x128.size inb_S1024x128_S32x128_416_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_13⟩,
    ⟨Rect.unit (s := S1024x128) ![384, 0] S32x128.size inb_S1024x128_S32x128_384_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_12⟩,
    ⟨Rect.unit (s := S1024x128) ![352, 0] S32x128.size inb_S1024x128_S32x128_352_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_11⟩,
    ⟨Rect.unit (s := S1024x128) ![320, 0] S32x128.size inb_S1024x128_S32x128_320_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_10⟩,
    ⟨Rect.unit (s := S1024x128) ![288, 0] S32x128.size inb_S1024x128_S32x128_288_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_9⟩,
    ⟨Rect.unit (s := S1024x128) ![256, 0] S32x128.size inb_S1024x128_S32x128_256_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_8⟩,
    ⟨Rect.unit (s := S1024x128) ![224, 0] S32x128.size inb_S1024x128_S32x128_224_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_7⟩,
    ⟨Rect.unit (s := S1024x128) ![192, 0] S32x128.size inb_S1024x128_S32x128_192_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_6⟩,
    ⟨Rect.unit (s := S1024x128) ![160, 0] S32x128.size inb_S1024x128_S32x128_160_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_5⟩,
    ⟨Rect.unit (s := S1024x128) ![128, 0] S32x128.size inb_S1024x128_S32x128_128_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_4⟩,
    ⟨Rect.unit (s := S1024x128) ![96, 0] S32x128.size inb_S1024x128_S32x128_96_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_3⟩,
    ⟨Rect.unit (s := S1024x128) ![64, 0] S32x128.size inb_S1024x128_S32x128_64_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_2⟩,
    ⟨Rect.unit (s := S1024x128) ![32, 0] S32x128.size inb_S1024x128_S32x128_32_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_1⟩,
    ⟨Rect.unit (s := S1024x128) ![0, 0] S32x128.size inb_S1024x128_S32x128_0_0, headOf (k0_pay5 (acc1 x0 x1 x2 x3 xs1) (acc2 x0 x1 x2 x3 xs2) x4) (k0_pay6 (acc1 x0 x1 x2 x3 xs1) (acc2 x0 x1 x2 x3 xs2) x4 x5) (k0_pay7 x6) (k0_pay8 x7) x8 (k0_pay9 x9) ps0_0⟩] := by
  rw [← readCov_same (Val := Elt F) arg12.view (k0_off1 i) ![7936, 0] hl0 (k0_off1_inb i) inb_S8192x256_S256x256_7936_0 (tileOf x0 x1 x2 x3)]
  rw [← View.readCov_unit_zero (S := S1x32) arg13.view hz2 inb_S1x32_S1x32_0_0 (acc1 x0 x1 x2 x3 xs1), ← View.readCov_unit_zero (S := S1x32) arg14.view hz2 inb_S1x32_S1x32_0_0 (acc2 x0 x1 x2 x3 xs2)]
  unfold kernelRun0_C; dsimp only
  sl_unfold_words
  simp only [View.readAt_eq_ld, Memref.IsWhole.read_unread, View.ld_unit_zero (S := S32x10x10x128) hz4, View.ld_unit_zero (S := S4x256x32) hz3, View.ld_unit_zero (S := S128x32) hz2, View.ld_unit_zero (S := S1x32) hz2, View.ld_unit_zero (S := S512x64) hz2, View.ld_unit_zero (S := S1x64) hz2, View.ld_unit_zero (S := S1x1) hz2]
  rfl
end last

end Cert.ReferenceIdeal.Body
end
-- ==== Proof.RefOutAt.lean ====
import proofs.«159686_g2000604559473765_pallasbulk_680_3_alg».proof.Proof.RefRun
import proofs.«159686_g2000604559473765_pallasbulk_680_3_alg».proof.Proof.RefOutList
import Idealize.ShloMosaic.Lib.ValueIdx

set_option maxRecDepth 16384

noncomputable section

/-! The output window after the last point, entry by entry: row `r` (batch element `r`), lane `l` holds the head of
    tile `r / 32` — the convolution tile of point `r / 32` — at row `r % 32`, lane `l`, under the batch statistics
    accumulated over all 32 points. The 32 stored pieces tile the window, and piece `j` is this function on rows
    `32 j … 32 j + 31`. The window's one write-back, at the last point, puts it into the output array, and the two
    results are the array's columns `0 … 63` and its column `64`. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head of tile `j` under the final statistics. -/
def headTile (c : Dev nD) (j : ℕ) : Vec F S32x128 .f32 :=
  headOf (k0_pay5 (stat m c 31).1 (stat m c 31).2 (iblk m c 4 t31)) (k0_pay6 (stat m c 31).1 (stat m c 31).2 (iblk m c 4 t31) (iblk m c 5 t31)) (k0_pay7 (iblk m c 6 t31)) (k0_pay8 (iblk m c 7 t31)) (iblk m c 8 t31) (k0_pay9 (iblk m c 9 t31)) (tileAt m c j)

/-- The output window's final contents, entry by entry. -/
def outG (c : Dev nD) : Vec F S1024x128 .f32 := fun y =>
  headTile m c ((y 0).val / 32) (ix2 (⟨(y 0).val % 32, Nat.mod_lt _ (by decide)⟩ : Fin 32) (⟨(y 1).val, (y 1).isLt⟩ : Fin 128))

/-- On rows `32 j … 32 j + 31` it is the head of tile `j`. -/
theorem piece_ok (c : Dev nD) (j off0 : ℕ) (hj : j < 32) (hoff : off0 = 32 * j)
    (inb : ∀ a, (![off0, 0] : Fin 2 → ℕ) a + S32x128.size a ≤ S1024x128.size a)
    (x : (Rect.unit (s := S1024x128) ![off0, 0] S32x128.size inb).shape.Idx) :
    outG m c ((Rect.unit (s := S1024x128) ![off0, 0] S32x128.size inb).emb x) = headTile m c j x := by
  subst hoff
  have e0 : (((Rect.unit (s := S1024x128) ![32 * j, 0] S32x128.size inb).emb x) 0 : ℕ) = 32 * j + 1 * (x 0).val := rfl
  have e1 : (((Rect.unit (s := S1024x128) ![32 * j, 0] S32x128.size inb).emb x) 1 : ℕ) = 0 + 1 * (x 1).val := rfl
  have hx0 : (x 0).val < 32 := (x 0).isLt
  have h1 : (((Rect.unit (s := S1024x128) ![32 * j, 0] S32x128.size inb).emb x) 0 : ℕ) / 32 = j := by rw [e0]; omega
  have h2 : (((Rect.unit (s := S1024x128) ![32 * j, 0] S32x128.size inb).emb x) 0 : ℕ) % 32 = (x 0).val := by rw [e0]; omega
  unfold outG
  refine congr (congrArg (headTile m c) h1) ?_
  funext a
  match a with
  | ⟨0, _⟩ => exact Fin.ext h2
  | ⟨1, _⟩ => exact Fin.ext (by show (((Rect.unit (s := S1024x128) ![32 * j, 0] S32x128.size inb).emb x) 1 : ℕ) = (x 1).val; rw [e1]; omega)

/-- The statistics after the last point, from those after the point before. -/
theorem stat_last (c : Dev nD) : stat m c 31 = (acc1 (iblk m c 0 t31) (iblk m c 1 t31) (iblk m c 2 t31) (iblk m c 3 t31) (stat m c 30).1, acc2 (iblk m c 0 t31) (iblk m c 1 t31) (iblk m c 2 t31) (iblk m c 3 t31) (stat m c 30).2) :=
  stat_next m c t31 30 rfl

set_option maxHeartbeats 4000000 in
/-- What the output window holds after the last point is `outG`. -/
theorem outFinal_eq (c : Dev nD) : outFinal m c = outG m c := by
  unfold outFinal
  rw [View.read_writes_junk_eq_canon]
  funext y
  have hcov := cover10 (F := F) c (grid0.coords t31) (ms0_0 t31) (hs0_0 t31) (ms0_1 t31) (hs0_1 t31) (ms0_2 t31) (hs0_2 t31) (ms0_3 t31) (hs0_3 t31) (ms0_4 t31) (hs0_4 t31) (ms0_5 t31) (hs0_5 t31) (ms0_6 t31) (hs0_6 t31) (ms0_7 t31) (hs0_7 t31) (ms0_8 t31) (hs0_8 t31) (ms0_9 t31) (hs0_9 t31) (ms0_10 t31) (hs0_10 t31) scM0 (Memref.isWhole_whole _) scM1 (Memref.isWhole_whole _) scM2 (Memref.isWhole_whole _) hc0_31 hc1_31 hl_31 (iblk m c 0 t31) (iblk m c 1 t31) (iblk m c 2 t31) (iblk m c 3 t31) (iblk m c 4 t31) (iblk m c 5 t31) (iblk m c 6 t31) (iblk m c 7 t31) (iblk m c 8 t31) (iblk m c 9 t31) (stat m c 30).1 (stat m c 30).2 (tileAt m c 0) (tileAt m c 1) (tileAt m c 2) (tileAt m c 3) (tileAt m c 4) (tileAt m c 5) (tileAt m c 6) (tileAt m c 7) (tileAt m c 8) (tileAt m c 9) (tileAt m c 10) (tileAt m c 11) (tileAt m c 12) (tileAt m c 13) (tileAt m c 14) (tileAt m c 15) (tileAt m c 16) (tileAt m c 17) (tileAt m c 18) (tileAt m c 19) (tileAt m c 20) (tileAt m c 21) (tileAt m c 22) (tileAt m c 23) (tileAt m c 24) (tileAt m c 25) (tileAt m c 26) (tileAt m c 27) (tileAt m c 28) (tileAt m c 29) (tileAt m c 30) y
  refine View.canon_apply_of_pieces (outG m c) _ ?_ y hcov
  rw [C_out_list]
  have hs := stat_last m c
  have hA : ∀ j, headTile m c j = headOf (k0_pay5 (acc1 (iblk m c 0 t31) (iblk m c 1 t31) (iblk m c 2 t31) (iblk m c 3 t31) (stat m c 30).1) (acc2 (iblk m c 0 t31) (iblk m c 1 t31) (iblk m c 2 t31) (iblk m c 3 t31) (stat m c 30).2) (iblk m c 4 t31)) (k0_pay6 (acc1 (iblk m c 0 t31) (iblk m c 1 t31) (iblk m c 2 t31) (iblk m c 3 t31) (stat m c 30).1) (acc2 (iblk m c 0 t31) (iblk m c 1 t31) (iblk m c 2 t31) (iblk m c 3 t31) (stat m c 30).2) (iblk m c 4 t31) (iblk m c 5 t31)) (k0_pay7 (iblk m c 6 t31)) (k0_pay8 (iblk m c 7 t31)) (iblk m c 8 t31) (k0_pay9 (iblk m c 9 t31)) (tileAt m c j) := fun j => by
    unfold headTile; rw [hs]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x; exact ((piece_ok m c 31 992 (by decide) (by decide) inb_S1024x128_S32x128_992_0 x).trans (congrFun (hA 31) x)).symm
  · intro x; exact ((piece_ok m c 30 960 (by decide) (by decide) inb_S1024x128_S32x128_960_0 x).trans (congrFun (hA 30) x)).symm
  · intro x; exact ((piece_ok m c 29 928 (by decide) (by decide) inb_S1024x128_S32x128_928_0 x).trans (congrFun (hA 29) x)).symm
  · intro x; exact ((piece_ok m c 28 896 (by decide) (by decide) inb_S1024x128_S32x128_896_0 x).trans (congrFun (hA 28) x)).symm
  · intro x; exact ((piece_ok m c 27 864 (by decide) (by decide) inb_S1024x128_S32x128_864_0 x).trans (congrFun (hA 27) x)).symm
  · intro x; exact ((piece_ok m c 26 832 (by decide) (by decide) inb_S1024x128_S32x128_832_0 x).trans (congrFun (hA 26) x)).symm
  · intro x; exact ((piece_ok m c 25 800 (by decide) (by decide) inb_S1024x128_S32x128_800_0 x).trans (congrFun (hA 25) x)).symm
  · intro x; exact ((piece_ok m c 24 768 (by decide) (by decide) inb_S1024x128_S32x128_768_0 x).trans (congrFun (hA 24) x)).symm
  · intro x; exact ((piece_ok m c 23 736 (by decide) (by decide) inb_S1024x128_S32x128_736_0 x).trans (congrFun (hA 23) x)).symm
  · intro x; exact ((piece_ok m c 22 704 (by decide) (by decide) inb_S1024x128_S32x128_704_0 x).trans (congrFun (hA 22) x)).symm
  · intro x; exact ((piece_ok m c 21 672 (by decide) (by decide) inb_S1024x128_S32x128_672_0 x).trans (congrFun (hA 21) x)).symm
  · intro x; exact ((piece_ok m c 20 640 (by decide) (by decide) inb_S1024x128_S32x128_640_0 x).trans (congrFun (hA 20) x)).symm
  · intro x; exact ((piece_ok m c 19 608 (by decide) (by decide) inb_S1024x128_S32x128_608_0 x).trans (congrFun (hA 19) x)).symm
  · intro x; exact ((piece_ok m c 18 576 (by decide) (by decide) inb_S1024x128_S32x128_576_0 x).trans (congrFun (hA 18) x)).symm
  · intro x; exact ((piece_ok m c 17 544 (by decide) (by decide) inb_S1024x128_S32x128_544_0 x).trans (congrFun (hA 17) x)).symm
  · intro x; exact ((piece_ok m c 16 512 (by decide) (by decide) inb_S1024x128_S32x128_512_0 x).trans (congrFun (hA 16) x)).symm
  · intro x; exact ((piece_ok m c 15 480 (by decide) (by decide) inb_S1024x128_S32x128_480_0 x).trans (congrFun (hA 15) x)).symm
  · intro x; exact ((piece_ok m c 14 448 (by decide) (by decide) inb_S1024x128_S32x128_448_0 x).trans (congrFun (hA 14) x)).symm
  · intro x; exact ((piece_ok m c 13 416 (by decide) (by decide) inb_S1024x128_S32x128_416_0 x).trans (congrFun (hA 13) x)).symm
  · intro x; exact ((piece_ok m c 12 384 (by decide) (by decide) inb_S1024x128_S32x128_384_0 x).trans (congrFun (hA 12) x)).symm
  · intro x; exact ((piece_ok m c 11 352 (by decide) (by decide) inb_S1024x128_S32x128_352_0 x).trans (congrFun (hA 11) x)).symm
  · intro x; exact ((piece_ok m c 10 320 (by decide) (by decide) inb_S1024x128_S32x128_320_0 x).trans (congrFun (hA 10) x)).symm
  · intro x; exact ((piece_ok m c 9 288 (by decide) (by decide) inb_S1024x128_S32x128_288_0 x).trans (congrFun (hA 9) x)).symm
  · intro x; exact ((piece_ok m c 8 256 (by decide) (by decide) inb_S1024x128_S32x128_256_0 x).trans (congrFun (hA 8) x)).symm
  · intro x; exact ((piece_ok m c 7 224 (by decide) (by decide) inb_S1024x128_S32x128_224_0 x).trans (congrFun (hA 7) x)).symm
  · intro x; exact ((piece_ok m c 6 192 (by decide) (by decide) inb_S1024x128_S32x128_192_0 x).trans (congrFun (hA 6) x)).symm
  · intro x; exact ((piece_ok m c 5 160 (by decide) (by decide) inb_S1024x128_S32x128_160_0 x).trans (congrFun (hA 5) x)).symm
  · intro x; exact ((piece_ok m c 4 128 (by decide) (by decide) inb_S1024x128_S32x128_128_0 x).trans (congrFun (hA 4) x)).symm
  · intro x; exact ((piece_ok m c 3 96 (by decide) (by decide) inb_S1024x128_S32x128_96_0 x).trans (congrFun (hA 3) x)).symm
  · intro x; exact ((piece_ok m c 2 64 (by decide) (by decide) inb_S1024x128_S32x128_64_0 x).trans (congrFun (hA 2) x)).symm
  · intro x; exact ((piece_ok m c 1 32 (by decide) (by decide) inb_S1024x128_S32x128_32_0 x).trans (congrFun (hA 1) x)).symm
  · intro x; exact ((piece_ok m c 0 0 (by decide) (by decide) inb_S1024x128_S32x128_0_0 x).trans (congrFun (hA 0) x)).symm

end Cert.ReferenceIdeal.Body
end
-- ==== Proof.RefResults.lean ====
import proofs.«159686_g2000604559473765_pallasbulk_680_3_alg».proof.Proof.RefOutAt

set_option maxRecDepth 16384

noncomputable section

/-! The reference's run with its two results named. The output window's one write-back, at the last point, covers the
    whole output array, which therefore ends at the window's final contents; the two results are columns `64` and
    `0 … 63` of that array, taken by the host after the region. -/

namespace Cert.ReferenceIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output array's final contents. -/
abbrev outArr (c : Dev nD) : Buf (Elt F) ((c : Thread nD τ).loc main_v19) := outG m c

/-- The one write-back, at the last point, writes the window's final contents; its block is the whole array. -/
theorem flushed10 (c : Dev nD) (t : Fin cfg0.N) (hf : (cfg0.win 10).flush t = true) :
    (dats m 0 c).flushed 10 t = ((cfg0.win 10).blk t).view.read (Elt F) (outArr m c) := by
  have hN : cfg0.N = 32 := N_0
  have h31 : t.val = 31 := by have := (flush0_10 t).mp hf; have := t.isLt; omega
  obtain rfl : t31 = t := Fin.ext (by rw [h31]; rfl)
  show (cfg0.win 10).cut (grid0.coords t31) ((dats m 0 c).after 10 t31) = _
  rw [after0_10, outFinal_eq]
  have hz' : (fun a => win0_10.index t31 a * main_v19.ty.shape.size a) = fun _ => 0 := funext fun a => by fin_cases a <;> decide +kernel
  exact (Memref.read_access_unit_zero (Elt F) main_v19 hz' (fun a => by rw [congrFun hz' a]; simp) (outArr m c)).symm

/-- So the output array ends at the window's final contents. -/
theorem final10 (c : Dev nD) : (dats m 0 c).arrAt 10 cfg0.N = outArr m c :=
  (dats m 0 c).arrAt_eq_of_cover 10 (outArr m c) (flushed10 m c) fun i =>
    ⟨t31, (flush0_10 t31).mpr (by decide), by
      show i ∈ ((View.whole main_v19).slice (win0_10.rect t31)).set
      rw [View.set_slice_whole, Rect.mem_set_unit]
      intro a
      have h0 : (i 0 : Nat) < 1024 := (i 0).isLt
      have h1 : (i 1 : Nat) < 128 := (i 1).isLt
      match a with
      | ⟨0, _⟩ => show win0_10.index t31 0 * win0_10.size 0 ≤ (i 0 : Nat) ∧ (i 0 : Nat) < win0_10.index t31 0 * win0_10.size 0 + win0_10.xsize (grid0.coords t31) 0
                  rw [show win0_10.index t31 0 * win0_10.size 0 = 0 from by decide +kernel, show win0_10.xsize (grid0.coords t31) 0 = 1024 from by decide +kernel]; omega
      | ⟨1, _⟩ => show win0_10.index t31 1 * win0_10.size 1 ≤ (i 1 : Nat) ∧ (i 1 : Nat) < win0_10.index t31 1 * win0_10.size 1 + win0_10.xsize (grid0.coords t31) 1
                  rw [show win0_10.index t31 1 * win0_10.size 1 = 0 from by decide +kernel, show win0_10.xsize (grid0.coords t31) 1 = 128 from by decide +kernel]; omega⟩

/-- The [1024,1] result: column 64 of the output array. -/
theorem tail21 (c : Dev nD) : Pipeline.afterTail₀ cfgs (dats m) 0 (V0 m) [hostOps1] c main_v21
    = (extractStridedSlice S1024x1 ![0, 64] (outG m c) slices_S1024x128_S1024x1_0_64 : (⟨S1024x1, .f32⟩ : BufTy).Contents (Elt F)) := by
  unfold Pipeline.afterTail₀
  show StableHlo.after hostOps1 _ (Proc.devRef .tc main_v21) = _
  after_results
  exact congrArg (fun z => extractStridedSlice S1024x1 ![0, 64] z slices_S1024x128_S1024x1_0_64) ((Pipeline.withArrays_arr spec0 launch0.win.arr_inj c (V0 m c) (fun w => (dats m 0 c).arrAt w cfg0.N) 10).trans (final10 m c))

/-- The [1024,64] result: columns 0 … 63 of the output array. -/
theorem tail20 (c : Dev nD) : Pipeline.afterTail₀ cfgs (dats m) 0 (V0 m) [hostOps1] c main_v20
    = (extractStridedSlice S1024x64 ![0, 0] (outG m c) slices_S1024x128_S1024x64_0_0 : (⟨S1024x64, .f32⟩ : BufTy).Contents (Elt F)) := by
  unfold Pipeline.afterTail₀
  show StableHlo.after hostOps1 _ (Proc.devRef .tc main_v20) = _
  after_results
  exact congrArg (fun z => extractStridedSlice S1024x64 ![0, 0] z slices_S1024x128_S1024x64_0_0) ((Pipeline.withArrays_arr spec0 launch0.win.arr_inj c (V0 m c) (fun w => (dats m 0 c).arrAt w cfg0.N) 10).trans (final10 m c))

/-- Every weakly fair execution of the reference terminates without a fault, with the two results at the two column
    ranges of the output array's final contents, and the nine arguments as launched. -/
theorem results : θ_run defs (onTc (τ := τ) (main (F := F))) ⟨m, fun _ => 0, ρ⟩ (fun r => ∀ c : Dev nD,
      r.2.mem ((c.tc : Thread nD τ).loc main_v21) = (extractStridedSlice S1024x1 ![0, 64] (outG m c) slices_S1024x128_S1024x1_0_64 : (⟨S1024x1, .f32⟩ : BufTy).Contents (Elt F))
      ∧ r.2.mem ((c.tc : Thread nD τ).loc main_v20) = (extractStridedSlice S1024x64 ![0, 0] (outG m c) slices_S1024x128_S1024x64_0_0 : (⟨S1024x64, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_v21 (Pipeline.mem_restRefs_of main_v21 (by decide) (by decide))).trans (tail21 m c)),
      (((h c).2 main_v20 (Pipeline.mem_restRefs_of main_v20 (by decide) (by decide))).trans (tail20 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c))⟩) (run_main m ρ)

end Cert.ReferenceIdeal.Body
end
-- ==== Proof.KVRun.lean ====
/- The kernel program's run with its two results named.
   @main is three stretches of host operations, the convolution region, the head region and a last stretch
   of host operations. Every unscoped buffer of a core ends at the fold `W6` of those six segments from
   the launch memory; here that fact is read at the two result buffers as well as at the nine arguments. -/
import proofs.«159686_g2000604559473765_pallasbulk_680_3_alg».proof.Proof.Gen.KernelIdeal.Frame

set_option maxRecDepth 16384

noncomputable section

namespace Cert.KernelIdeal.KVal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the [1024,1] result and the
    [1024,64] result end at the fold `W6` read at their buffers, and the nine arguments end as launched. -/
theorem run : θ_run defs (onTc (τ := τ) (main (F := F))) ⟨m, fun _ => 0, ρ⟩ (fun r => ∀ c : Dev nD,
      r.2.mem ((c.tc : Thread nD τ).loc main_v21) = W6 m ρ c (Proc.devRef .tc main_v21)
      ∧ r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v21 (by decide)),
       h c _ (mem_uc main_v22 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KVal

end
-- ==== Proof.KVBlocks.lean ====
/- The three arrays the two regions write, block by block.
   The convolution region has 32 grid points; point t writes rows 256t .. 256t+255 of the [8192,256]
   activation array and slab t of the [32,8,128] statistics array. The head region has 8 grid points;
   point t writes rows 128t .. 128t+127 of the [1024,128] array. In each case distinct points write
   disjoint blocks, so after the region block t of the array is exactly what point t wrote: the body's
   result on the input windows' blocks at t. -/
import proofs.«159686_g2000604559473765_pallasbulk_680_3_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The convolution region's two outputs -/

/-- Distinct grid points of the convolution region write distinct row blocks of the activation array. -/
theorem conv_index_inj : ∀ t t' : Fin cfg0.N, win0_4.index t = win0_4.index t' → t = t' :=
  (by decide +kernel : ∀ t t' : Fin grid0.N, win0_4.index t = win0_4.index t' → t = t')

theorem conv_disjoint : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (conv_index_inj t t' h)

/-- Block t of the activation array at the convolution region's exit is the body's first result on the
    region's input blocks at t. -/
theorem conv_block (c : Dev nD) (t : Fin cfg0.N) :
    ((cfg0.win 4).blk t).view.read (Elt F) (V4 m ρ c (Pipeline.arrRef spec0 4))
      = out0_4 (iblk0 (V3 m ρ) c 0 t) (iblk0 (V3 m ρ) c 1 t) (iblk0 (V3 m ρ) c 2 t) (iblk0 (V3 m ρ) c 3 t) := by
  rw [← hF0 m ρ c 4, (dat0 (V3 m ρ) c).read_blk_arrAt_eq_flushed 4 conv_disjoint cfg0.N t t.isLt (flush0_4 t)]
  show (cfg0.win 4).cut (grid0.coords t) ((dat0 (V3 m ρ) c).after 4 t) = _
  rw [after0_4]
  rfl

/-- Distinct grid points of the convolution region write distinct slabs of the statistics array. -/
theorem stat_index_inj : ∀ t t' : Fin cfg0.N, win0_5.index t = win0_5.index t' → t = t' :=
  (by decide +kernel : ∀ t t' : Fin grid0.N, win0_5.index t = win0_5.index t' → t = t')

theorem stat_disjoint : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (stat_index_inj t t' h)

/-- Slab t of the statistics array at the convolution region's exit is the body's second result on the
    region's input blocks at t. -/
theorem stat_block (c : Dev nD) (t : Fin cfg0.N) :
    ((cfg0.win 5).blk t).view.read (Elt F) (V4 m ρ c (Pipeline.arrRef spec0 5))
      = out0_5 (iblk0 (V3 m ρ) c 0 t) (iblk0 (V3 m ρ) c 1 t) (iblk0 (V3 m ρ) c 2 t) (iblk0 (V3 m ρ) c 3 t) := by
  rw [← hF0 m ρ c 5, (dat0 (V3 m ρ) c).read_blk_arrAt_eq_flushed 5 stat_disjoint cfg0.N t t.isLt (flush0_5 t)]
  show (cfg0.win 5).cut (grid0.coords t) ((dat0 (V3 m ρ) c).after 5 t) = _
  rw [after0_5]
  rfl

/-! ## The head region's output -/

/-- Distinct grid points of the head region write distinct row blocks of its output array. -/
theorem head_index_inj : ∀ t t' : Fin cfg1.N, win1_8.index t = win1_8.index t' → t = t' :=
  (by decide +kernel : ∀ t t' : Fin grid1.N, win1_8.index t = win1_8.index t' → t = t')

theorem head_disjoint : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (head_index_inj t t' h)

/-- Block t of the head region's output array at its exit is the body's result on the region's input
    blocks at t, the region entered from the convolution region's exit contents. -/
theorem head_block (c : Dev nD) (t : Fin cfg1.N) :
    ((cfg1.win 8).blk t).view.read (Elt F) (V5 m ρ c (Pipeline.arrRef spec1 8))
      = out1_8 (iblk1 (V4 m ρ) c 0 t) (iblk1 (V4 m ρ) c 1 t) (iblk1 (V4 m ρ) c 2 t) (iblk1 (V4 m ρ) c 3 t)
          (iblk1 (V4 m ρ) c 4 t) (iblk1 (V4 m ρ) c 5 t) (iblk1 (V4 m ρ) c 6 t) (iblk1 (V4 m ρ) c 7 t) := by
  rw [← hF1 m ρ c 8, (dat1 (V4 m ρ) c).read_blk_arrAt_eq_flushed 8 head_disjoint cfg1.N t t.isLt (flush1_8 t)]
  show (cfg1.win 8).cut (grid1.coords t) ((dat1 (V4 m ρ) c).after 8 t) = _
  rw [after1_8]
  rfl

end Cert.KernelIdeal.KVal

end
-- ==== Proof.KVArrays.lean ====
/- The arrays between the regions, read at an index.
   Rows 256t .. 256t+255 of the [8192,256] activation array are the convolution body's first result at
   grid point t; slab t of the [32,8,128] statistics array is its second result at t; rows 128t .. 128t+127
   of the head region's [1024,128] output are the head body's result at its grid point t. The head region
   reads rows 1024t .. 1024t+1023 of the activation array and the whole statistics array, as the
   convolution region left them, and six small arrays that no region writes: reshapes of gamma, beta, the
   first bias and the last bias, the second weight itself, and the first weight permuted and rounded. -/
import proofs.«159686_g2000604559473765_pallasbulk_680_3_alg».proof.Proof.Gen.KernelIdeal.Frame
import Idealize.ShloMosaic.Lib.Pipeline.Value
import proofs.«159686_g2000604559473765_pallasbulk_680_3_alg».proof.Proof.KVBlocks
import Idealize.ShloMosaic.Lib.ValueIdx
set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

open Idealize.ShloMosaic.ValueIdx

/-! ## Where a block's element sits in its array -/

theorem conv_index_val : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

theorem stat_index_val : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)

theorem head_index_val : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)

theorem head_in0_index_val : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem head_in1_index_val : ∀ t : Fin cfg1.N, win1_1.index t (0 : Fin 3) = 0 ∧ win1_1.index t (1 : Fin 3) = 0 ∧ win1_1.index t (2 : Fin 3) = 0 :=
  (by decide +kernel : ∀ t : Fin grid1.N, win1_1.index t (0 : Fin 3) = 0 ∧ win1_1.index t (1 : Fin 3) = 0 ∧ win1_1.index t (2 : Fin 3) = 0)

/-! ## The three arrays at an index -/

/-- Row 256t + y₀ of the activation array, after the convolution region, is row y₀ of the convolution
    body's first result at grid point t. -/
theorem conv_at (c : Dev nD) (t : Fin cfg0.N) (y : S256x256.Idx) (i : S8192x256.Idx)
    (h0 : (i 0).val = 256 * t.val + (y 0).val) (h1 : (i 1).val = (y 1).val) :
    (V4 m ρ c main_v19_0 : S8192x256.Idx → Elt F .f32) i
      = out0_4 (iblk0 (V3 m ρ) c 0 t) (iblk0 (V3 m ρ) c 1 t) (iblk0 (V3 m ρ) c 2 t) (iblk0 (V3 m ρ) c 3 t) y := by
  have h := congrFun (conv_block m ρ c t) y
  rw [View.read_apply] at h
  rw [← h]
  show V4 m ρ c main_v19_0 _ = V4 m ρ c main_v19_0 _
  congr 1
  obtain ⟨e0, e1⟩ := conv_index_val t
  funext a
  apply Fin.ext
  match a with
  | ⟨0, _⟩ => show (i 0).val = win0_4.index t (0 : Fin 2) * 256 + 1 * (y 0).val; rw [e0, h0]; omega
  | ⟨1, _⟩ => show (i 1).val = win0_4.index t (1 : Fin 2) * 256 + 1 * (y 1).val; rw [e1, h1]; omega

/-- Slab t of the statistics array, after the convolution region, is the convolution body's second
    result at grid point t. -/
theorem stat_at (c : Dev nD) (t : Fin cfg0.N) (y : S1x8x128.Idx) (i : S32x8x128.Idx)
    (h0 : (i 0).val = t.val) (h1 : (i 1).val = (y 1).val) (h2 : (i 2).val = (y 2).val) :
    (V4 m ρ c main_v19_1 : S32x8x128.Idx → Elt F .f32) i
      = out0_5 (iblk0 (V3 m ρ) c 0 t) (iblk0 (V3 m ρ) c 1 t) (iblk0 (V3 m ρ) c 2 t) (iblk0 (V3 m ρ) c 3 t) y := by
  have h := congrFun (stat_block m ρ c t) y
  rw [View.read_apply] at h
  rw [← h]
  show V4 m ρ c main_v19_1 _ = V4 m ρ c main_v19_1 _
  congr 1
  obtain ⟨e0, e1, e2⟩ := stat_index_val t
  have hy0 : (y 0).val < 1 := (y 0).isLt
  funext a
  apply Fin.ext
  match a with
  | ⟨0, _⟩ => show (i 0).val = win0_5.index t (0 : Fin 3) * 1 + 1 * (y 0).val; rw [e0, h0]; omega
  | ⟨1, _⟩ => show (i 1).val = win0_5.index t (1 : Fin 3) * 8 + 1 * (y 1).val; rw [e1, h1]; omega
  | ⟨2, _⟩ => show (i 2).val = win0_5.index t (2 : Fin 3) * 128 + 1 * (y 2).val; rw [e2, h2]; omega

/-- Row 128t + y₀ of the head region's output array, after the head region, is row y₀ of the head
    body's result at its grid point t. -/
theorem head_at (c : Dev nD) (t : Fin cfg1.N) (y : S128x128.Idx) (i : S1024x128.Idx)
    (h0 : (i 0).val = 128 * t.val + (y 0).val) (h1 : (i 1).val = (y 1).val) :
    (V5 m ρ c main_v20 : S1024x128.Idx → Elt F .f32) i
      = out1_8 (iblk1 (V4 m ρ) c 0 t) (iblk1 (V4 m ρ) c 1 t) (iblk1 (V4 m ρ) c 2 t) (iblk1 (V4 m ρ) c 3 t)
          (iblk1 (V4 m ρ) c 4 t) (iblk1 (V4 m ρ) c 5 t) (iblk1 (V4 m ρ) c 6 t) (iblk1 (V4 m ρ) c 7 t) y := by
  have h := congrFun (head_block m ρ c t) y
  rw [View.read_apply] at h
  rw [← h]
  show V5 m ρ c main_v20 _ = V5 m ρ c main_v20 _
  congr 1
  obtain ⟨e0, e1⟩ := head_index_val t
  funext a
  apply Fin.ext
  match a with
  | ⟨0, _⟩ => show (i 0).val = win1_8.index t (0 : Fin 2) * 128 + 1 * (y 0).val; rw [e0, h0]; omega
  | ⟨1, _⟩ => show (i 1).val = win1_8.index t (1 : Fin 2) * 128 + 1 * (y 1).val; rw [e1, h1]; omega

/-! ## The head region's input blocks -/

/-- The head region's first input block at grid point t is rows 1024t .. 1024t+1023 of the activation
    array as the convolution region left it. -/
theorem head_in0 (c : Dev nD) (t : Fin cfg1.N) (y : S1024x256.Idx) (i : S8192x256.Idx)
    (h0 : (i 0).val = 1024 * t.val + (y 0).val) (h1 : (i 1).val = (y 1).val) :
    (iblk1 (V4 m ρ) c 0 t : S1024x256.Idx → Elt F .f32) y = (V4 m ρ c main_v19_0 : S8192x256.Idx → Elt F .f32) i := by
  unfold iblk1
  rw [View.read_apply]
  show V4 m ρ c main_v19_0 _ = V4 m ρ c main_v19_0 _
  congr 1
  obtain ⟨e0, e1⟩ := head_in0_index_val t
  funext a
  apply Fin.ext
  match a with
  | ⟨0, _⟩ => show win1_0.index t (0 : Fin 2) * 1024 + 1 * (y 0).val = (i 0).val; rw [e0, h0]; omega
  | ⟨1, _⟩ => show win1_0.index t (1 : Fin 2) * 256 + 1 * (y 1).val = (i 1).val; rw [e1, h1]; omega

/-- The head region's second input block, at every grid point, is the whole statistics array as the
    convolution region left it. -/
theorem head_in1 (c : Dev nD) (t : Fin cfg1.N) :
    (iblk1 (V4 m ρ) c 1 t : S32x8x128.Idx → Elt F .f32) = (V4 m ρ c main_v19_1 : S32x8x128.Idx → Elt F .f32) := by
  funext y
  unfold iblk1
  rw [View.read_apply]
  show V4 m ρ c main_v19_1 _ = V4 m ρ c main_v19_1 _
  congr 1
  obtain ⟨e0, e1, e2⟩ := head_in1_index_val t
  funext a
  apply Fin.ext
  match a with
  | ⟨0, _⟩ => show win1_1.index t (0 : Fin 3) * 32 + 1 * (y 0).val = (y 0).val; rw [e0]; omega
  | ⟨1, _⟩ => show win1_1.index t (1 : Fin 3) * 8 + 1 * (y 1).val = (y 1).val; rw [e1]; omega
  | ⟨2, _⟩ => show win1_1.index t (2 : Fin 3) * 128 + 1 * (y 2).val = (y 2).val; rw [e2]; omega

/-! ## The head region's six small input blocks: arrays no region writes -/

theorem head_in2_index_val : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The head region's input block 2, at every grid point, is the whole array of gamma as the
    host operations before the convolution region left it: the convolution region does not write it. -/
theorem head_in2 (c : Dev nD) (t : Fin cfg1.N) :
    (iblk1 (V4 m ρ) c 2 t : S1x32.Idx → Elt F .f32) = (V3 m ρ c main_v11 : S1x32.Idx → Elt F .f32) := by
  have e : V4 m ρ c main_v11 = V3 m ρ c main_v11 := W4_of_ne m ρ c main_v11 (by decide)
  funext y
  unfold iblk1
  rw [View.read_apply]
  show V4 m ρ c main_v11 _ = V3 m ρ c main_v11 _
  rw [e]
  congr 1
  obtain ⟨e0, e1⟩ := head_in2_index_val t
  funext a
  apply Fin.ext
  match a with
  | ⟨0, _⟩ => show win1_2.index t (0 : Fin 2) * 1 + 1 * (y 0).val = (y 0).val; rw [e0]; omega
  | ⟨1, _⟩ => show win1_2.index t (1 : Fin 2) * 32 + 1 * (y 1).val = (y 1).val; rw [e1]; omega

/-- That array is gamma, reshaped [32] → [1,32]. -/
theorem gamma_arr (c : Dev nD) :
    (V3 m ρ c main_v11 : S1x32.Idx → Elt F .f32)
      = shapeCast S1x32 (m ((c.tc : Thread nD τ).loc main_arg3) : S32.Idx → Elt F .f32) shapeCasts_S32_S1x32 := by
  show StableHlo.after hostOps0_2 (StableHlo.after hostOps0_1 (StableHlo.after hostOps0 (W0 m ρ c))) (Proc.devRef .tc main_v11) = _
  after_results
  rfl

theorem head_in3_index_val : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The head region's input block 3, at every grid point, is the whole array of beta as the
    host operations before the convolution region left it: the convolution region does not write it. -/
theorem head_in3 (c : Dev nD) (t : Fin cfg1.N) :
    (iblk1 (V4 m ρ) c 3 t : S1x32.Idx → Elt F .f32) = (V3 m ρ c main_v12 : S1x32.Idx → Elt F .f32) := by
  have e : V4 m ρ c main_v12 = V3 m ρ c main_v12 := W4_of_ne m ρ c main_v12 (by decide)
  funext y
  unfold iblk1
  rw [View.read_apply]
  show V4 m ρ c main_v12 _ = V3 m ρ c main_v12 _
  rw [e]
  congr 1
  obtain ⟨e0, e1⟩ := head_in3_index_val t
  funext a
  apply Fin.ext
  match a with
  | ⟨0, _⟩ => show win1_3.index t (0 : Fin 2) * 1 + 1 * (y 0).val = (y 0).val; rw [e0]; omega
  | ⟨1, _⟩ => show win1_3.index t (1 : Fin 2) * 32 + 1 * (y 1).val = (y 1).val; rw [e1]; omega

/-- That array is beta, reshaped [32] → [1,32]. -/
theorem beta_arr (c : Dev nD) :
    (V3 m ρ c main_v12 : S1x32.Idx → Elt F .f32)
      = shapeCast S1x32 (m ((c.tc : Thread nD τ).loc main_arg4) : S32.Idx → Elt F .f32) shapeCasts_S32_S1x32 := by
  show StableHlo.after hostOps0_2 (StableHlo.after hostOps0_1 (StableHlo.after hostOps0 (W0 m ρ c))) (Proc.devRef .tc main_v12) = _
  after_results
  rfl

theorem head_in4_index_val : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- The head region's input block 4, at every grid point, is the whole array of the first weight as the
    host operations before the convolution region left it: the convolution region does not write it. -/
theorem head_in4 (c : Dev nD) (t : Fin cfg1.N) :
    (iblk1 (V4 m ρ) c 4 t : S512x64.Idx → Elt F .bf16) = (V3 m ρ c main_v16 : S512x64.Idx → Elt F .bf16) := by
  have e : V4 m ρ c main_v16 = V3 m ρ c main_v16 := W4_of_ne m ρ c main_v16 (by decide)
  funext y
  unfold iblk1
  rw [View.read_apply]
  show V4 m ρ c main_v16 _ = V3 m ρ c main_v16 _
  rw [e]
  congr 1
  obtain ⟨e0, e1⟩ := head_in4_index_val t
  funext a
  apply Fin.ext
  match a with
  | ⟨0, _⟩ => show win1_4.index t (0 : Fin 2) * 512 + 1 * (y 0).val = (y 0).val; rw [e0]; omega
  | ⟨1, _⟩ => show win1_4.index t (1 : Fin 2) * 64 + 1 * (y 1).val = (y 1).val; rw [e1]; omega

/-- That array is the first weight [64,512], reshaped to [64,32,4,4], transposed to [4,4,32,64], reshaped to [512,64] and rounded to bf16. -/
theorem w1_arr (c : Dev nD) :
    (V3 m ρ c main_v16 : S512x64.Idx → Elt F .bf16)
      = truncf .bf16 (shapeCast S512x64 (transpose S4x4x32x64 [2, 3, 1, 0] (shapeCast S64x32x4x4 (m ((c.tc : Thread nD τ).loc main_arg5) : S64x512.Idx → Elt F .f32) shapeCasts_S64x512_S64x32x4x4) transposes_S64x32x4x4_S4x4x32x64_2_3_1_0) shapeCasts_S4x4x32x64_S512x64) bitsLt_bf16_f32 := by
  show StableHlo.after hostOps0_2 (StableHlo.after hostOps0_1 (StableHlo.after hostOps0 (W0 m ρ c))) (Proc.devRef .tc main_v16) = _
  after_results
  rfl

theorem head_in5_index_val : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- The head region's input block 5, at every grid point, is the whole array of the first bias as the
    host operations before the convolution region left it: the convolution region does not write it. -/
theorem head_in5 (c : Dev nD) (t : Fin cfg1.N) :
    (iblk1 (V4 m ρ) c 5 t : S1x64.Idx → Elt F .f32) = (V3 m ρ c main_v17 : S1x64.Idx → Elt F .f32) := by
  have e : V4 m ρ c main_v17 = V3 m ρ c main_v17 := W4_of_ne m ρ c main_v17 (by decide)
  funext y
  unfold iblk1
  rw [View.read_apply]
  show V4 m ρ c main_v17 _ = V3 m ρ c main_v17 _
  rw [e]
  congr 1
  obtain ⟨e0, e1⟩ := head_in5_index_val t
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- That array is the first bias, reshaped [64] → [1,64]. -/
theorem b1_arr (c : Dev nD) :
    (V3 m ρ c main_v17 : S1x64.Idx → Elt F .f32)
      = shapeCast S1x64 (m ((c.tc : Thread nD τ).loc main_arg6) : S64.Idx → Elt F .f32) shapeCasts_S64_S1x64 := by
  show StableHlo.after hostOps0_2 (StableHlo.after hostOps0_1 (StableHlo.after hostOps0 (W0 m ρ c))) (Proc.devRef .tc main_v17) = _
  after_results
  rfl

theorem head_in6_index_val : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- The head region's input block 6, at every grid point, is the whole array of the second weight as the
    host operations before the convolution region left it: the convolution region does not write it. -/
theorem head_in6 (c : Dev nD) (t : Fin cfg1.N) :
    (iblk1 (V4 m ρ) c 6 t : S1x64.Idx → Elt F .f32) = (V3 m ρ c main_arg7 : S1x64.Idx → Elt F .f32) := by
  have e : V4 m ρ c main_arg7 = V3 m ρ c main_arg7 := W4_of_ne m ρ c main_arg7 (by decide)
  funext y
  unfold iblk1
  rw [View.read_apply]
  show V4 m ρ c main_arg7 _ = V3 m ρ c main_arg7 _
  rw [e]
  congr 1
  obtain ⟨e0, e1⟩ := head_in6_index_val t
  funext a
  apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- That array is the second weight [1,64] itself. -/
theorem w2_arr (c : Dev nD) :
    (V3 m ρ c main_arg7 : S1x64.Idx → Elt F .f32)
      = (m ((c.tc : Thread nD τ).loc main_arg7) : S1x64.Idx → Elt F .f32) := by
  show StableHlo.after hostOps0_2 (StableHlo.after hostOps0_1 (StableHlo.after hostOps0 (W0 m ρ c))) (Proc.devRef .tc main_arg7) = _
  after_results

theorem head_in7_index_val : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- The head region's input block 7, at every grid point, is the whole array of the last bias as the
    host operations before the convolution region left it: the convolution region does not write it. -/
theorem head_in7 (c : Dev nD) (t : Fin cfg1.N) :
    (iblk1 (V4 m ρ) c 7 t : S1x1.Idx → Elt F .f32) = (V3 m ρ c main_v18 : S1x1.Idx → Elt F .f32) := by
  have e : V4 m ρ c main_v18 = V3 m ρ c main_v18 := W4_of_ne m ρ c main_v18 (by decide)
  funext y
  unfold iblk1
  rw [View.read_apply]
  show V4 m ρ c main_v18 _ = V3 m ρ c main_v18 _
  rw [e]
  congr 1
  obtain ⟨e0, e1⟩ := head_in7_index_val t
  funext a
  apply Fin.ext
  match a with
  | ⟨0, _⟩ => show win1_7.index t (0 : Fin 2) * 1 + 1 * (y 0).val = (y 0).val; rw [e0]; omega
  | ⟨1, _⟩ => show win1_7.index t (1 : Fin 2) * 1 + 1 * (y 1).val = (y 1).val; rw [e1]; omega

/-- That array is the last bias, reshaped [1] → [1,1]. -/
theorem b2_arr (c : Dev nD) :
    (V3 m ρ c main_v18 : S1x1.Idx → Elt F .f32)
      = shapeCast S1x1 (m ((c.tc : Thread nD τ).loc main_arg8) : S1.Idx → Elt F .f32) shapeCasts_S1_S1x1 := by
  show StableHlo.after hostOps0_2 (StableHlo.after hostOps0_1 (StableHlo.after hostOps0 (W0 m ρ c))) (Proc.devRef .tc main_v18) = _
  after_results
  rfl

end Cert.KernelIdeal.KVal

end
-- ==== Proof.KVOps.lean ====
/- Vector operations read at one entry, at the exact (extended-real) reading of floats.
   Each lemma says what one layout or reduction step of the head computation does to a single entry:
   a reshape that groups 8 consecutive rows, a row or lane slice, a row repeated down a tile, pieces laid
   side by side, a lane sum, a per-channel sum over tiles, and a matrix product into a zero accumulator.
   The tile's row count is a parameter wherever the step does not depend on it. -/
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KVal

open Idealize.ShloMosaic Idealize.ShloMosaic.ValueIdx

/-! ## Reshapes and slices -/

/-- Rows 8b .. 8b+7 of a [R,256] array are the 8 inner rows of entry b of its [N,8,256] reshape. -/
theorem rows_cast_apply {R N : Nat} (X : FVec Ideal ⟨2, ![R, 256]⟩ .f32)
    (hc : (⟨2, ![R, 256]⟩ : Shape).ShapeCasts ⟨3, ![N, 8, 256]⟩)
    (b : Fin N) (h : Fin 8) (col : Fin 256) (r : Fin R) (hr : r.val = 8 * b.val + h.val) :
    shapeCast ⟨3, ![N, 8, 256]⟩ X hc (ix3 b h col) = X (ix2 r col) := by
  refine shapeCast_apply X hc _ _ ?_
  rw [Shape.rowMajor_val_two, Shape.rowMajor_val_three]
  show r.val * 256 + col.val = (b.val * 8 + h.val) * 256 + col.val
  rw [hr]; omega

/-- Inner row h of a [N,8,256] array, as a [N,256] array. -/
theorem row_slice_apply {N : Nat} (h : Nat) (Y : FVec Ideal ⟨3, ![N, 8, 256]⟩ .f32)
    (hs : (⟨3, ![N, 8, 256]⟩ : Shape).Slices ![0, h, 0] ⟨3, ![N, 1, 256]⟩)
    (hc : (⟨3, ![N, 1, 256]⟩ : Shape).ShapeCasts ⟨2, ![N, 256]⟩)
    (b : Fin N) (col : Fin 256) (hh : Fin 8) (e : hh.val = h) :
    shapeCast ⟨2, ![N, 256]⟩ (extractStridedSlice ⟨3, ![N, 1, 256]⟩ ![0, h, 0] Y hs) hc (ix2 b col) = Y (ix3 b hh col) := by
  refine (shapeCast_apply _ hc (ix2 b col) (ix3 b (0 : Fin 1) col) ?_).trans ?_
  · rw [Shape.rowMajor_val_two, Shape.rowMajor_val_three]
    show (b.val * 1 + 0) * 256 + col.val = b.val * 256 + col.val
    omega
  · refine extractStridedSlice_apply _ _ _ _ _ fun a => ?_
    match a with
    | ⟨0, _⟩ => show b.val = 0 + b.val; omega
    | ⟨1, _⟩ => show hh.val = h + 0; omega
    | ⟨2, _⟩ => show col.val = 0 + col.val; omega

/-- The larger of two 32-lane slices of a [N,256] array. -/
theorem slice_pair_max {N : Nat} (o1 o2 : Nat) (M : FVec Ideal ⟨2, ![N, 256]⟩ .f32)
    (h1 : (⟨2, ![N, 256]⟩ : Shape).Slices ![0, o1] ⟨2, ![N, 32]⟩) (h2 : (⟨2, ![N, 256]⟩ : Shape).Slices ![0, o2] ⟨2, ![N, 32]⟩)
    (b : Fin N) (ch : Fin 32) (c1 c2 : Fin 256) (e1 : c1.val = o1 + ch.val) (e2 : c2.val = o2 + ch.val) :
    maximumf (extractStridedSlice ⟨2, ![N, 32]⟩ ![0, o1] M h1) (extractStridedSlice ⟨2, ![N, 32]⟩ ![0, o2] M h2) (ix2 b ch)
      = max (M (ix2 b c1)) (M (ix2 b c2)) := by
  rw [maximumf_apply]
  congr 1
  · refine extractStridedSlice_apply _ _ _ _ _ fun a => ?_
    match a with
    | ⟨0, _⟩ => show b.val = 0 + b.val; omega
    | ⟨1, _⟩ => exact e1
  · refine extractStridedSlice_apply _ _ _ _ _ fun a => ?_
    match a with
    | ⟨0, _⟩ => show b.val = 0 + b.val; omega
    | ⟨1, _⟩ => exact e2

/-! ## Repeats and side-by-side pieces -/

/-- Eight copies of a [1,32] row side by side: lane col reads lane col % 32. -/
theorem concat8_apply (v : FVec Ideal ⟨2, ![1, 32]⟩ .f32)
    (h : Shape.Concatenates [⟨2, ![1, 32]⟩, ⟨2, ![1, 32]⟩, ⟨2, ![1, 32]⟩, ⟨2, ![1, 32]⟩, ⟨2, ![1, 32]⟩, ⟨2, ![1, 32]⟩, ⟨2, ![1, 32]⟩, ⟨2, ![1, 32]⟩] ⟨2, ![1, 256]⟩ 1)
    (col : Fin 256) (ch : Fin 32) (e : ch.val = col.val % 32) :
    concatenate ⟨2, ![1, 256]⟩ 1 [⟨⟨2, ![1, 32]⟩, v⟩, ⟨⟨2, ![1, 32]⟩, v⟩, ⟨⟨2, ![1, 32]⟩, v⟩, ⟨⟨2, ![1, 32]⟩, v⟩, ⟨⟨2, ![1, 32]⟩, v⟩, ⟨⟨2, ![1, 32]⟩, v⟩, ⟨⟨2, ![1, 32]⟩, v⟩, ⟨⟨2, ![1, 32]⟩, v⟩] h (ix2 0 col)
      = v (ix2 0 ch) :=
  concatenate_replicate_apply (t := ⟨2, ![1, 256]⟩) (s₁ := ⟨2, ![1, 32]⟩) 1 8 v h rfl (ix2 0 col) (ix2 0 ch) e
    (fun b hb => by
      match b with
      | ⟨0, _⟩ => rfl
      | ⟨1, _⟩ => exact absurd rfl hb)

/-- A [1,C] row repeated down R rows. -/
theorem bcast_rows_apply {R C : Nat} (hC : C ≠ 1) (v : FVec Ideal ⟨2, ![1, C]⟩ .f32)
    (h : (⟨2, ![1, C]⟩ : Shape).Broadcasts ⟨2, ![R, C]⟩) (r : Fin R) (col : Fin C) :
    broadcastTo ⟨2, ![R, C]⟩ v h (ix2 r col) = v (ix2 0 col) := by
  refine broadcastTo_apply v h _ _ fun a => ?_
  match a with
  | ⟨0, _⟩ => show (0 : Nat) = if (1 : Nat) = 1 then 0 else _; rw [if_pos rfl]
  | ⟨1, _⟩ => show col.val = if C = 1 then 0 else col.val; rw [if_neg hC]

/-- A [1,1] entry repeated down R rows. -/
theorem bcast_one_apply {R : Nat} (v : FVec Ideal ⟨2, ![1, 1]⟩ .f32)
    (h : (⟨2, ![1, 1]⟩ : Shape).Broadcasts ⟨2, ![R, 1]⟩) (r : Fin R) :
    broadcastTo ⟨2, ![R, 1]⟩ v h (ix2 r 0) = v (ix2 0 0) := by
  refine broadcastTo_apply v h _ _ fun a => ?_
  match a with
  | ⟨0, _⟩ => show (0 : Nat) = if (1 : Nat) = 1 then 0 else _; rw [if_pos rfl]
  | ⟨1, _⟩ => show (0 : Nat) = if (1 : Nat) = 1 then 0 else _; rw [if_pos rfl]

/-- A [R,1] column repeated across 64 lanes. -/
theorem bcast_col_apply {R : Nat} (v : FVec Ideal ⟨2, ![R, 1]⟩ .f32)
    (h : (⟨2, ![R, 1]⟩ : Shape).Broadcasts ⟨2, ![R, 64]⟩) (r : Fin R) (j : Fin 64) :
    broadcastTo ⟨2, ![R, 64]⟩ v h (ix2 r j) = v (ix2 r 0) := by
  refine broadcastTo_apply v h _ _ fun a => ?_
  match a with
  | ⟨0, _⟩ =>
    show r.val = if R = 1 then 0 else r.val
    have := r.isLt
    split <;> omega
  | ⟨1, _⟩ => show (0 : Nat) = if (1 : Nat) = 1 then 0 else _; rw [if_pos rfl]

/-- Two [R,64] halves side by side: the left half. -/
theorem concat2_left {R : Nat} (x₁ x₂ : FVec Ideal ⟨2, ![R, 64]⟩ .f32)
    (h : Shape.Concatenates [⟨2, ![R, 64]⟩, ⟨2, ![R, 64]⟩] ⟨2, ![R, 128]⟩ 1) (r : Fin R) (col : Fin 128) (j : Fin 64) (e : j.val = col.val) :
    concatenate ⟨2, ![R, 128]⟩ 1 [⟨⟨2, ![R, 64]⟩, x₁⟩, ⟨⟨2, ![R, 64]⟩, x₂⟩] h (ix2 r col) = x₁ (ix2 r j) :=
  concatenate_pair_apply_left (t := ⟨2, ![R, 128]⟩) 1 x₁ x₂ h (ix2 r col) rfl (ix2 r j) (fun b => by
    match b with
    | ⟨0, _⟩ => rfl
    | ⟨1, _⟩ => exact e)

/-- Two [R,64] halves side by side: the right half. -/
theorem concat2_right {R : Nat} (x₁ x₂ : FVec Ideal ⟨2, ![R, 64]⟩ .f32)
    (h : Shape.Concatenates [⟨2, ![R, 64]⟩, ⟨2, ![R, 64]⟩] ⟨2, ![R, 128]⟩ 1) (r : Fin R) (col : Fin 128) (j : Fin 64) (e : j.val + 64 = col.val) :
    concatenate ⟨2, ![R, 128]⟩ 1 [⟨⟨2, ![R, 64]⟩, x₁⟩, ⟨⟨2, ![R, 64]⟩, x₂⟩] h (ix2 r col) = x₂ (ix2 r j) :=
  concatenate_pair_apply_right (t := ⟨2, ![R, 128]⟩) 1 x₁ x₂ h (ix2 r col) rfl rfl (ix2 r j) (fun b hb => by
    match b with
    | ⟨0, _⟩ => rfl
    | ⟨1, _⟩ => exact absurd rfl hb) e

/-- Sixteen [N,32] pieces side by side: lane p of the [N,512] result is lane p % 32 of piece p / 32. -/
theorem concat16_apply {N : Nat} (q0 q1 q2 q3 q4 q5 q6 q7 q8 q9 q10 q11 q12 q13 q14 q15 : FVec Ideal ⟨2, ![N, 32]⟩ .f32)
    (h : Shape.Concatenates [⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩, ⟨2, ![N, 32]⟩] ⟨2, ![N, 512]⟩ 1)
    (b : Fin N) (p : Fin 512) (n : Fin 16) (hn : p.val / 32 = n.val) (ch : Fin 32) (hch : ch.val = p.val % 32) :
    concatenate ⟨2, ![N, 512]⟩ 1 [⟨⟨2, ![N, 32]⟩, q0⟩, ⟨⟨2, ![N, 32]⟩, q1⟩, ⟨⟨2, ![N, 32]⟩, q2⟩, ⟨⟨2, ![N, 32]⟩, q3⟩, ⟨⟨2, ![N, 32]⟩, q4⟩, ⟨⟨2, ![N, 32]⟩, q5⟩, ⟨⟨2, ![N, 32]⟩, q6⟩, ⟨⟨2, ![N, 32]⟩, q7⟩, ⟨⟨2, ![N, 32]⟩, q8⟩, ⟨⟨2, ![N, 32]⟩, q9⟩, ⟨⟨2, ![N, 32]⟩, q10⟩, ⟨⟨2, ![N, 32]⟩, q11⟩, ⟨⟨2, ![N, 32]⟩, q12⟩, ⟨⟨2, ![N, 32]⟩, q13⟩, ⟨⟨2, ![N, 32]⟩, q14⟩, ⟨⟨2, ![N, 32]⟩, q15⟩] h (ix2 b p)
      = (![q0, q1, q2, q3, q4, q5, q6, q7, q8, q9, q10, q11, q12, q13, q14, q15] : Fin 16 → FVec Ideal ⟨2, ![N, 32]⟩ .f32) n (ix2 b ch) :=
  concatenate_ofFn_apply (t := ⟨2, ![N, 512]⟩) (s₁ := ⟨2, ![N, 32]⟩) 1 (![q0, q1, q2, q3, q4, q5, q6, q7, q8, q9, q10, q11, q12, q13, q14, q15] : Fin 16 → FVec Ideal ⟨2, ![N, 32]⟩ .f32) h rfl 32 rfl (ix2 b p) n hn (ix2 b ch) hch
    (fun a ha => by
      match a with
      | ⟨0, _⟩ => rfl
      | ⟨1, _⟩ => exact absurd rfl ha)

/-! ## Sums and the matrix product -/

/-- A row's 64 lanes added, as a [N,1] column. -/
theorem lane_sum_apply {N : Nat} (X : FVec Ideal ⟨2, ![N, 64]⟩ .f32)
    (hr : (⟨2, ![N, 64]⟩ : Shape).Reduces [1] ⟨1, ![N]⟩) (hφ : FKind.Formats .f32)
    (hacc : (0x00000000#32 : BitVec 32) = FKind.add.neutral .f32 hφ)
    (hc : (⟨1, ![N]⟩ : Shape).ShapeCasts ⟨2, ![N, 1]⟩) (b : Fin N) :
    shapeCast ⟨2, ![N, 1]⟩ (multiReduction .add [1] ⟨1, ![N]⟩ X 0x00000000#32 hr hφ hacc) hc (ix2 b 0)
      = ∑ j : Fin 64, X (ix2 b j) := by
  refine (shapeCast_apply _ hc (ix2 b 0) (ix1 b) ?_).trans ?_
  · rw [Shape.rowMajor_val_one, Shape.rowMajor_val_two]
    show b.val = b.val * 1 + 0
    omega
  · rw [Ideal.multiReduction_add_single]
    show ∑ k : Fin 64, X (hr.lift (ix1 b) k) = _
    refine Finset.sum_congr rfl fun k _ => ?_
    congr 1
    funext a
    apply Fin.ext
    match a with
    | ⟨0, _⟩ => rfl
    | ⟨1, _⟩ => rfl

/-- Row r of the statistics array, its first 32 lanes, added over the 32 tiles, as a [1,32] row. -/
theorem stat_sum_apply (r : Nat) (st : FVec Ideal ⟨3, ![32, 8, 128]⟩ .f32)
    (hs : (⟨3, ![32, 8, 128]⟩ : Shape).Slices ![0, r, 0] ⟨3, ![32, 1, 32]⟩)
    (hc : (⟨3, ![32, 1, 32]⟩ : Shape).ShapeCasts ⟨2, ![32, 32]⟩)
    (hr : (⟨2, ![32, 32]⟩ : Shape).Reduces [0] ⟨1, ![32]⟩) (hφ : FKind.Formats .f32)
    (hacc : (0x00000000#32 : BitVec 32) = FKind.add.neutral .f32 hφ)
    (hc2 : (⟨1, ![32]⟩ : Shape).ShapeCasts ⟨2, ![1, 32]⟩) (ch : Fin 32) (rr : Fin 8) (e : rr.val = r) (l : Fin 128) (el : l.val = ch.val) :
    shapeCast ⟨2, ![1, 32]⟩ (multiReduction .add [0] ⟨1, ![32]⟩
        (shapeCast ⟨2, ![32, 32]⟩ (extractStridedSlice ⟨3, ![32, 1, 32]⟩ ![0, r, 0] st hs) hc) 0x00000000#32 hr hφ hacc) hc2 (ix2 0 ch)
      = ∑ n : Fin 32, st (ix3 n rr l) := by
  refine (shapeCast_apply _ hc2 (ix2 0 ch) (ix1 ch) ?_).trans ?_
  · rw [Shape.rowMajor_val_one, Shape.rowMajor_val_two]
    show ch.val = 0 * 32 + ch.val
    omega
  · rw [Ideal.multiReduction_add_single]
    show ∑ k : Fin 32, _ = _
    refine Finset.sum_congr rfl fun n _ => ?_
    refine (shapeCast_apply _ hc (hr.lift (ix1 ch) n) (ix3 n (0 : Fin 1) ⟨ch.val, ch.isLt⟩) ?_).trans ?_
    · rw [Shape.rowMajor_val_two, Shape.rowMajor_val_three]
      show (n.val * 1 + 0) * 32 + ch.val = n.val * 32 + ch.val
      omega
    · refine extractStridedSlice_apply _ _ _ _ _ fun a => ?_
      match a with
      | ⟨0, _⟩ => show n.val = 0 + n.val; omega
      | ⟨1, _⟩ => show rr.val = r + 0; omega
      | ⟨2, _⟩ => show l.val = 0 + ch.val; omega

/-- An M×K by K×N product into a zero accumulator, at an entry: the sum over the contracted coordinate. -/
theorem matmul_plain_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    matmul (⟨[1], [0], [0], [1], [], [], w⟩ : DotDims _ _ _) prec A B (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.KVal

end
-- ==== Proof.KVSpec.lean ====
/- The head computation on one batch element, as a function on extended reals.
   From the [32,8,128] statistics array (row 0: per-tile sums of the convolution output per channel,
   row 1: per-tile sums of its squares) come the batch mean and the biased variance of each of the 32
   channels, and from those the affine map of the normalization. One batch element is 8 rows of 256 lanes
   (lane = 32 * w + channel); after the affine map and the clamp at zero, a 2x2 maximum over (row, w)
   pairs gives 512 pooled values (index 128 * ph + 32 * pw + channel), which a 512x64 weight, a bias and
   a clamp at zero turn into 64 hidden values, and a 64-wide weight and a bias into one number.
   Float literals stay as their words: 0x47800000 is 65536, 0x3727C5AC the variance offset, 0x00000000 zero. -/
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KVal

open Idealize.ShloMosaic Idealize.ShloMosaic.ValueIdx

/-- Lane ch of row r of the statistics array, added over the 32 tiles. -/
def statSum (st : (⟨3, ![32, 8, 128]⟩ : Shape).Idx → EReal) (r : Fin 8) (ch : Fin 32) : EReal :=
  ∑ n : Fin 32, st (ix3 n r ⟨ch.val, by omega⟩)

/-- The batch mean of channel ch: the sum of the per-tile sums over the count. -/
def bnMean (st : (⟨3, ![32, 8, 128]⟩ : Shape).Idx → EReal) (ch : Fin 32) : EReal :=
  Ideal.div (statSum st 0 ch) (Ideal.ofBits .f32 0x47800000#32)

/-- The biased batch variance of channel ch, clamped at zero: mean of squares minus square of mean. -/
def bnVar (st : (⟨3, ![32, 8, 128]⟩ : Shape).Idx → EReal) (ch : Fin 32) : EReal :=
  max (Ideal.div (statSum st 1 ch) (Ideal.ofBits .f32 0x47800000#32) - bnMean st ch * bnMean st ch)
    (Ideal.ofBits .f32 0x00000000#32)

/-- The scale of channel ch: gamma times the reciprocal square root of variance plus offset. -/
def bnScale (st : (⟨3, ![32, 8, 128]⟩ : Shape).Idx → EReal) (g : (⟨2, ![1, 32]⟩ : Shape).Idx → EReal) (ch : Fin 32) : EReal :=
  g (ix2 0 ch) * Ideal.rsqrt (bnVar st ch + Ideal.ofBits .f32 0x3727C5AC#32)

/-- The shift of channel ch: beta minus mean times scale. -/
def bnShift (st : (⟨3, ![32, 8, 128]⟩ : Shape).Idx → EReal) (g be : (⟨2, ![1, 32]⟩ : Shape).Idx → EReal) (ch : Fin 32) : EReal :=
  be (ix2 0 ch) - bnMean st ch * bnScale st g ch

/-- One convolution value x of channel ch after the affine map and the clamp at zero. -/
def bnRelu (st : (⟨3, ![32, 8, 128]⟩ : Shape).Idx → EReal) (g be : (⟨2, ![1, 32]⟩ : Shape).Idx → EReal) (ch : Fin 32) (x : EReal) : EReal :=
  max (x * bnScale st g ch + bnShift st g be ch) (Ideal.ofBits .f32 0x00000000#32)

/-- The 2x2 maximum at pooled position (ph, pw) of channel ch, over one batch element's 8 rows of 256
    lanes: first the two rows 2ph, 2ph+1 at each of the lanes 64pw + ch and 64pw + 32 + ch, then the two lanes. -/
def pool (Y : Fin 8 → Fin 256 → EReal) (ph pw : Fin 4) (ch : Fin 32) : EReal :=
  max (max (Y ⟨2 * ph.val, by omega⟩ ⟨64 * pw.val + ch.val, by omega⟩) (Y ⟨2 * ph.val + 1, by omega⟩ ⟨64 * pw.val + ch.val, by omega⟩))
    (max (Y ⟨2 * ph.val, by omega⟩ ⟨64 * pw.val + 32 + ch.val, by omega⟩) (Y ⟨2 * ph.val + 1, by omega⟩ ⟨64 * pw.val + 32 + ch.val, by omega⟩))

/-- The 512 pooled values of one batch element: index p = 128 * ph + 32 * pw + ch. -/
def pooled (Y : Fin 8 → Fin 256 → EReal) (p : Fin 512) : EReal :=
  pool Y ⟨p.val / 128, by omega⟩ ⟨p.val / 32 % 4, by omega⟩ ⟨p.val % 32, by omega⟩

/-- Hidden value j: the pooled values against column j of the weight, plus the bias, clamped at zero. -/
def hidden (Y : Fin 8 → Fin 256 → EReal) (w1 : (⟨2, ![512, 64]⟩ : Shape).Idx → EReal)
    (b1 : (⟨2, ![1, 64]⟩ : Shape).Idx → EReal) (j : Fin 64) : EReal :=
  max ((∑ p : Fin 512, pooled Y p * w1 (ix2 p j)) + b1 (ix2 0 j)) (Ideal.ofBits .f32 0x00000000#32)

/-- The output number: the hidden values against the second weight, plus the last bias. -/
def logit (Y : Fin 8 → Fin 256 → EReal) (w1 : (⟨2, ![512, 64]⟩ : Shape).Idx → EReal)
    (b1 w2 : (⟨2, ![1, 64]⟩ : Shape).Idx → EReal) (b2 : (⟨2, ![1, 1]⟩ : Shape).Idx → EReal) : EReal :=
  (∑ j : Fin 64, hidden Y w1 b1 j * w2 (ix2 0 j)) + b2 (ix2 0 0)

/-- The 128 values the head leaves for one batch element: the 64 hidden values, then the output number 64 times. -/
def headVal (Y : Fin 8 → Fin 256 → EReal) (w1 : (⟨2, ![512, 64]⟩ : Shape).Idx → EReal)
    (b1 w2 : (⟨2, ![1, 64]⟩ : Shape).Idx → EReal) (b2 : (⟨2, ![1, 1]⟩ : Shape).Idx → EReal) (col : Fin 128) : EReal :=
  if h : col.val < 64 then hidden Y w1 b1 ⟨col.val, h⟩ else logit Y w1 b1 w2 b2

end Cert.KernelIdeal.KVal

end
-- ==== Proof.KVNorm.lean ====
/- The normalization part of the head body, read at one entry.
   The body first turns the statistics array into a per-channel scale and shift, repeats them across
   the 8 groups of 32 lanes, applies them to every convolution value of the tile and clamps at zero,
   and regroups the tile's 1024 rows as 128 batch elements of 8 rows. Each step is named here as a
   small term, the body's value is the composition of those terms, and each term is read at an entry. -/
import proofs.«159686_g2000604559473765_pallasbulk_680_3_alg».proof.Proof.Gen.KernelIdeal.Skeleton
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.KernelIdeal.KVal

open Cert.KernelIdeal Cert.KernelIdeal.Gen Idealize.ShloMosaic Idealize.ShloMosaic.ValueIdx

/-! ## The body's steps as named terms -/

/-- The per-channel sums over the tiles of row 0 of the statistics (sums of the convolution output). -/
def sum0V (st : Vec Ideal S32x8x128 .f32) : FVec Ideal S1x32 .f32 :=
  shapeCast S1x32 (multiReduction .add [0] S32 (shapeCast S32x32 (extractStridedSlice S32x1x32 ![0, 0, 0]
    (shapeCast S32x8x128 st shapeCasts_S32x8x128_S32x8x128) slices_S32x8x128_o0_0_0_S32x1x32) shapeCasts_S32x1x32_S32x32)
    0x00000000#32 reduces_S32x32_S32 (.inl rfl) rfl) shapeCasts_S32_S1x32

/-- The per-channel sums over the tiles of row 1 of the statistics (sums of squares). -/
def sum1V (st : Vec Ideal S32x8x128 .f32) : FVec Ideal S1x32 .f32 :=
  shapeCast S1x32 (multiReduction .add [0] S32 (shapeCast S32x32 (extractStridedSlice S32x1x32 ![0, 1, 0]
    (shapeCast S32x8x128 st shapeCasts_S32x8x128_S32x8x128) slices_S32x8x128_o0_1_0_S32x1x32) shapeCasts_S32x1x32_S32x32)
    0x00000000#32 reduces_S32x32_S32 (.inl rfl) rfl) shapeCasts_S32_S1x32

def meanV (st : Vec Ideal S32x8x128 .f32) : FVec Ideal S1x32 .f32 :=
  divf (sum0V st) (broadcast S1x32 (Scalar.ofBits .f32 0x47800000#32))

def varV (st : Vec Ideal S32x8x128 .f32) : FVec Ideal S1x32 .f32 :=
  maximumf (subf (divf (sum1V st) (broadcast S1x32 (Scalar.ofBits .f32 0x47800000#32))) (mulf (meanV st) (meanV st)))
    (broadcast S1x32 (Scalar.ofBits .f32 0x00000000#32))

def scaleV (st : Vec Ideal S32x8x128 .f32) (g : Vec Ideal S1x32 .f32) : FVec Ideal S1x32 .f32 :=
  mulf (shapeCast S1x32 g shapeCasts_S1x32_S1x32) (rsqrt (addf (varV st) (broadcast S1x32 (Scalar.ofBits .f32 0x3727C5AC#32))))

def shiftV (st : Vec Ideal S32x8x128 .f32) (g be : Vec Ideal S1x32 .f32) : FVec Ideal S1x32 .f32 :=
  subf (shapeCast S1x32 be shapeCasts_S1x32_S1x32) (mulf (meanV st) (scaleV st g))

/-- A [1,32] row laid side by side 8 times. -/
def rep8 (v : FVec Ideal S1x32 .f32) : FVec Ideal S1x256 .f32 :=
  concatenate S1x256 1 [⟨S1x32, v⟩, ⟨S1x32, v⟩, ⟨S1x32, v⟩, ⟨S1x32, v⟩, ⟨S1x32, v⟩, ⟨S1x32, v⟩, ⟨S1x32, v⟩, ⟨S1x32, v⟩] concatenates_S1x32_S1x32_S1x32_S1x32_S1x32_S1x32_S1x32_S1x32_S1x256_d1

/-- The tile's convolution values after the affine map and the clamp at zero. -/
def actV (st : Vec Ideal S32x8x128 .f32) (g be : Vec Ideal S1x32 .f32) (conv : Vec Ideal S1024x256 .f32) : FVec Ideal S1024x256 .f32 :=
  maximumf (addf (mulf (shapeCast S1024x256 conv shapeCasts_S1024x256_S1024x256)
      (broadcastTo S1024x256 (rep8 (scaleV st g)) broadcasts_S1x256_S1024x256))
      (broadcastTo S1024x256 (rep8 (shiftV st g be)) broadcasts_S1x256_S1024x256))
    (broadcast S1024x256 (Scalar.ofBits .f32 0x00000000#32))

/-- The body's first value is those steps composed, regrouped as 128 batch elements of 8 rows. -/
theorem pay3_eq (st : Vec Ideal S32x8x128 .f32) (g be : Vec Ideal S1x32 .f32) (conv : Vec Ideal S1024x256 .f32) :
    k1_pay3 (F := Ideal) st g be conv = shapeCast S128x8x256 (actV st g be conv) shapeCasts_S1024x256_S128x8x256 := rfl

/-! ## Each step at an entry -/

theorem sum0V_apply (st : Vec Ideal S32x8x128 .f32) (ch : Fin 32) : sum0V st (ix2 0 ch) = statSum st 0 ch := by
  unfold sum0V statSum
  refine (stat_sum_apply 0 _ _ _ _ _ _ _ ch 0 rfl ⟨ch.val, by omega⟩ rfl).trans ?_
  rw [shapeCast_self]

theorem sum1V_apply (st : Vec Ideal S32x8x128 .f32) (ch : Fin 32) : sum1V st (ix2 0 ch) = statSum st 1 ch := by
  unfold sum1V statSum
  refine (stat_sum_apply 1 _ _ _ _ _ _ _ ch 1 rfl ⟨ch.val, by omega⟩ rfl).trans ?_
  rw [shapeCast_self]

theorem meanV_apply (st : Vec Ideal S32x8x128 .f32) (ch : Fin 32) : meanV st (ix2 0 ch) = bnMean st ch := by
  show Ideal.div (sum0V st (ix2 0 ch)) (Ideal.ofBits .f32 0x47800000#32) = _
  rw [sum0V_apply]; rfl

theorem varV_apply (st : Vec Ideal S32x8x128 .f32) (ch : Fin 32) : varV st (ix2 0 ch) = bnVar st ch := by
  show max (Ideal.div (sum1V st (ix2 0 ch)) (Ideal.ofBits .f32 0x47800000#32) - meanV st (ix2 0 ch) * meanV st (ix2 0 ch))
    (Ideal.ofBits .f32 0x00000000#32) = _
  rw [sum1V_apply, meanV_apply]; rfl

theorem scaleV_apply (st : Vec Ideal S32x8x128 .f32) (g : Vec Ideal S1x32 .f32) (ch : Fin 32) :
    scaleV st g (ix2 0 ch) = bnScale st g ch := by
  show shapeCast S1x32 g shapeCasts_S1x32_S1x32 (ix2 0 ch) * Ideal.rsqrt (varV st (ix2 0 ch) + Ideal.ofBits .f32 0x3727C5AC#32) = _
  rw [shapeCast_self, varV_apply]; rfl

theorem shiftV_apply (st : Vec Ideal S32x8x128 .f32) (g be : Vec Ideal S1x32 .f32) (ch : Fin 32) :
    shiftV st g be (ix2 0 ch) = bnShift st g be ch := by
  show shapeCast S1x32 be shapeCasts_S1x32_S1x32 (ix2 0 ch) - meanV st (ix2 0 ch) * scaleV st g (ix2 0 ch) = _
  rw [shapeCast_self, meanV_apply, scaleV_apply]; rfl

theorem rep8_apply (v : FVec Ideal S1x32 .f32) (col : Fin 256) : rep8 v (ix2 0 col) = v (ix2 0 ⟨col.val % 32, by omega⟩) :=
  concat8_apply v _ col ⟨col.val % 32, by omega⟩ rfl

/-- A convolution value of the tile after the affine map of its channel (lane % 32) and the clamp at zero. -/
theorem actV_apply (st : Vec Ideal S32x8x128 .f32) (g be : Vec Ideal S1x32 .f32) (conv : Vec Ideal S1024x256 .f32)
    (r : Fin 1024) (col : Fin 256) :
    actV st g be conv (ix2 r col) = bnRelu st g be ⟨col.val % 32, by omega⟩ (conv (ix2 r col)) := by
  show max (shapeCast S1024x256 conv shapeCasts_S1024x256_S1024x256 (ix2 r col)
        * broadcastTo S1024x256 (rep8 (scaleV st g)) broadcasts_S1x256_S1024x256 (ix2 r col)
      + broadcastTo S1024x256 (rep8 (shiftV st g be)) broadcasts_S1x256_S1024x256 (ix2 r col))
    (Ideal.ofBits .f32 0x00000000#32) = _
  rw [shapeCast_self, bcast_rows_apply (by decide) (rep8 (scaleV st g)) broadcasts_S1x256_S1024x256 r col,
    bcast_rows_apply (by decide) (rep8 (shiftV st g be)) broadcasts_S1x256_S1024x256 r col,
    rep8_apply, rep8_apply, scaleV_apply, shiftV_apply]
  rfl

/-- Row h of batch element b of the tile, lane col, after the affine map and the clamp: the body's first
    value at (b, h, col) reads the convolution block at row 8b + h. -/
theorem pay3_apply (st : Vec Ideal S32x8x128 .f32) (g be : Vec Ideal S1x32 .f32) (conv : Vec Ideal S1024x256 .f32)
    (b : Fin 128) (h : Fin 8) (col : Fin 256) :
    k1_pay3 (F := Ideal) st g be conv (ix3 b h col)
      = bnRelu st g be ⟨col.val % 32, by omega⟩ (conv (ix2 ⟨8 * b.val + h.val, by omega⟩ col)) := by
  rw [pay3_eq]
  refine (rows_cast_apply (actV st g be conv) shapeCasts_S1024x256_S128x8x256 b h col ⟨8 * b.val + h.val, by omega⟩ rfl).trans ?_
  exact actV_apply st g be conv _ col

end Cert.KernelIdeal.KVal

end
-- ==== Proof.KVPool.lean ====
/- The pooling part of the head body, read at one entry.
   Each batch element of the tile is 8 rows of 256 lanes. The body takes the larger of rows 2ph and
   2ph+1 (four row pairs), then for each of the four lane groups pw the larger of the 32 lanes starting
   at 64pw and the 32 lanes starting at 64pw + 32, and lays the sixteen [128,32] results side by side in
   the order 4ph + pw: 512 pooled values per batch element. -/
import proofs.«159686_g2000604559473765_pallasbulk_680_3_alg».proof.Proof.Gen.KernelIdeal.Skeleton
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.KernelIdeal.KVal

open Cert.KernelIdeal Cert.KernelIdeal.Gen Idealize.ShloMosaic Idealize.ShloMosaic.ValueIdx

/-! ## The steps as named terms -/

def row0 (Y : FVec Ideal S128x8x256 .f32) : FVec Ideal S128x256 .f32 :=
  shapeCast S128x256 (extractStridedSlice S128x1x256 ![0, 0, 0] Y slices_S128x8x256_o0_0_0_S128x1x256) shapeCasts_S128x1x256_S128x256

def row1 (Y : FVec Ideal S128x8x256 .f32) : FVec Ideal S128x256 .f32 :=
  shapeCast S128x256 (extractStridedSlice S128x1x256 ![0, 1, 0] Y slices_S128x8x256_o0_1_0_S128x1x256) shapeCasts_S128x1x256_S128x256

def row2 (Y : FVec Ideal S128x8x256 .f32) : FVec Ideal S128x256 .f32 :=
  shapeCast S128x256 (extractStridedSlice S128x1x256 ![0, 2, 0] Y slices_S128x8x256_o0_2_0_S128x1x256) shapeCasts_S128x1x256_S128x256

def row3 (Y : FVec Ideal S128x8x256 .f32) : FVec Ideal S128x256 .f32 :=
  shapeCast S128x256 (extractStridedSlice S128x1x256 ![0, 3, 0] Y slices_S128x8x256_o0_3_0_S128x1x256) shapeCasts_S128x1x256_S128x256

def row4 (Y : FVec Ideal S128x8x256 .f32) : FVec Ideal S128x256 .f32 :=
  shapeCast S128x256 (extractStridedSlice S128x1x256 ![0, 4, 0] Y slices_S128x8x256_o0_4_0_S128x1x256) shapeCasts_S128x1x256_S128x256

def row5 (Y : FVec Ideal S128x8x256 .f32) : FVec Ideal S128x256 .f32 :=
  shapeCast S128x256 (extractStridedSlice S128x1x256 ![0, 5, 0] Y slices_S128x8x256_o0_5_0_S128x1x256) shapeCasts_S128x1x256_S128x256

def row6 (Y : FVec Ideal S128x8x256 .f32) : FVec Ideal S128x256 .f32 :=
  shapeCast S128x256 (extractStridedSlice S128x1x256 ![0, 6, 0] Y slices_S128x8x256_o0_6_0_S128x1x256) shapeCasts_S128x1x256_S128x256

def row7 (Y : FVec Ideal S128x8x256 .f32) : FVec Ideal S128x256 .f32 :=
  shapeCast S128x256 (extractStridedSlice S128x1x256 ![0, 7, 0] Y slices_S128x8x256_o0_7_0_S128x1x256) shapeCasts_S128x1x256_S128x256

/-- The larger of rows 0 and 1 of every batch element. -/
def rowMax0 (Y : FVec Ideal S128x8x256 .f32) : FVec Ideal S128x256 .f32 := maximumf (row0 Y) (row1 Y)

/-- The larger of rows 2 and 3 of every batch element. -/
def rowMax1 (Y : FVec Ideal S128x8x256 .f32) : FVec Ideal S128x256 .f32 := maximumf (row2 Y) (row3 Y)

/-- The larger of rows 4 and 5 of every batch element. -/
def rowMax2 (Y : FVec Ideal S128x8x256 .f32) : FVec Ideal S128x256 .f32 := maximumf (row4 Y) (row5 Y)

/-- The larger of rows 6 and 7 of every batch element. -/
def rowMax3 (Y : FVec Ideal S128x8x256 .f32) : FVec Ideal S128x256 .f32 := maximumf (row6 Y) (row7 Y)

/-- The larger of the 32 lanes from 0 and the 32 lanes from 32. -/
def piece0 (M : FVec Ideal S128x256 .f32) : FVec Ideal S128x32 .f32 :=
  maximumf (extractStridedSlice S128x32 ![0, 0] M slices_S128x256_o0_0_S128x32)
    (extractStridedSlice S128x32 ![0, 32] M slices_S128x256_o0_32_S128x32)

/-- The larger of the 32 lanes from 64 and the 32 lanes from 96. -/
def piece1 (M : FVec Ideal S128x256 .f32) : FVec Ideal S128x32 .f32 :=
  maximumf (extractStridedSlice S128x32 ![0, 64] M slices_S128x256_o0_64_S128x32)
    (extractStridedSlice S128x32 ![0, 96] M slices_S128x256_o0_96_S128x32)

/-- The larger of the 32 lanes from 128 and the 32 lanes from 160. -/
def piece2 (M : FVec Ideal S128x256 .f32) : FVec Ideal S128x32 .f32 :=
  maximumf (extractStridedSlice S128x32 ![0, 128] M slices_S128x256_o0_128_S128x32)
    (extractStridedSlice S128x32 ![0, 160] M slices_S128x256_o0_160_S128x32)

/-- The larger of the 32 lanes from 192 and the 32 lanes from 224. -/
def piece3 (M : FVec Ideal S128x256 .f32) : FVec Ideal S128x32 .f32 :=
  maximumf (extractStridedSlice S128x32 ![0, 192] M slices_S128x256_o0_192_S128x32)
    (extractStridedSlice S128x32 ![0, 224] M slices_S128x256_o0_224_S128x32)

/-- The sixteen pooled pieces side by side: 512 pooled values per batch element. -/
def pooledV (Y : FVec Ideal S128x8x256 .f32) : FVec Ideal S128x512 .f32 :=
  concatenate S128x512 1 [⟨S128x32, piece0 (rowMax0 Y)⟩, ⟨S128x32, piece1 (rowMax0 Y)⟩, ⟨S128x32, piece2 (rowMax0 Y)⟩, ⟨S128x32, piece3 (rowMax0 Y)⟩, ⟨S128x32, piece0 (rowMax1 Y)⟩, ⟨S128x32, piece1 (rowMax1 Y)⟩, ⟨S128x32, piece2 (rowMax1 Y)⟩, ⟨S128x32, piece3 (rowMax1 Y)⟩, ⟨S128x32, piece0 (rowMax2 Y)⟩, ⟨S128x32, piece1 (rowMax2 Y)⟩, ⟨S128x32, piece2 (rowMax2 Y)⟩, ⟨S128x32, piece3 (rowMax2 Y)⟩, ⟨S128x32, piece0 (rowMax3 Y)⟩, ⟨S128x32, piece1 (rowMax3 Y)⟩, ⟨S128x32, piece2 (rowMax3 Y)⟩, ⟨S128x32, piece3 (rowMax3 Y)⟩] concatenates_S128x32_S128x32_S128x32_S128x32_S128x32_S128x32_S128x32_S128x32_S128x32_S128x32_S128x32_S128x32_S128x32_S128x32_S128x32_S128x32_S128x512_d1

/-! ## Each step at an entry -/

theorem rowMax0_apply (Y : FVec Ideal S128x8x256 .f32) (b : Fin 128) (col : Fin 256) :
    rowMax0 Y (ix2 b col) = max (Y (ix3 b ⟨0, by omega⟩ col)) (Y (ix3 b ⟨1, by omega⟩ col)) := by
  show max (row0 Y (ix2 b col)) (row1 Y (ix2 b col)) = _
  exact congrArg₂ max (row_slice_apply 0 Y _ _ b col ⟨0, by omega⟩ rfl) (row_slice_apply 1 Y _ _ b col ⟨1, by omega⟩ rfl)

theorem rowMax1_apply (Y : FVec Ideal S128x8x256 .f32) (b : Fin 128) (col : Fin 256) :
    rowMax1 Y (ix2 b col) = max (Y (ix3 b ⟨2, by omega⟩ col)) (Y (ix3 b ⟨3, by omega⟩ col)) := by
  show max (row2 Y (ix2 b col)) (row3 Y (ix2 b col)) = _
  exact congrArg₂ max (row_slice_apply 2 Y _ _ b col ⟨2, by omega⟩ rfl) (row_slice_apply 3 Y _ _ b col ⟨3, by omega⟩ rfl)

theorem rowMax2_apply (Y : FVec Ideal S128x8x256 .f32) (b : Fin 128) (col : Fin 256) :
    rowMax2 Y (ix2 b col) = max (Y (ix3 b ⟨4, by omega⟩ col)) (Y (ix3 b ⟨5, by omega⟩ col)) := by
  show max (row4 Y (ix2 b col)) (row5 Y (ix2 b col)) = _
  exact congrArg₂ max (row_slice_apply 4 Y _ _ b col ⟨4, by omega⟩ rfl) (row_slice_apply 5 Y _ _ b col ⟨5, by omega⟩ rfl)

theorem rowMax3_apply (Y : FVec Ideal S128x8x256 .f32) (b : Fin 128) (col : Fin 256) :
    rowMax3 Y (ix2 b col) = max (Y (ix3 b ⟨6, by omega⟩ col)) (Y (ix3 b ⟨7, by omega⟩ col)) := by
  show max (row6 Y (ix2 b col)) (row7 Y (ix2 b col)) = _
  exact congrArg₂ max (row_slice_apply 6 Y _ _ b col ⟨6, by omega⟩ rfl) (row_slice_apply 7 Y _ _ b col ⟨7, by omega⟩ rfl)

theorem piece0_apply (M : FVec Ideal S128x256 .f32) (b : Fin 128) (ch : Fin 32) :
    piece0 M (ix2 b ch) = max (M (ix2 b ⟨0 + ch.val, by omega⟩)) (M (ix2 b ⟨32 + ch.val, by omega⟩)) :=
  slice_pair_max 0 32 M _ _ b ch ⟨0 + ch.val, by omega⟩ ⟨32 + ch.val, by omega⟩ rfl rfl

theorem piece1_apply (M : FVec Ideal S128x256 .f32) (b : Fin 128) (ch : Fin 32) :
    piece1 M (ix2 b ch) = max (M (ix2 b ⟨64 + ch.val, by omega⟩)) (M (ix2 b ⟨96 + ch.val, by omega⟩)) :=
  slice_pair_max 64 96 M _ _ b ch ⟨64 + ch.val, by omega⟩ ⟨96 + ch.val, by omega⟩ rfl rfl

theorem piece2_apply (M : FVec Ideal S128x256 .f32) (b : Fin 128) (ch : Fin 32) :
    piece2 M (ix2 b ch) = max (M (ix2 b ⟨128 + ch.val, by omega⟩)) (M (ix2 b ⟨160 + ch.val, by omega⟩)) :=
  slice_pair_max 128 160 M _ _ b ch ⟨128 + ch.val, by omega⟩ ⟨160 + ch.val, by omega⟩ rfl rfl

theorem piece3_apply (M : FVec Ideal S128x256 .f32) (b : Fin 128) (ch : Fin 32) :
    piece3 M (ix2 b ch) = max (M (ix2 b ⟨192 + ch.val, by omega⟩)) (M (ix2 b ⟨224 + ch.val, by omega⟩)) :=
  slice_pair_max 192 224 M _ _ b ch ⟨192 + ch.val, by omega⟩ ⟨224 + ch.val, by omega⟩ rfl rfl

/-- Piece 4ph + pw at (b, ch) is the 2x2 maximum at (ph, pw) of channel ch over batch element b's rows. -/
theorem pieces_apply (Y : FVec Ideal S128x8x256 .f32) (b : Fin 128) (n : Fin 16) (ch : Fin 32) :
    (![piece0 (rowMax0 Y), piece1 (rowMax0 Y), piece2 (rowMax0 Y), piece3 (rowMax0 Y), piece0 (rowMax1 Y), piece1 (rowMax1 Y), piece2 (rowMax1 Y), piece3 (rowMax1 Y), piece0 (rowMax2 Y), piece1 (rowMax2 Y), piece2 (rowMax2 Y), piece3 (rowMax2 Y), piece0 (rowMax3 Y), piece1 (rowMax3 Y), piece2 (rowMax3 Y), piece3 (rowMax3 Y)] : Fin 16 → FVec Ideal S128x32 .f32) n (ix2 b ch)
      = pool (fun h col => Y (ix3 b h col)) ⟨n.val / 4, by omega⟩ ⟨n.val % 4, by omega⟩ ch := by
  match n with
  | ⟨0, _⟩ =>
    show piece0 (rowMax0 Y) (ix2 b ch) = _
    rw [piece0_apply, rowMax0_apply, rowMax0_apply]
    simp only [pool]
  | ⟨1, _⟩ =>
    show piece1 (rowMax0 Y) (ix2 b ch) = _
    rw [piece1_apply, rowMax0_apply, rowMax0_apply]
    simp only [pool]
  | ⟨2, _⟩ =>
    show piece2 (rowMax0 Y) (ix2 b ch) = _
    rw [piece2_apply, rowMax0_apply, rowMax0_apply]
    simp only [pool]
  | ⟨3, _⟩ =>
    show piece3 (rowMax0 Y) (ix2 b ch) = _
    rw [piece3_apply, rowMax0_apply, rowMax0_apply]
    simp only [pool]
  | ⟨4, _⟩ =>
    show piece0 (rowMax1 Y) (ix2 b ch) = _
    rw [piece0_apply, rowMax1_apply, rowMax1_apply]
    simp only [pool]
  | ⟨5, _⟩ =>
    show piece1 (rowMax1 Y) (ix2 b ch) = _
    rw [piece1_apply, rowMax1_apply, rowMax1_apply]
    simp only [pool]
  | ⟨6, _⟩ =>
    show piece2 (rowMax1 Y) (ix2 b ch) = _
    rw [piece2_apply, rowMax1_apply, rowMax1_apply]
    simp only [pool]
  | ⟨7, _⟩ =>
    show piece3 (rowMax1 Y) (ix2 b ch) = _
    rw [piece3_apply, rowMax1_apply, rowMax1_apply]
    simp only [pool]
  | ⟨8, _⟩ =>
    show piece0 (rowMax2 Y) (ix2 b ch) = _
    rw [piece0_apply, rowMax2_apply, rowMax2_apply]
    simp only [pool]
  | ⟨9, _⟩ =>
    show piece1 (rowMax2 Y) (ix2 b ch) = _
    rw [piece1_apply, rowMax2_apply, rowMax2_apply]
    simp only [pool]
  | ⟨10, _⟩ =>
    show piece2 (rowMax2 Y) (ix2 b ch) = _
    rw [piece2_apply, rowMax2_apply, rowMax2_apply]
    simp only [pool]
  | ⟨11, _⟩ =>
    show piece3 (rowMax2 Y) (ix2 b ch) = _
    rw [piece3_apply, rowMax2_apply, rowMax2_apply]
    simp only [pool]
  | ⟨12, _⟩ =>
    show piece0 (rowMax3 Y) (ix2 b ch) = _
    rw [piece0_apply, rowMax3_apply, rowMax3_apply]
    simp only [pool]
  | ⟨13, _⟩ =>
    show piece1 (rowMax3 Y) (ix2 b ch) = _
    rw [piece1_apply, rowMax3_apply, rowMax3_apply]
    simp only [pool]
  | ⟨14, _⟩ =>
    show piece2 (rowMax3 Y) (ix2 b ch) = _
    rw [piece2_apply, rowMax3_apply, rowMax3_apply]
    simp only [pool]
  | ⟨15, _⟩ =>
    show piece3 (rowMax3 Y) (ix2 b ch) = _
    rw [piece3_apply, rowMax3_apply, rowMax3_apply]
    simp only [pool]
  | ⟨k + 16, hk⟩ => exact absurd hk (by omega)

/-- Pooled value p of batch element b. -/
theorem pooledV_apply (Y : FVec Ideal S128x8x256 .f32) (b : Fin 128) (p : Fin 512) :
    pooledV Y (ix2 b p) = pooled (fun h col => Y (ix3 b h col)) p := by
  unfold pooledV
  refine (concat16_apply (piece0 (rowMax0 Y)) (piece1 (rowMax0 Y)) (piece2 (rowMax0 Y)) (piece3 (rowMax0 Y)) (piece0 (rowMax1 Y)) (piece1 (rowMax1 Y)) (piece2 (rowMax1 Y)) (piece3 (rowMax1 Y)) (piece0 (rowMax2 Y)) (piece1 (rowMax2 Y)) (piece2 (rowMax2 Y)) (piece3 (rowMax2 Y)) (piece0 (rowMax3 Y)) (piece1 (rowMax3 Y)) (piece2 (rowMax3 Y)) (piece3 (rowMax3 Y)) _ b p ⟨p.val / 32, by omega⟩ rfl ⟨p.val % 32, by omega⟩ rfl).trans ?_
  rw [pieces_apply Y b ⟨p.val / 32, by omega⟩ ⟨p.val % 32, by omega⟩]
  unfold pooled
  congr 1
  exact Fin.ext (by show p.val / 32 / 4 = p.val / 128; omega)

end Cert.KernelIdeal.KVal

end
-- ==== Proof.KVDense.lean ====
/- The dense part of the head body, read at one entry.
   The 512 pooled values of each batch element, rounded to bf16 (the identity on exact values), go
   through a 512x64 product into a zero accumulator, a bias row and a clamp at zero: 64 hidden values.
   Those times a 64-wide weight row, added over the lanes, plus one bias entry, give one number per
   batch element. The stored block is the hidden values in lanes 0..63 and that number repeated in
   lanes 64..127. -/
import proofs.«159686_g2000604559473765_pallasbulk_680_3_alg».proof.Proof.Gen.KernelIdeal.Skeleton
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.KernelIdeal.KVal

open Cert.KernelIdeal Cert.KernelIdeal.Gen Idealize.ShloMosaic Idealize.ShloMosaic.ValueIdx

/-! ## The steps as named terms -/

/-- The 64 hidden values of every batch element of the tile. -/
def hidV (L : FVec Ideal S128x512 .f32) (w1 : Vec Ideal S512x64 .bf16) (b1 : Vec Ideal S1x64 .f32) : FVec Ideal S128x64 .f32 :=
  maximumf (addf (matmul dot_S128x512_S512x64_S128x64_1_0_0_1_n_n none (truncf .bf16 L bitsLt_bf16_f32)
        (shapeCast S512x64 w1 shapeCasts_S512x64_S512x64 : FVec Ideal S512x64 .bf16) (constant S128x64 .f32 0x00000000#32))
      (broadcastTo S128x64 (shapeCast S1x64 b1 shapeCasts_S1x64_S1x64) broadcasts_S1x64_S128x64))
    (broadcast S128x64 (Scalar.ofBits .f32 0x00000000#32))

/-- The output number of every batch element of the tile, as a [128,1] column. -/
def outV (L : FVec Ideal S128x512 .f32) (w1 : Vec Ideal S512x64 .bf16) (b1 w2 : Vec Ideal S1x64 .f32) (b2 : Vec Ideal S1x1 .f32) :
    FVec Ideal S128x1 .f32 :=
  addf (shapeCast S128x1 (multiReduction .add [1] S128 (mulf (hidV L w1 b1) (broadcastTo S128x64 w2 broadcasts_S1x64_S128x64))
      0x00000000#32 reduces_S128x64_S128 (.inl rfl) rfl) shapeCasts_S128_S128x1)
    (broadcastTo S128x1 (shapeCast S1x1 b2 shapeCasts_S1x1_S1x1) broadcasts_S1x1_S128x1)

/-- The stored block is the hidden values beside the output number repeated across 64 lanes. -/
theorem pay2_eq (L : FVec Ideal S128x512 .f32) (w1 : Vec Ideal S512x64 .bf16) (b1 w2 : Vec Ideal S1x64 .f32) (b2 : Vec Ideal S1x1 .f32) :
    k1_pay2 (F := Ideal) L w1 b1 w2 b2
      = concatenate S128x128 1 [⟨S128x64, hidV L w1 b1⟩,
          ⟨S128x64, broadcastTo S128x64 (shapeCast S128x1 (outV L w1 b1 w2 b2) shapeCasts_S128x1_S128x1) broadcasts_S128x1_S128x64⟩]
          concatenates_S128x64_S128x64_S128x128_d1 := rfl

/-! ## Each step at an entry -/

/-- The product at (b, j): the pooled values of batch element b against column j of the weight. -/
theorem mm_apply (L : FVec Ideal S128x512 .f32) (w1 : Vec Ideal S512x64 .bf16) (b : Fin 128) (j : Fin 64) :
    matmul dot_S128x512_S512x64_S128x64_1_0_0_1_n_n none (truncf .bf16 L bitsLt_bf16_f32)
        (shapeCast S512x64 w1 shapeCasts_S512x64_S512x64 : FVec Ideal S512x64 .bf16) (constant S128x64 .f32 0x00000000#32) (ix2 b j)
      = ∑ p : Fin 512, L (ix2 b p) * w1 (ix2 p j) := by
  refine (matmul_plain_zero_apply dot_S128x512_S512x64_S128x64_1_0_0_1_n_n_wf none _ _ b j).trans ?_
  refine Finset.sum_congr rfl fun p _ => ?_
  rw [shapeCast_self]
  rfl

theorem hidV_apply (L : FVec Ideal S128x512 .f32) (w1 : Vec Ideal S512x64 .bf16) (b1 : Vec Ideal S1x64 .f32) (b : Fin 128) (j : Fin 64) :
    hidV L w1 b1 (ix2 b j)
      = max ((∑ p : Fin 512, L (ix2 b p) * w1 (ix2 p j)) + b1 (ix2 0 j)) (Ideal.ofBits .f32 0x00000000#32) := by
  show max (matmul dot_S128x512_S512x64_S128x64_1_0_0_1_n_n none (truncf .bf16 L bitsLt_bf16_f32)
        (shapeCast S512x64 w1 shapeCasts_S512x64_S512x64 : FVec Ideal S512x64 .bf16) (constant S128x64 .f32 0x00000000#32) (ix2 b j)
      + broadcastTo S128x64 (shapeCast S1x64 b1 shapeCasts_S1x64_S1x64) broadcasts_S1x64_S128x64 (ix2 b j))
    (Ideal.ofBits .f32 0x00000000#32) = _
  rw [mm_apply, bcast_rows_apply (by decide) (shapeCast S1x64 b1 shapeCasts_S1x64_S1x64) broadcasts_S1x64_S128x64 b j, shapeCast_self]

theorem outV_apply (L : FVec Ideal S128x512 .f32) (w1 : Vec Ideal S512x64 .bf16) (b1 w2 : Vec Ideal S1x64 .f32) (b2 : Vec Ideal S1x1 .f32)
    (b : Fin 128) :
    outV L w1 b1 w2 b2 (ix2 b 0) = (∑ j : Fin 64, hidV L w1 b1 (ix2 b j) * w2 (ix2 0 j)) + b2 (ix2 0 0) := by
  show shapeCast S128x1 (multiReduction .add [1] S128 (mulf (hidV L w1 b1) (broadcastTo S128x64 w2 broadcasts_S1x64_S128x64))
        0x00000000#32 reduces_S128x64_S128 (.inl rfl) rfl) shapeCasts_S128_S128x1 (ix2 b 0)
      + broadcastTo S128x1 (shapeCast S1x1 b2 shapeCasts_S1x1_S1x1) broadcasts_S1x1_S128x1 (ix2 b 0) = _
  rw [bcast_one_apply (shapeCast S1x1 b2 shapeCasts_S1x1_S1x1) broadcasts_S1x1_S128x1 b, shapeCast_self]
  refine congrArg (· + b2 (ix2 0 0)) ?_
  refine (lane_sum_apply _ reduces_S128x64_S128 (.inl rfl) rfl shapeCasts_S128_S128x1 b).trans ?_
  refine Finset.sum_congr rfl fun j _ => ?_
  show hidV L w1 b1 (ix2 b j) * broadcastTo S128x64 w2 broadcasts_S1x64_S128x64 (ix2 b j) = _
  rw [bcast_rows_apply (by decide) w2 broadcasts_S1x64_S128x64 b j]

/-- Lanes 0..63 of the stored block are the hidden values. -/
theorem pay2_left (L : FVec Ideal S128x512 .f32) (w1 : Vec Ideal S512x64 .bf16) (b1 w2 : Vec Ideal S1x64 .f32) (b2 : Vec Ideal S1x1 .f32)
    (b : Fin 128) (col : Fin 128) (h : col.val < 64) :
    k1_pay2 (F := Ideal) L w1 b1 w2 b2 (ix2 b col) = hidV L w1 b1 (ix2 b ⟨col.val, h⟩) := by
  rw [pay2_eq]
  exact concat2_left _ _ _ b col ⟨col.val, h⟩ rfl

/-- Lanes 64..127 of the stored block are the output number. -/
theorem pay2_right (L : FVec Ideal S128x512 .f32) (w1 : Vec Ideal S512x64 .bf16) (b1 w2 : Vec Ideal S1x64 .f32) (b2 : Vec Ideal S1x1 .f32)
    (b : Fin 128) (col : Fin 128) (h : ¬ col.val < 64) :
    k1_pay2 (F := Ideal) L w1 b1 w2 b2 (ix2 b col) = outV L w1 b1 w2 b2 (ix2 b 0) := by
  rw [pay2_eq]
  refine (concat2_right _ _ _ b col ⟨col.val - 64, by omega⟩ (by show col.val - 64 + 64 = col.val; omega)).trans ?_
  refine (bcast_col_apply _ broadcasts_S128x1_S128x64 b _).trans ?_
  rw [shapeCast_self]

end Cert.KernelIdeal.KVal

end
-- ==== Proof.KVHead.lean ====
/- The head region's block at one entry, as an explicit expression of its eight input blocks.
   The body's stored value is the dense part applied to the pooling of the normalization; reading the
   three parts at an entry gives, for row b of the block and lane col, the value headVal of the batch
   element whose 8 rows are rows 8b .. 8b+7 of the convolution input block. -/
import proofs.«159686_g2000604559473765_pallasbulk_680_3_alg».proof.Proof.Gen.KernelIdeal.Frame
import proofs.«159686_g2000604559473765_pallasbulk_680_3_alg».proof.Proof.KVNorm
import proofs.«159686_g2000604559473765_pallasbulk_680_3_alg».proof.Proof.KVPool
import proofs.«159686_g2000604559473765_pallasbulk_680_3_alg».proof.Proof.KVDense

set_option maxRecDepth 16384

noncomputable section

open scoped BigOperators

namespace Cert.KernelIdeal.KVal

open Cert.KernelIdeal Cert.KernelIdeal.Gen Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The head body's one store writes the dense part of the pooling of the normalization of its loads. -/
theorem out1_8_eq (x0 : Vec Ideal S1024x256 .f32) (x1 : Vec Ideal S32x8x128 .f32) (x2 x3 : Vec Ideal S1x32 .f32)
    (x4 : Vec Ideal S512x64 .bf16) (x5 x6 : Vec Ideal S1x64 .f32) (x7 : Vec Ideal S1x1 .f32) :
    out1_8 (F := Ideal) x0 x1 x2 x3 x4 x5 x6 x7
      = k1_pay2 (F := Ideal) (pooledV (k1_pay3 (F := Ideal) x1 x2 x3 x0)) x4 x5 x6 x7 := by
  unfold out1_8
  rw [View.canon_unit_zero hz2]
  simp only [View.ld_unit_zero (S := S1024x256) hz2, View.ld_unit_zero (S := S32x8x128) hz3,
    View.ld_unit_zero (S := S1x32) hz2, View.ld_unit_zero (S := S512x64) hz2, View.ld_unit_zero (S := S1x64) hz2,
    View.ld_unit_zero (S := S1x1) hz2]
  rfl

/-- THE HEAD BLOCK AT AN ENTRY. For row b : Fin 128 and lane col : Fin 128 of the block,
      out1_8 x0 … x7 (ix2 b col) = headVal Y x4 x5 x6 x7 col,
    where Y h cc = bnRelu x1 x2 x3 ⟨cc % 32⟩ (x0 (ix2 ⟨8b + h⟩ cc)) is row h (of 8), lane cc (of 256) of batch
    element b after the affine map of channel cc % 32 and the clamp at zero. Unfolded (KVSpec):
    * statSum st r ch = ∑ n : Fin 32, st (ix3 n r ⟨ch⟩)                      (a bare sum, no initial term)
    * bnMean = Ideal.div (statSum st 0 ch) (ofBits 0x47800000);  bnVar = max (Ideal.div (statSum st 1 ch) (ofBits 0x47800000) - bnMean * bnMean) (ofBits 0)
    * bnScale = g (ix2 0 ch) * Ideal.rsqrt (bnVar + ofBits 0x3727C5AC);  bnShift = be (ix2 0 ch) - bnMean * bnScale
    * bnRelu ch x = max (x * bnScale + bnShift) (ofBits 0)
    * pool Y ph pw ch = max (max (Y ⟨2ph⟩ ⟨64pw + ch⟩) (Y ⟨2ph+1⟩ ⟨64pw + ch⟩)) (max (Y ⟨2ph⟩ ⟨64pw + 32 + ch⟩) (Y ⟨2ph+1⟩ ⟨64pw + 32 + ch⟩))
      (rows first, then the two lane groups);  pooled Y p = pool Y ⟨p / 128⟩ ⟨p / 32 % 4⟩ ⟨p % 32⟩
    * hidden j = max ((∑ p : Fin 512, pooled Y p * w1 (ix2 p j)) + b1 (ix2 0 j)) (ofBits 0)      (sum, then bias)
    * logit = (∑ j : Fin 64, hidden j * w2 (ix2 0 j)) + b2 (ix2 0 0)                              (sum, then bias)
    * headVal col = if col < 64 then hidden ⟨col⟩ else logit. -/
theorem head_apply (x0 : Vec Ideal S1024x256 .f32) (x1 : Vec Ideal S32x8x128 .f32) (x2 x3 : Vec Ideal S1x32 .f32)
    (x4 : Vec Ideal S512x64 .bf16) (x5 x6 : Vec Ideal S1x64 .f32) (x7 : Vec Ideal S1x1 .f32) (b : Fin 128) (col : Fin 128) :
    out1_8 (F := Ideal) x0 x1 x2 x3 x4 x5 x6 x7 (ix2 b col)
      = headVal (fun (h : Fin 8) (cc : Fin 256) => bnRelu x1 x2 x3 ⟨cc.val % 32, by omega⟩ (x0 (ix2 ⟨8 * b.val + h.val, by omega⟩ cc))) x4 x5 x6 x7 col := by
  have hY : (fun (h : Fin 8) (cc : Fin 256) => k1_pay3 (F := Ideal) x1 x2 x3 x0 (ix3 b h cc)) = (fun (h : Fin 8) (cc : Fin 256) => bnRelu x1 x2 x3 ⟨cc.val % 32, by omega⟩ (x0 (ix2 ⟨8 * b.val + h.val, by omega⟩ cc))) :=
    funext fun h => funext fun cc => pay3_apply x1 x2 x3 x0 b h cc
  have hhid : ∀ j : Fin 64, hidV (pooledV (k1_pay3 (F := Ideal) x1 x2 x3 x0)) x4 x5 (ix2 b j)
      = hidden (fun (h : Fin 8) (cc : Fin 256) => bnRelu x1 x2 x3 ⟨cc.val % 32, by omega⟩ (x0 (ix2 ⟨8 * b.val + h.val, by omega⟩ cc))) x4 x5 j := by
    intro j
    rw [hidV_apply]
    unfold hidden
    simp only [pooledV_apply, hY]
  rw [out1_8_eq]
  unfold headVal
  split
  · rename_i h
    rw [pay2_left _ _ _ _ _ b col h, hhid]
  · rename_i h
    rw [pay2_right _ _ _ _ _ b col h, outV_apply]
    unfold logit
    simp only [hhid]

end Cert.KernelIdeal.KVal

end
-- ==== Proof.KVResults.lean ====
/- The two results of the kernel program, entry by entry.
   The head region's [1024,128] output array holds, at row B (one batch element) and lane col, the head
   value of that batch element: its 8 rows are rows 8B .. 8B+7 of the [8192,256] activation array as the
   convolution region left it, each entry sent through the affine map of its channel (lane % 32, from
   the [32,8,128] statistics array, gamma and beta) and clamped at zero; then pooling, the first weight,
   bias and clamp give lanes 0..63, and the second weight and last bias give lanes 64..127. The last two
   host operations cut that array: the [1024,1] result is its lane 64, the [1024,64] result its lanes 0..63.
   The activation array's rows 256t .. 256t+255 and the statistics array's slab t are the convolution
   body's two values at grid point t. -/
import proofs.«159686_g2000604559473765_pallasbulk_680_3_alg».proof.Proof.Gen.KernelIdeal.Frame
import proofs.«159686_g2000604559473765_pallasbulk_680_3_alg».proof.Proof.KVRun
import proofs.«159686_g2000604559473765_pallasbulk_680_3_alg».proof.Proof.KVArrays
import proofs.«159686_g2000604559473765_pallasbulk_680_3_alg».proof.Proof.KVHead

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The convolution region's two arrays, block by block -/

/-- Row 256t + r of the activation array is row r of the convolution body's first value at grid point t. -/
theorem conv_arr_at (c : Dev nD) (t : Fin cfg0.N) (r : Fin 256) (col : Fin 256) (hr : 256 * t.val + r.val < 8192) :
    (V4 m ρ c main_v19_0 : S8192x256.Idx → Elt Ideal .f32) (ix2 ⟨256 * t.val + r.val, hr⟩ col)
      = out0_4 (iblk0 (V3 m ρ) c 0 t) (iblk0 (V3 m ρ) c 1 t) (iblk0 (V3 m ρ) c 2 t) (iblk0 (V3 m ρ) c 3 t) (ix2 r col) :=
  conv_at m ρ c t (ix2 r col) (ix2 ⟨256 * t.val + r.val, hr⟩ col) rfl rfl

/-- Slab t of the statistics array is the convolution body's second value at grid point t. -/
theorem stat_arr_at (c : Dev nD) (t : Fin cfg0.N) (r : Fin 8) (l : Fin 128) (ht : t.val < 32) :
    (V4 m ρ c main_v19_1 : S32x8x128.Idx → Elt Ideal .f32) (ix3 ⟨t.val, ht⟩ r l)
      = out0_5 (iblk0 (V3 m ρ) c 0 t) (iblk0 (V3 m ρ) c 1 t) (iblk0 (V3 m ρ) c 2 t) (iblk0 (V3 m ρ) c 3 t) (ix3 0 r l) :=
  stat_at m ρ c t (ix3 0 r l) (ix3 ⟨t.val, ht⟩ r l) rfl rfl rfl

/-! ## The head region's output array at an entry -/

/-- The head value of batch element B at lane col: the 8 rows 8B .. 8B+7 of the activation array, each entry
    through the affine map of its channel (lane % 32) and the clamp at zero, then the head of KVSpec with the
    staged first weight, first bias, second weight and last bias. -/
def headOut (c : Dev nD) (B : Fin 1024) (col : Fin 128) : EReal :=
  headVal (fun (h : Fin 8) (cc : Fin 256) =>
            bnRelu (V4 m ρ c main_v19_1 : S32x8x128.Idx → Elt Ideal .f32) (V3 m ρ c main_v11 : S1x32.Idx → Elt Ideal .f32) (V3 m ρ c main_v12 : S1x32.Idx → Elt Ideal .f32)
              ⟨cc.val % 32, by omega⟩ ((V4 m ρ c main_v19_0 : S8192x256.Idx → Elt Ideal .f32) (ix2 ⟨8 * B.val + h.val, by omega⟩ cc)))
          (V3 m ρ c main_v16 : S512x64.Idx → Elt Ideal .bf16) (V3 m ρ c main_v17 : S1x64.Idx → Elt Ideal .f32)
          (V3 m ρ c main_arg7 : S1x64.Idx → Elt Ideal .f32) (V3 m ρ c main_v18 : S1x1.Idx → Elt Ideal .f32) col

/-- Row B, lane col of the head region's output array is the head value of batch element B. -/
theorem head_arr_at (c : Dev nD) (B : Fin 1024) (col : Fin 128) :
    (V5 m ρ c main_v20 : S1024x128.Idx → Elt Ideal .f32) (ix2 B col) = headOut m ρ c B col := by
  unfold headOut
  have hB := B.isLt
  have ht : B.val / 128 < cfg1.N := by show B.val / 128 < grid1.N; rw [N_1]; omega
  rw [head_at m ρ c ⟨B.val / 128, ht⟩ (ix2 ⟨B.val % 128, by omega⟩ col) (ix2 B col)
      (by show B.val = 128 * (B.val / 128) + B.val % 128; omega) rfl,
    head_apply, head_in1 m ρ c, head_in2 m ρ c, head_in3 m ρ c, head_in4 m ρ c, head_in5 m ρ c, head_in6 m ρ c, head_in7 m ρ c]
  refine congrArg (fun Y => headVal Y _ _ _ _ col) (funext fun h => funext fun cc => congrArg _ ?_)
  exact head_in0 m ρ c ⟨B.val / 128, ht⟩ (ix2 ⟨8 * (B.val % 128) + h.val, by omega⟩ cc) (ix2 ⟨8 * B.val + h.val, by omega⟩ cc)
    (by show 8 * B.val + h.val = 1024 * (B.val / 128) + (8 * (B.val % 128) + h.val); omega) rfl

/-! ## The two results -/

/-- The [1024,1] result is lane 64 of the head region's output array. -/
theorem v21_slice (c : Dev nD) :
    (W6 m ρ c (Proc.devRef .tc main_v21) : S1024x1.Idx → Elt Ideal .f32)
      = extractStridedSlice S1024x1 ![0, 64] (V5 m ρ c main_v20 : S1024x128.Idx → Elt Ideal .f32) slices_S1024x128_S1024x1_0_64 := by
  show StableHlo.after hostOps2 (W5 m ρ c) (Proc.devRef .tc main_v21) = _
  after_results

/-- The [1024,64] result is lanes 0..63 of the head region's output array. -/
theorem v22_slice (c : Dev nD) :
    (W6 m ρ c (Proc.devRef .tc main_v22) : S1024x64.Idx → Elt Ideal .f32)
      = extractStridedSlice S1024x64 ![0, 0] (V5 m ρ c main_v20 : S1024x128.Idx → Elt Ideal .f32) slices_S1024x128_S1024x64_0_0 := by
  show StableHlo.after hostOps2 (W5 m ρ c) (Proc.devRef .tc main_v22) = _
  after_results

/-- The [1024,1] result as a function of its index: entry (b, 0) is lane 64 of batch element b's head value. -/
def res21 (c : Dev nD) : Buf (Elt Ideal) ((c.tc : Thread nD τ).loc main_v21) :=
  (fun i => headOut m ρ c ⟨(i 0).val, idx2_lt0 i⟩ ⟨64, by omega⟩ : S1024x1.Idx → Elt Ideal .f32)

/-- The [1024,64] result as a function of its index: entry (b, j) is lane j of batch element b's head value. -/
def res22 (c : Dev nD) : Buf (Elt Ideal) ((c.tc : Thread nD τ).loc main_v22) :=
  (fun i => headOut m ρ c ⟨(i 0).val, idx2_lt0 i⟩ ⟨(i 1).val, Nat.lt_trans (idx2_lt1 i) (by omega)⟩ : S1024x64.Idx → Elt Ideal .f32)

theorem w6_v21 (c : Dev nD) : W6 m ρ c (Proc.devRef .tc main_v21) = res21 m ρ c := by
  refine (v21_slice m ρ c).trans (funext fun i => ?_)
  have h0 : (i 0).val < 1024 := idx2_lt0 i
  have h1 : (i 1).val < 1 := idx2_lt1 i
  refine (extractStridedSlice_apply _ _ _ i (ix2 ⟨(i 0).val, h0⟩ ⟨64, by omega⟩) fun a => ?_).trans
    (head_arr_at m ρ c ⟨(i 0).val, h0⟩ ⟨64, by omega⟩)
  match a with
  | ⟨0, _⟩ => show (i 0).val = 0 + (i 0).val; omega
  | ⟨1, _⟩ => show 64 = 64 + (i 1).val; omega

theorem w6_v22 (c : Dev nD) : W6 m ρ c (Proc.devRef .tc main_v22) = res22 m ρ c := by
  refine (v22_slice m ρ c).trans (funext fun i => ?_)
  have h0 : (i 0).val < 1024 := idx2_lt0 i
  have h1 : (i 1).val < 64 := idx2_lt1 i
  refine (extractStridedSlice_apply _ _ _ i (ix2 ⟨(i 0).val, h0⟩ ⟨(i 1).val, by omega⟩) fun a => ?_).trans
    (head_arr_at m ρ c ⟨(i 0).val, h0⟩ ⟨(i 1).val, by omega⟩)
  match a with
  | ⟨0, _⟩ => show (i 0).val = 0 + (i 0).val; omega
  | ⟨1, _⟩ => show (i 1).val = 0 + (i 1).val; omega

set_option backward.isDefEq.respectTransparency.types false in
/-- Every weakly fair execution of @main terminates without a fault; the [1024,1] result ends as res21, the
    [1024,64] result as res22, and the nine arguments end as launched. -/
theorem results : θ_run defs (onTc (τ := τ) (main (F := Ideal))) ⟨m, fun _ => 0, ρ⟩ (fun r => ∀ c : Dev nD,
      r.2.mem ((c.tc : Thread nD τ).loc main_v21) = res21 m ρ c
      ∧ r.2.mem ((c.tc : Thread nD τ).loc main_v22) = res22 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := run (F := Ideal) m ρ
  simp only [w6_v21 m ρ, w6_v22 m ρ] at h
  exact h

end Cert.KernelIdeal.KVal

end
-- ==== Proof.KVConvIn.lean ====
/- The convolution region's four input blocks.
   Grid point t of the convolution region reads batch elements 32t .. 32t+31 of the padded input, a
   [1024,10,10,128] array (the input with channels last, one ring of zeros around each 8x8 image, rounded
   to bf16), and three small arrays whole: the first eight taps of the 3x3 filter as a [4,256,32] array,
   the ninth tap as a [128,32] array (both from the filter with taps first and output channels last,
   rounded to bf16), and the convolution bias as a [1,32] row. No region writes any of the four before
   the convolution region runs, so each is a term of host operations over the arguments. -/
import proofs.«159686_g2000604559473765_pallasbulk_680_3_alg».proof.Proof.Gen.KernelIdeal.Frame
import Idealize.ShloMosaic.Lib.Pipeline.Value
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## Each block is a read of its array -/

theorem conv_in0_read (c : Dev nD) (t : Fin cfg0.N) :
    iblk0 (V3 m ρ) c 0 t = ((cfg0.win 0).blk t).view.read (Elt F) (V3 m ρ c main_v2) := rfl
theorem conv_in1_read (c : Dev nD) (t : Fin cfg0.N) :
    iblk0 (V3 m ρ) c 1 t = ((cfg0.win 1).blk t).view.read (Elt F) (V3 m ρ c main_v7) := rfl
theorem conv_in2_read (c : Dev nD) (t : Fin cfg0.N) :
    iblk0 (V3 m ρ) c 2 t = ((cfg0.win 2).blk t).view.read (Elt F) (V3 m ρ c main_v9) := rfl
theorem conv_in3_read (c : Dev nD) (t : Fin cfg0.N) :
    iblk0 (V3 m ρ) c 3 t = ((cfg0.win 3).blk t).view.read (Elt F) (V3 m ρ c main_v10) := rfl

/-! ## The blocks at an index -/

theorem conv_in0_index_val : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, win0_0.index t (0 : Fin 4) = t.val ∧ win0_0.index t (1 : Fin 4) = 0 ∧ win0_0.index t (2 : Fin 4) = 0 ∧ win0_0.index t (3 : Fin 4) = 0)

/-- The convolution region's first input block at grid point t is batch elements 32t .. 32t+31 of the
    padded input array. -/
theorem conv_in0 (c : Dev nD) (t : Fin cfg0.N) (y : S32x10x10x128.Idx) (i : S1024x10x10x128.Idx)
    (h0 : (i 0).val = 32 * t.val + (y 0).val) (h1 : (i 1).val = (y 1).val) (h2 : (i 2).val = (y 2).val) (h3 : (i 3).val = (y 3).val) :
    (iblk0 (V3 m ρ) c 0 t : S32x10x10x128.Idx → Elt F .bf16) y = (V3 m ρ c main_v2 : S1024x10x10x128.Idx → Elt F .bf16) i := by
  unfold iblk0
  rw [View.read_apply]
  show V3 m ρ c main_v2 _ = V3 m ρ c main_v2 _
  congr 1
  obtain ⟨e0, e1, e2, e3⟩ := conv_in0_index_val t
  funext a
  apply Fin.ext
  match a with
  | ⟨0, _⟩ => show win0_0.index t (0 : Fin 4) * 32 + 1 * (y 0).val = (i 0).val; rw [e0, h0]; omega
  | ⟨1, _⟩ => show win0_0.index t (1 : Fin 4) * 10 + 1 * (y 1).val = (i 1).val; rw [e1, h1]; omega
  | ⟨2, _⟩ => show win0_0.index t (2 : Fin 4) * 10 + 1 * (y 2).val = (i 2).val; rw [e2, h2]; omega
  | ⟨3, _⟩ => show win0_0.index t (3 : Fin 4) * 128 + 1 * (y 3).val = (i 3).val; rw [e3, h3]; omega

theorem conv_in1_index_val : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- The convolution region's input block 1, at every grid point, is the whole array of the first eight filter taps as the host
    operations before the region left it. -/
theorem conv_in1 (c : Dev nD) (t : Fin cfg0.N) :
    (iblk0 (V3 m ρ) c 1 t : S4x256x32.Idx → Elt F .bf16) = (V3 m ρ c main_v7 : S4x256x32.Idx → Elt F .bf16) := by
  funext y
  unfold iblk0
  rw [View.read_apply]
  show V3 m ρ c main_v7 _ = V3 m ρ c main_v7 _
  congr 1
  obtain ⟨e0, e1, e2⟩ := conv_in1_index_val t
  funext a
  apply Fin.ext
  match a with
  | ⟨0, _⟩ => show win0_1.index t (0 : Fin 3) * 4 + 1 * (y 0).val = (y 0).val; rw [e0]; omega
  | ⟨1, _⟩ => show win0_1.index t (1 : Fin 3) * 256 + 1 * (y 1).val = (y 1).val; rw [e1]; omega
  | ⟨2, _⟩ => show win0_1.index t (2 : Fin 3) * 32 + 1 * (y 2).val = (y 2).val; rw [e2]; omega

theorem conv_in2_index_val : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The convolution region's input block 2, at every grid point, is the whole array of the ninth filter tap as the host
    operations before the region left it. -/
theorem conv_in2 (c : Dev nD) (t : Fin cfg0.N) :
    (iblk0 (V3 m ρ) c 2 t : S128x32.Idx → Elt F .bf16) = (V3 m ρ c main_v9 : S128x32.Idx → Elt F .bf16) := by
  funext y
  unfold iblk0
  rw [View.read_apply]
  show V3 m ρ c main_v9 _ = V3 m ρ c main_v9 _
  congr 1
  obtain ⟨e0, e1⟩ := conv_in2_index_val t
  funext a
  apply Fin.ext
  match a with
  | ⟨0, _⟩ => show win0_2.index t (0 : Fin 2) * 128 + 1 * (y 0).val = (y 0).val; rw [e0]; omega
  | ⟨1, _⟩ => show win0_2.index t (1 : Fin 2) * 32 + 1 * (y 1).val = (y 1).val; rw [e1]; omega

theorem conv_in3_index_val : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The convolution region's input block 3, at every grid point, is the whole array of the convolution bias as the host
    operations before the region left it. -/
theorem conv_in3 (c : Dev nD) (t : Fin cfg0.N) :
    (iblk0 (V3 m ρ) c 3 t : S1x32.Idx → Elt F .f32) = (V3 m ρ c main_v10 : S1x32.Idx → Elt F .f32) := by
  funext y
  unfold iblk0
  rw [View.read_apply]
  show V3 m ρ c main_v10 _ = V3 m ρ c main_v10 _
  congr 1
  obtain ⟨e0, e1⟩ := conv_in3_index_val t
  funext a
  apply Fin.ext
  match a with
  | ⟨0, _⟩ => show win0_3.index t (0 : Fin 2) * 1 + 1 * (y 0).val = (y 0).val; rw [e0]; omega
  | ⟨1, _⟩ => show win0_3.index t (1 : Fin 2) * 32 + 1 * (y 1).val = (y 1).val; rw [e1]; omega

/-! ## The four arrays as terms of the arguments -/

/-- The padded input: the input [1024,128,8,8] with channels last, a ring of the constant (the integer 0 read
    as a float) around each 8x8 image, rounded to bf16. -/
theorem conv_x_arr (c : Dev nD) :
    (V3 m ρ c main_v2 : S1024x10x10x128.Idx → Elt F .bf16)
      = truncf .bf16 (pad S1024x10x10x128 ![0, 1, 1, 0] ![0, 1, 1, 0] ![0, 0, 0, 0]
          (transpose S1024x8x8x128 [0, 2, 3, 1] (m ((c.tc : Thread nD τ).loc main_arg0) : S1024x128x8x8.Idx → Elt F .f32) transposes_S1024x128x8x8_S1024x8x8x128_0_2_3_1)
          (sitofp .f32 (constantI S_ 32 0#32)) pads_S1024x8x8x128_S1024x10x10x128_000_110_110_000 h_S_) bitsLt_bf16_f32 := by
  show StableHlo.after hostOps0_2 (StableHlo.after hostOps0_1 (StableHlo.after hostOps0 (W0 m ρ c))) (Proc.devRef .tc main_v2) = _
  after_results
  rfl

/-- The first eight taps: the filter [32,128,3,3] with taps first and output channels last, as [9,128,32],
    rounded to bf16; its first eight [128,32] slabs regrouped as [4,256,32]. -/
theorem conv_w_arr (c : Dev nD) :
    (V3 m ρ c main_v7 : S4x256x32.Idx → Elt F .bf16)
      = shapeCast S4x256x32 (extractStridedSlice S8x128x32 ![0, 0, 0] (truncf .bf16 (shapeCast S9x128x32 (transpose S3x3x128x32 [2, 3, 1, 0] (m ((c.tc : Thread nD τ).loc main_arg1) : S32x128x3x3.Idx → Elt F .f32) transposes_S32x128x3x3_S3x3x128x32_2_3_1_0) shapeCasts_S3x3x128x32_S9x128x32) bitsLt_bf16_f32) slices_S9x128x32_S8x128x32_0_0_0) shapeCasts_S8x128x32_S4x256x32 := by
  show StableHlo.after hostOps0_2 (StableHlo.after hostOps0_1 (StableHlo.after hostOps0 (W0 m ρ c))) (Proc.devRef .tc main_v7) = _
  after_results
  rfl

/-- The ninth tap: slab 8 of the same [9,128,32] array, as [128,32]. -/
theorem conv_wlast_arr (c : Dev nD) :
    (V3 m ρ c main_v9 : S128x32.Idx → Elt F .bf16)
      = shapeCast S128x32 (extractStridedSlice S1x128x32 ![8, 0, 0] (truncf .bf16 (shapeCast S9x128x32 (transpose S3x3x128x32 [2, 3, 1, 0] (m ((c.tc : Thread nD τ).loc main_arg1) : S32x128x3x3.Idx → Elt F .f32) transposes_S32x128x3x3_S3x3x128x32_2_3_1_0) shapeCasts_S3x3x128x32_S9x128x32) bitsLt_bf16_f32) slices_S9x128x32_S1x128x32_8_0_0) shapeCasts_S1x128x32_S128x32 := by
  show StableHlo.after hostOps0_2 (StableHlo.after hostOps0_1 (StableHlo.after hostOps0 (W0 m ρ c))) (Proc.devRef .tc main_v9) = _
  after_results
  rfl

/-- The convolution bias, reshaped [32] → [1,32]. -/
theorem conv_bias_arr (c : Dev nD) :
    (V3 m ρ c main_v10 : S1x32.Idx → Elt F .f32)
      = shapeCast S1x32 (m ((c.tc : Thread nD τ).loc main_arg2) : S32.Idx → Elt F .f32) shapeCasts_S32_S1x32 := by
  show StableHlo.after hostOps0_2 (StableHlo.after hostOps0_1 (StableHlo.after hostOps0 (W0 m ρ c))) (Proc.devRef .tc main_v10) = _
  after_results
  rfl

end Cert.KernelIdeal.KVal

end
-- ==== Proof.RHStat.lean ====
/- The two running statistics of the reference at a channel.
   At each tile the reference adds, to the running per-channel sum it was handed, the column sums of the
   tile's 2048 x 32 convolution block (rows = batch row, image row, image column; columns = channels), and to the
   running sum of squares the column sums of the block's squares. The convolution block itself stays a name. -/
import proofs.«159686_g2000604559473765_pallasbulk_680_3_alg».proof.Proof.RefPieces
import proofs.«159686_g2000604559473765_pallasbulk_680_3_alg».proof.Proof.KVOps

set_option maxRecDepth 16384

noncomputable section

open scoped BigOperators

namespace Cert.ReferenceIdeal.RHead

open Cert.ReferenceIdeal Cert.ReferenceIdeal.Gen Cert.ReferenceIdeal.Body Idealize.ShloMosaic Idealize.ShloMosaic.ValueIdx

/-- The column sums of a [R,32] array, as a [1,32] row: entry ch is the sum over the rows of column ch. -/
theorem col_sum_apply {R : Nat} (X : FVec Ideal ⟨2, ![R, 32]⟩ .f32)
    (hr : (⟨2, ![R, 32]⟩ : Shape).Reduces [0] ⟨1, ![32]⟩) (hφ : FKind.Formats .f32)
    (hacc : (0x00000000#32 : BitVec 32) = FKind.add.neutral .f32 hφ)
    (hc : (⟨1, ![32]⟩ : Shape).ShapeCasts ⟨2, ![1, 32]⟩) (ch : Fin 32) :
    shapeCast ⟨2, ![1, 32]⟩ (multiReduction .add [0] ⟨1, ![32]⟩ X 0x00000000#32 hr hφ hacc) hc (ix2 0 ch)
      = ∑ r : Fin R, X (ix2 r ch) := by
  refine (shapeCast_apply _ hc (ix2 0 ch) (ix1 ch) ?_).trans ?_
  · rw [Shape.rowMajor_val_one, Shape.rowMajor_val_two]
    show ch.val = 0 * 32 + ch.val
    omega
  · rw [Ideal.multiReduction_add_single]
    show ∑ k : Fin R, X (hr.lift (ix1 ch) k) = _
    refine Finset.sum_congr rfl fun k _ => ?_
    congr 1
    funext a
    apply Fin.ext
    match a with
    | ⟨0, _⟩ => rfl
    | ⟨1, _⟩ => rfl

/-- The convolution block of one input tile, bias added: 2048 rows by 32 channels. -/
def convOf (x0 : Vec Ideal S32x10x10x128 .bf16) (x1 : Vec Ideal S4x256x32 .bf16) (x2 : Vec Ideal S128x32 .bf16) (x3 : Vec Ideal S1x32 .f32) : FVec Ideal S2048x32 .f32 :=
  k0_pay486 (F := Ideal) (k0_pay483 (F := Ideal) x2) (k0_pay484 (F := Ideal) x0 x1) (k0_pay485 (F := Ideal) x0) x3

/-- The sum over the tile's 2048 rows of channel ch of the convolution block. -/
def colSum1 (x0 : Vec Ideal S32x10x10x128 .bf16) (x1 : Vec Ideal S4x256x32 .bf16) (x2 : Vec Ideal S128x32 .bf16) (x3 : Vec Ideal S1x32 .f32) (ch : Fin 32) : EReal :=
  ∑ r : Fin 2048, convOf x0 x1 x2 x3 (ix2 r ch)

/-- The sum over the tile's 2048 rows of the square of channel ch of the convolution block. -/
def colSum2 (x0 : Vec Ideal S32x10x10x128 .bf16) (x1 : Vec Ideal S4x256x32 .bf16) (x2 : Vec Ideal S128x32 .bf16) (x3 : Vec Ideal S1x32 .f32) (ch : Fin 32) : EReal :=
  ∑ r : Fin 2048, convOf x0 x1 x2 x3 (ix2 r ch) * convOf x0 x1 x2 x3 (ix2 r ch)

/-- The running sum after a tile: the sum handed in plus the tile's column sum (in that order). -/
theorem acc1_apply (x0 : Vec Ideal S32x10x10x128 .bf16) (x1 : Vec Ideal S4x256x32 .bf16) (x2 : Vec Ideal S128x32 .bf16) (x3 : Vec Ideal S1x32 .f32) (s : Vec Ideal S1x32 .f32) (ch : Fin 32) :
    acc1 (F := Ideal) x0 x1 x2 x3 s (ix2 0 ch) = s (ix2 0 ch) + colSum1 x0 x1 x2 x3 ch := by
  show shapeCast S1x32 (addf s (shapeCast S1x32 (multiReduction .add [0] S32 (convOf x0 x1 x2 x3) 0x00000000#32 reduces_S2048x32_S32 (.inl rfl) rfl) shapeCasts_S32_S1x32)) shapeCasts_S1x32_S1x32 (ix2 0 ch) = _
  rw [shapeCast_self]
  show s (ix2 0 ch) + shapeCast S1x32 (multiReduction .add [0] S32 (convOf x0 x1 x2 x3) 0x00000000#32 reduces_S2048x32_S32 (.inl rfl) rfl) shapeCasts_S32_S1x32 (ix2 0 ch) = _
  refine congrArg (s (ix2 0 ch) + ·) ?_
  exact col_sum_apply (convOf x0 x1 x2 x3) reduces_S2048x32_S32 (.inl rfl) rfl shapeCasts_S32_S1x32 ch

/-- The running sum of squares after a tile: the sum handed in plus the tile's column sum of squares (in that order). -/
theorem acc2_apply (x0 : Vec Ideal S32x10x10x128 .bf16) (x1 : Vec Ideal S4x256x32 .bf16) (x2 : Vec Ideal S128x32 .bf16) (x3 : Vec Ideal S1x32 .f32) (s : Vec Ideal S1x32 .f32) (ch : Fin 32) :
    acc2 (F := Ideal) x0 x1 x2 x3 s (ix2 0 ch) = s (ix2 0 ch) + colSum2 x0 x1 x2 x3 ch := by
  show shapeCast S1x32 (addf s (shapeCast S1x32 (multiReduction .add [0] S32 (mulf (convOf x0 x1 x2 x3) (convOf x0 x1 x2 x3)) 0x00000000#32 reduces_S2048x32_S32 (.inl rfl) rfl) shapeCasts_S32_S1x32)) shapeCasts_S1x32_S1x32 (ix2 0 ch) = _
  rw [shapeCast_self]
  show s (ix2 0 ch) + shapeCast S1x32 (multiReduction .add [0] S32 (mulf (convOf x0 x1 x2 x3) (convOf x0 x1 x2 x3)) 0x00000000#32 reduces_S2048x32_S32 (.inl rfl) rfl) shapeCasts_S32_S1x32 (ix2 0 ch) = _
  refine congrArg (s (ix2 0 ch) + ·) ?_
  exact col_sum_apply (mulf (convOf x0 x1 x2 x3) (convOf x0 x1 x2 x3)) reduces_S2048x32_S32 (.inl rfl) rfl shapeCasts_S32_S1x32 ch

/-- The first running sum starts at zero. -/
theorem pay487_apply (ch : Fin 32) : k0_pay487 (F := Ideal) (ix2 0 ch) = 0 := by
  show shapeCast S1x32 (broadcast S1x32 (Scalar.ofBits (F := Ideal) .f32 0x00000000#32)) shapeCasts_S1x32_S1x32 (ix2 0 ch) = _
  rw [shapeCast_self]
  exact Ideal.ofBits_zero_f32

/-- The second running sum starts at zero. -/
theorem pay488_apply (ch : Fin 32) : k0_pay488 (F := Ideal) (ix2 0 ch) = 0 := by
  show shapeCast S1x32 (broadcast S1x32 (Scalar.ofBits (F := Ideal) .f32 0x00000000#32)) shapeCasts_S1x32_S1x32 (ix2 0 ch) = _
  rw [shapeCast_self]
  exact Ideal.ofBits_zero_f32

end Cert.ReferenceIdeal.RHead

end
-- ==== Proof.KBridge.lean ====
/- The convolution region's body in the two programs.
   Both programs compute, for one input tile, the same [2048,32] convolution block (nine taps as five
   products into a zero accumulator, plus the bias row). The kernel program lays that block out as a
   [256,256] tile and, beside it, a [1,8,128] slab whose row 0 holds the block's 32 column sums and row 1
   the column sums of its squares (rows 2..7 and lanes 32..127 are zero). The reference program lays out
   the same tile, through one more identity reshape, and keeps the same two column sums as running
   statistics. Here the kernel's two block values are identified with the reference's tile and with the
   reference's column sums. -/
import proofs.«159686_g2000604559473765_pallasbulk_680_3_alg».proof.Proof.Gen.KernelIdeal.Frame
import proofs.«159686_g2000604559473765_pallasbulk_680_3_alg».proof.Proof.RHStat

set_option maxRecDepth 16384

noncomputable section

open scoped BigOperators

namespace Cert.KBridge

open Cert.KernelIdeal Cert.KernelIdeal.Gen Idealize.ShloMosaic Idealize.ShloMosaic.ValueIdx

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## Layout steps at an entry -/

/-- A [8,128] array with a leading unit axis: entry (0, r, l) is entry (r, l). -/
theorem unit_cast_apply (X : FVec Ideal ⟨2, ![8, 128]⟩ .f32)
    (hc : (⟨2, ![8, 128]⟩ : Shape).ShapeCasts ⟨3, ![1, 8, 128]⟩) (r : Fin 8) (l : Fin 128) :
    shapeCast ⟨3, ![1, 8, 128]⟩ X hc (ix3 0 r l) = X (ix2 r l) := by
  refine shapeCast_apply X hc _ _ ?_
  rw [Shape.rowMajor_val_two, Shape.rowMajor_val_three]
  show r.val * 128 + l.val = (0 * 8 + r.val) * 128 + l.val
  omega

/-- A [8,32] array beside a [8,96] array: lanes 0..31 are the first. -/
theorem pad_lanes_apply (x : FVec Ideal ⟨2, ![8, 32]⟩ .f32) (z : FVec Ideal ⟨2, ![8, 96]⟩ .f32)
    (h : Shape.Concatenates [⟨2, ![8, 32]⟩, ⟨2, ![8, 96]⟩] ⟨2, ![8, 128]⟩ 1) (r : Fin 8) (l : Fin 128) (ch : Fin 32) (e : ch.val = l.val) :
    concatenate ⟨2, ![8, 128]⟩ 1 [⟨⟨2, ![8, 32]⟩, x⟩, ⟨⟨2, ![8, 96]⟩, z⟩] h (ix2 r l) = x (ix2 r ch) :=
  concatenate_pair_apply_left (t := ⟨2, ![8, 128]⟩) 1 x z h (ix2 r l) rfl (ix2 r ch) (fun b => by
    match b with
    | ⟨0, _⟩ => rfl
    | ⟨1, _⟩ => exact e)

/-- Two [1,32] rows on top of a [6,32] array: row 0 is the first row. -/
theorem stack3_row0 (u v : FVec Ideal ⟨2, ![1, 32]⟩ .f32) (w : FVec Ideal ⟨2, ![6, 32]⟩ .f32)
    (h : Shape.Concatenates [⟨2, ![1, 32]⟩, ⟨2, ![1, 32]⟩, ⟨2, ![6, 32]⟩] ⟨2, ![8, 32]⟩ 0) (ch : Fin 32) :
    concatenate ⟨2, ![8, 32]⟩ 0 [⟨⟨2, ![1, 32]⟩, u⟩, ⟨⟨2, ![1, 32]⟩, v⟩, ⟨⟨2, ![6, 32]⟩, w⟩] h (ix2 0 ch) = u (ix2 0 ch) :=
  concatenate_apply_piece (t := ⟨2, ![8, 32]⟩) 0 [⟨⟨2, ![1, 32]⟩, u⟩, ⟨⟨2, ![1, 32]⟩, v⟩, ⟨⟨2, ![6, 32]⟩, w⟩] h (ix2 0 ch)
    0 (by show (0 : Nat) < 3; omega) ⟨2, ![1, 32]⟩ u rfl rfl 0 rfl (ix2 0 ch)
    (fun b hb => by
      match b with
      | ⟨0, _⟩ => exact absurd rfl hb
      | ⟨1, _⟩ => rfl) rfl

/-- Two [1,32] rows on top of a [6,32] array: row 1 is the second row. -/
theorem stack3_row1 (u v : FVec Ideal ⟨2, ![1, 32]⟩ .f32) (w : FVec Ideal ⟨2, ![6, 32]⟩ .f32)
    (h : Shape.Concatenates [⟨2, ![1, 32]⟩, ⟨2, ![1, 32]⟩, ⟨2, ![6, 32]⟩] ⟨2, ![8, 32]⟩ 0) (ch : Fin 32) :
    concatenate ⟨2, ![8, 32]⟩ 0 [⟨⟨2, ![1, 32]⟩, u⟩, ⟨⟨2, ![1, 32]⟩, v⟩, ⟨⟨2, ![6, 32]⟩, w⟩] h (ix2 1 ch) = v (ix2 0 ch) :=
  concatenate_apply_piece (t := ⟨2, ![8, 32]⟩) 0 [⟨⟨2, ![1, 32]⟩, u⟩, ⟨⟨2, ![1, 32]⟩, v⟩, ⟨⟨2, ![6, 32]⟩, w⟩] h (ix2 1 ch)
    1 (by show (1 : Nat) < 3; omega) ⟨2, ![1, 32]⟩ v rfl rfl 1 rfl (ix2 0 ch)
    (fun b hb => by
      match b with
      | ⟨0, _⟩ => exact absurd rfl hb
      | ⟨1, _⟩ => rfl) rfl

/-! ## The kernel program's two block values are their payloads -/

/-- The kernel's [2048,32] convolution block of one input tile, bias added. -/
def kconv (x0 : Vec Ideal S32x10x10x128 .bf16) (x1 : Vec Ideal S4x256x32 .bf16) (x2 : Vec Ideal S128x32 .bf16) (x3 : Vec Ideal S1x32 .f32) : FVec Ideal S2048x32 .f32 :=
  k0_pay5 (F := Ideal) (k0_pay2 (F := Ideal) x0 x1) (k0_pay3 (F := Ideal) x0) (k0_pay4 (F := Ideal) x2) x3

/-- The tile the kernel's body stores is its one store's payload. -/
theorem out0_4_eq (x0 : Vec Ideal S32x10x10x128 .bf16) (x1 : Vec Ideal S4x256x32 .bf16) (x2 : Vec Ideal S128x32 .bf16) (x3 : Vec Ideal S1x32 .f32) :
    out0_4 (F := Ideal) x0 x1 x2 x3 = k0_pay7 (F := Ideal) (k0_pay2 (F := Ideal) x0 x1) (k0_pay3 (F := Ideal) x0) (k0_pay4 (F := Ideal) x2) x3 := by
  unfold out0_4
  rw [View.canon_unit_zero zero2]
  simp only [View.ld_unit_zero (S := S32x10x10x128) zero4, View.ld_unit_zero (S := S4x256x32) zero3,
    View.ld_unit_zero (S := S128x32) zero2, View.ld_unit_zero (S := S1x32) zero2]

/-- The slab the kernel's body stores is its one store's payload. -/
theorem out0_5_eq (x0 : Vec Ideal S32x10x10x128 .bf16) (x1 : Vec Ideal S4x256x32 .bf16) (x2 : Vec Ideal S128x32 .bf16) (x3 : Vec Ideal S1x32 .f32) :
    out0_5 (F := Ideal) x0 x1 x2 x3 = k0_pay6 (F := Ideal) (k0_pay2 (F := Ideal) x0 x1) (k0_pay3 (F := Ideal) x0) (k0_pay4 (F := Ideal) x2) x3 := by
  unfold out0_5
  rw [View.canon_unit_zero zero3]
  simp only [View.ld_unit_zero (S := S32x10x10x128) zero4, View.ld_unit_zero (S := S4x256x32) zero3,
    View.ld_unit_zero (S := S128x32) zero2, View.ld_unit_zero (S := S1x32) zero2]

/-! ## Across the two programs -/

/-- The two programs' convolution blocks are the same term, the local names apart. -/
theorem kconv_eq (x0 : Vec Ideal S32x10x10x128 .bf16) (x1 : Vec Ideal S4x256x32 .bf16) (x2 : Vec Ideal S128x32 .bf16) (x3 : Vec Ideal S1x32 .f32) :
    kconv x0 x1 x2 x3 = Cert.ReferenceIdeal.RHead.convOf x0 x1 x2 x3 := rfl

/-- The kernel's tile is the reference's tile: the same eight lane groups of the same block; the reference
    reshapes the result once more to its own shape. -/
theorem conv_tile_eq (x0 : Vec Ideal S32x10x10x128 .bf16) (x1 : Vec Ideal S4x256x32 .bf16) (x2 : Vec Ideal S128x32 .bf16) (x3 : Vec Ideal S1x32 .f32) :
    out0_4 (F := Ideal) x0 x1 x2 x3 = Cert.ReferenceIdeal.Body.tileOf (F := Ideal) x0 x1 x2 x3 := by
  rw [out0_4_eq]
  exact (shapeCast_self (k0_pay7 (F := Ideal) (k0_pay2 (F := Ideal) x0 x1) (k0_pay3 (F := Ideal) x0) (k0_pay4 (F := Ideal) x2) x3) Cert.ReferenceIdeal.Gen.shapeCasts_S256x256_S256x256).symm

/-! ## The slab's two rows -/

/-- Row 0 of the slab, lane ch < 32: the column sum of the block over its 2048 rows. -/
theorem pay6_row0 (a : FVec Ideal S2048x32 .f32) (b : FVec Ideal S2048x128 .bf16) (c : FVec Ideal S128x32 .bf16) (x3 : Vec Ideal S1x32 .f32) (ch : Fin 32) :
    k0_pay6 (F := Ideal) a b c x3 (ix3 0 0 ⟨ch.val, by omega⟩) = ∑ r : Fin 2048, k0_pay5 (F := Ideal) a b c x3 (ix2 r ch) := by
  unfold k0_pay6
  refine (unit_cast_apply _ _ 0 ⟨ch.val, by omega⟩).trans ?_
  refine (pad_lanes_apply _ _ _ 0 ⟨ch.val, by omega⟩ ch rfl).trans ?_
  refine (stack3_row0 _ _ _ _ ch).trans ?_
  exact Cert.ReferenceIdeal.RHead.col_sum_apply (k0_pay5 (F := Ideal) a b c x3) reduces_S2048x32_S32 (.inl rfl) rfl shapeCasts_S32_S1x32 ch

/-- Row 1 of the slab, lane ch < 32: the column sum of the block's squares. -/
theorem pay6_row1 (a : FVec Ideal S2048x32 .f32) (b : FVec Ideal S2048x128 .bf16) (c : FVec Ideal S128x32 .bf16) (x3 : Vec Ideal S1x32 .f32) (ch : Fin 32) :
    k0_pay6 (F := Ideal) a b c x3 (ix3 0 1 ⟨ch.val, by omega⟩)
      = ∑ r : Fin 2048, k0_pay5 (F := Ideal) a b c x3 (ix2 r ch) * k0_pay5 (F := Ideal) a b c x3 (ix2 r ch) := by
  unfold k0_pay6
  refine (unit_cast_apply _ _ 1 ⟨ch.val, by omega⟩).trans ?_
  refine (pad_lanes_apply _ _ _ 1 ⟨ch.val, by omega⟩ ch rfl).trans ?_
  refine (stack3_row1 _ _ _ _ ch).trans ?_
  exact Cert.ReferenceIdeal.RHead.col_sum_apply (mulf (k0_pay5 (F := Ideal) a b c x3) (k0_pay5 (F := Ideal) a b c x3)) reduces_S2048x32_S32 (.inl rfl) rfl shapeCasts_S32_S1x32 ch

/-- Row 0 of the kernel's slab is the reference's column sum of the tile's convolution block. -/
theorem stat_row0 (x0 : Vec Ideal S32x10x10x128 .bf16) (x1 : Vec Ideal S4x256x32 .bf16) (x2 : Vec Ideal S128x32 .bf16) (x3 : Vec Ideal S1x32 .f32) (ch : Fin 32) :
    out0_5 (F := Ideal) x0 x1 x2 x3 (ix3 0 0 ⟨ch.val, by omega⟩) = Cert.ReferenceIdeal.RHead.colSum1 x0 x1 x2 x3 ch := by
  rw [out0_5_eq, pay6_row0]
  rfl

/-- Row 1 of the kernel's slab is the reference's column sum of the squares of the tile's convolution block. -/
theorem stat_row1 (x0 : Vec Ideal S32x10x10x128 .bf16) (x1 : Vec Ideal S4x256x32 .bf16) (x2 : Vec Ideal S128x32 .bf16) (x3 : Vec Ideal S1x32 .f32) (ch : Fin 32) :
    out0_5 (F := Ideal) x0 x1 x2 x3 (ix3 0 1 ⟨ch.val, by omega⟩) = Cert.ReferenceIdeal.RHead.colSum2 x0 x1 x2 x3 ch := by
  rw [out0_5_eq, pay6_row1]
  rfl

end Cert.KBridge

end
-- ==== Proof.KVSums.lean ====
/- The convolution region's arrays against the other program's tile and column sums.
   The statistics array's row 0, added over the 32 grid points, is the sum over the points of the column
   sums of each point's convolution block; row 1 likewise with the squares. Row 8B + h of the activation
   array (row h of batch element B) is row 8 (B mod 32) + h of the tile of grid point B / 32. And each
   grid point's four input blocks are read off the arguments: batch elements 32n .. 32n+31 of the padded,
   rounded input, and the three small arrays whole. -/
import proofs.«159686_g2000604559473765_pallasbulk_680_3_alg».proof.Proof.KVResults
import proofs.«159686_g2000604559473765_pallasbulk_680_3_alg».proof.Proof.KVConvIn
import proofs.«159686_g2000604559473765_pallasbulk_680_3_alg».proof.Proof.KBridge

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Grid point n of the convolution region's 32. -/
def kpt (n : Fin 32) : Fin cfg0.N := ⟨n.val, by show n.val < grid0.N; rw [N_0]; exact n.isLt⟩

theorem kpt_val (n : Fin 32) : (kpt n).val = n.val := rfl

/-! ## The statistics added over the grid points -/

/-- Row 0 of the statistics array added over the 32 grid points: the points' column sums of their
    convolution blocks, added. -/
theorem statSum0_eq (c : Dev nD) (ch : Fin 32) :
    statSum (V4 m ρ c main_v19_1 : S32x8x128.Idx → Elt Ideal .f32) 0 ch
      = ∑ n : Fin 32, Cert.ReferenceIdeal.RHead.colSum1 (iblk0 (V3 m ρ) c 0 (kpt n)) (iblk0 (V3 m ρ) c 1 (kpt n)) (iblk0 (V3 m ρ) c 2 (kpt n)) (iblk0 (V3 m ρ) c 3 (kpt n)) ch := by
  unfold statSum
  refine Finset.sum_congr rfl fun n _ => ?_
  exact (stat_arr_at m ρ c (kpt n) 0 ⟨ch.val, by omega⟩ n.isLt).trans (Cert.KBridge.stat_row0 _ _ _ _ ch)

/-- Row 1 likewise: the points' column sums of the squares of their convolution blocks, added. -/
theorem statSum1_eq (c : Dev nD) (ch : Fin 32) :
    statSum (V4 m ρ c main_v19_1 : S32x8x128.Idx → Elt Ideal .f32) 1 ch
      = ∑ n : Fin 32, Cert.ReferenceIdeal.RHead.colSum2 (iblk0 (V3 m ρ) c 0 (kpt n)) (iblk0 (V3 m ρ) c 1 (kpt n)) (iblk0 (V3 m ρ) c 2 (kpt n)) (iblk0 (V3 m ρ) c 3 (kpt n)) ch := by
  unfold statSum
  refine Finset.sum_congr rfl fun n _ => ?_
  exact (stat_arr_at m ρ c (kpt n) 1 ⟨ch.val, by omega⟩ n.isLt).trans (Cert.KBridge.stat_row1 _ _ _ _ ch)

/-! ## The activation array against the tile -/

/-- Row h of batch element B, lane cc, of the activation array is row 8 (B mod 32) + h, lane cc, of the tile
    of grid point B / 32. -/
theorem conv_at_tile (c : Dev nD) (B : Fin 1024) (h : Fin 8) (cc : Fin 256) :
    (V4 m ρ c main_v19_0 : S8192x256.Idx → Elt Ideal .f32) (ix2 ⟨8 * B.val + h.val, by omega⟩ cc)
      = Cert.ReferenceIdeal.Body.tileOf (F := Ideal) (iblk0 (V3 m ρ) c 0 (kpt ⟨B.val / 32, by omega⟩)) (iblk0 (V3 m ρ) c 1 (kpt ⟨B.val / 32, by omega⟩)) (iblk0 (V3 m ρ) c 2 (kpt ⟨B.val / 32, by omega⟩)) (iblk0 (V3 m ρ) c 3 (kpt ⟨B.val / 32, by omega⟩))
          (ix2 ⟨8 * (B.val % 32) + h.val, by omega⟩ cc) :=
  (conv_at m ρ c (kpt ⟨B.val / 32, by omega⟩) (ix2 ⟨8 * (B.val % 32) + h.val, by omega⟩ cc) (ix2 ⟨8 * B.val + h.val, by omega⟩ cc)
    (by show 8 * B.val + h.val = 256 * (B.val / 32) + (8 * (B.val % 32) + h.val); omega) rfl).trans
    (congrFun (Cert.KBridge.conv_tile_eq _ _ _ _) _)

/-! ## The input blocks in terms of the arguments -/

theorem blk0_row_lt (n : Fin 32) (y : S32x10x10x128.Idx) : 32 * n.val + (y 0).val < 1024 := by
  have h : (y 0).val < 32 := (y 0).isLt
  omega

/-- Grid point n's first input block is batch elements 32n .. 32n+31 of the input with channels last,
    padded by one ring and rounded to bf16. -/
theorem conv_in0_arg (c : Dev nD) (n : Fin 32) (y : S32x10x10x128.Idx) :
    (iblk0 (V3 m ρ) c 0 (kpt n) : S32x10x10x128.Idx → Elt Ideal .bf16) y
      = (truncf (F := Ideal) .bf16 (pad S1024x10x10x128 ![0, 1, 1, 0] ![0, 1, 1, 0] ![0, 0, 0, 0]
          (transpose S1024x8x8x128 [0, 2, 3, 1] (m ((c.tc : Thread nD τ).loc main_arg0) : S1024x128x8x8.Idx → Elt Ideal .f32) transposes_S1024x128x8x8_S1024x8x8x128_0_2_3_1)
          (sitofp .f32 (constantI S_ 32 0#32)) pads_S1024x8x8x128_S1024x10x10x128_000_110_110_000 h_S_) bitsLt_bf16_f32 : S1024x10x10x128.Idx → Elt Ideal .bf16)
          (ix4 (⟨32 * n.val + (y 0).val, blk0_row_lt n y⟩ : Fin 1024) (⟨(y 1).val, (y 1).isLt⟩ : Fin 10) (⟨(y 2).val, (y 2).isLt⟩ : Fin 10) (⟨(y 3).val, (y 3).isLt⟩ : Fin 128)) :=
  (conv_in0 m ρ c (kpt n) y (ix4 (⟨32 * n.val + (y 0).val, blk0_row_lt n y⟩ : Fin 1024) (⟨(y 1).val, (y 1).isLt⟩ : Fin 10) (⟨(y 2).val, (y 2).isLt⟩ : Fin 10) (⟨(y 3).val, (y 3).isLt⟩ : Fin 128)) rfl rfl rfl rfl).trans
    (congrFun (conv_x_arr m ρ c) (ix4 (⟨32 * n.val + (y 0).val, blk0_row_lt n y⟩ : Fin 1024) (⟨(y 1).val, (y 1).isLt⟩ : Fin 10) (⟨(y 2).val, (y 2).isLt⟩ : Fin 10) (⟨(y 3).val, (y 3).isLt⟩ : Fin 128)))

/-- Every grid point's second input block is the first eight filter taps. -/
theorem conv_in1_arg (c : Dev nD) (t : Fin cfg0.N) :
    (iblk0 (V3 m ρ) c 1 t : S4x256x32.Idx → Elt Ideal .bf16)
      = shapeCast S4x256x32 (extractStridedSlice S8x128x32 ![0, 0, 0] (truncf (F := Ideal) .bf16 (shapeCast S9x128x32 (transpose S3x3x128x32 [2, 3, 1, 0] (m ((c.tc : Thread nD τ).loc main_arg1) : S32x128x3x3.Idx → Elt Ideal .f32) transposes_S32x128x3x3_S3x3x128x32_2_3_1_0) shapeCasts_S3x3x128x32_S9x128x32) bitsLt_bf16_f32) slices_S9x128x32_S8x128x32_0_0_0) shapeCasts_S8x128x32_S4x256x32 :=
  (conv_in1 m ρ c t).trans (conv_w_arr m ρ c)

/-- Every grid point's third input block is the ninth filter tap. -/
theorem conv_in2_arg (c : Dev nD) (t : Fin cfg0.N) :
    (iblk0 (V3 m ρ) c 2 t : S128x32.Idx → Elt Ideal .bf16)
      = shapeCast S128x32 (extractStridedSlice S1x128x32 ![8, 0, 0] (truncf (F := Ideal) .bf16 (shapeCast S9x128x32 (transpose S3x3x128x32 [2, 3, 1, 0] (m ((c.tc : Thread nD τ).loc main_arg1) : S32x128x3x3.Idx → Elt Ideal .f32) transposes_S32x128x3x3_S3x3x128x32_2_3_1_0) shapeCasts_S3x3x128x32_S9x128x32) bitsLt_bf16_f32) slices_S9x128x32_S1x128x32_8_0_0) shapeCasts_S1x128x32_S128x32 :=
  (conv_in2 m ρ c t).trans (conv_wlast_arr m ρ c)

/-- Every grid point's fourth input block is the convolution bias as a [1,32] row. -/
theorem conv_in3_arg (c : Dev nD) (t : Fin cfg0.N) :
    (iblk0 (V3 m ρ) c 3 t : S1x32.Idx → Elt Ideal .f32)
      = shapeCast S1x32 (m ((c.tc : Thread nD τ).loc main_arg2) : S32.Idx → Elt Ideal .f32) shapeCasts_S32_S1x32 :=
  (conv_in3 m ρ c t).trans (conv_bias_arr m ρ c)

end Cert.KernelIdeal.KVal

end
-- ==== Proof.RHFold.lean ====
/- The reference's two running statistics after the last tile, as plain sums.
   Each point adds its tile's column sums to the running statistic it was handed, and the first point starts
   from zero; so after point n the statistic is the sum over the points 0 .. n of their tiles' column sums. -/
import proofs.«159686_g2000604559473765_pallasbulk_680_3_alg».proof.Proof.RefData
import proofs.«159686_g2000604559473765_pallasbulk_680_3_alg».proof.Proof.RHStat

set_option maxRecDepth 16384

noncomputable section

open scoped BigOperators

namespace Cert.ReferenceIdeal.RHead
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Body Idealize.ShloMosaic.ValueIdx

variable (m : (ℓ : Loc nD τ sig) → Buf (Elt Ideal) ℓ)

/-- Channel ch's column sum of the convolution block of point n's input tile. -/
def ptSum1 (c : Dev nD) (n : ℕ) (ch : Fin 32) : EReal := colSum1 (iblk m c 0 (pt n)) (iblk m c 1 (pt n)) (iblk m c 2 (pt n)) (iblk m c 3 (pt n)) ch

/-- Channel ch's column sum of squares of the convolution block of point n's input tile. -/
def ptSum2 (c : Dev nD) (n : ℕ) (ch : Fin 32) : EReal := colSum2 (iblk m c 0 (pt n)) (iblk m c 1 (pt n)) (iblk m c 2 (pt n)) (iblk m c 3 (pt n)) ch

theorem stat1_range (c : Dev nD) (n : ℕ) (ch : Fin 32) :
    (stat m c n).1 (ix2 0 ch) = ∑ i ∈ Finset.range (n + 1), ptSum1 m c i ch := by
  induction n with
  | zero =>
    show acc1 (F := Ideal) (iblk m c 0 (pt 0)) (iblk m c 1 (pt 0)) (iblk m c 2 (pt 0)) (iblk m c 3 (pt 0)) (k0_pay487 (F := Ideal)) (ix2 0 ch) = _
    rw [acc1_apply, pay487_apply, zero_add, Finset.sum_range_one]
    rfl
  | succ n ih =>
    show acc1 (F := Ideal) (iblk m c 0 (pt (n + 1))) (iblk m c 1 (pt (n + 1))) (iblk m c 2 (pt (n + 1))) (iblk m c 3 (pt (n + 1))) (stat m c n).1 (ix2 0 ch) = _
    rw [acc1_apply, ih, Finset.sum_range_succ _ (n + 1)]
    rfl

theorem stat2_range (c : Dev nD) (n : ℕ) (ch : Fin 32) :
    (stat m c n).2 (ix2 0 ch) = ∑ i ∈ Finset.range (n + 1), ptSum2 m c i ch := by
  induction n with
  | zero =>
    show acc2 (F := Ideal) (iblk m c 0 (pt 0)) (iblk m c 1 (pt 0)) (iblk m c 2 (pt 0)) (iblk m c 3 (pt 0)) (k0_pay488 (F := Ideal)) (ix2 0 ch) = _
    rw [acc2_apply, pay488_apply, zero_add, Finset.sum_range_one]
    rfl
  | succ n ih =>
    show acc2 (F := Ideal) (iblk m c 0 (pt (n + 1))) (iblk m c 1 (pt (n + 1))) (iblk m c 2 (pt (n + 1))) (iblk m c 3 (pt (n + 1))) (stat m c n).2 (ix2 0 ch) = _
    rw [acc2_apply, ih, Finset.sum_range_succ _ (n + 1)]
    rfl

/-- After the last point the first statistic is the sum over all 32 tiles of their column sums. -/
theorem stat1_final (c : Dev nD) (ch : Fin 32) :
    (stat m c 31).1 (ix2 0 ch)
      = ∑ t : Fin 32, colSum1 (iblk m c 0 (pt t.val)) (iblk m c 1 (pt t.val)) (iblk m c 2 (pt t.val)) (iblk m c 3 (pt t.val)) ch :=
  (stat1_range m c 31 ch).trans (Fin.sum_univ_eq_sum_range (fun i => ptSum1 m c i ch) 32).symm

/-- After the last point the second statistic is the sum over all 32 tiles of their column sums of squares. -/
theorem stat2_final (c : Dev nD) (ch : Fin 32) :
    (stat m c 31).2 (ix2 0 ch)
      = ∑ t : Fin 32, colSum2 (iblk m c 0 (pt t.val)) (iblk m c 1 (pt t.val)) (iblk m c 2 (pt t.val)) (iblk m c 3 (pt t.val)) ch :=
  (stat2_range m c 31 ch).trans (Fin.sum_univ_eq_sum_range (fun i => ptSum2 m c i ch) 32).symm

end Cert.ReferenceIdeal.RHead

end
-- ==== Proof.RHArrays.lean ====
/- The reference pipeline's ten input blocks, read off their arrays.
   Window 0 cuts the padded input array [1024,10,10,128] into 32 blocks of 32 batch rows: point t's block at
   (y0, y1, y2, y3) is the array at (32 t + y0, y1, y2, y3). The other nine windows hand the whole array to every point. -/
import proofs.«159686_g2000604559473765_pallasbulk_680_3_alg».proof.Proof.Gen.ReferenceIdeal.Frame
import proofs.«159686_g2000604559473765_pallasbulk_680_3_alg».proof.Proof.RefData
import Idealize.ShloMosaic.Lib.Pipeline.Value
import Idealize.ShloMosaic.Lib.ValueIdx
import Idealize.ShloMosaic.PureOps.Ideal.Laws

set_option maxRecDepth 16384

noncomputable section

namespace Cert.ReferenceIdeal.RHead
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Idealize.ShloMosaic.ValueIdx

variable (m : (ℓ : Loc nD τ sig) → Buf (Elt Ideal) ℓ)

/-! ## The printed index maps, decided over the grid -/

theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)
theorem idx_zero3 : ∀ t : Fin cfg0.N, win0_3.index t (0 : Fin 2) = 0 ∧ win0_3.index t (1 : Fin 2) = 0 :=
  (by decide +kernel : ∀ t : Fin grid0.N, _)
theorem idx_zero4 : ∀ t : Fin cfg0.N, win0_4.index t (0 : Fin 2) = 0 ∧ win0_4.index t (1 : Fin 2) = 0 :=
  (by decide +kernel : ∀ t : Fin grid0.N, _)
theorem idx_zero5 : ∀ t : Fin cfg0.N, win0_5.index t (0 : Fin 2) = 0 ∧ win0_5.index t (1 : Fin 2) = 0 :=
  (by decide +kernel : ∀ t : Fin grid0.N, _)
theorem idx_zero6 : ∀ t : Fin cfg0.N, win0_6.index t (0 : Fin 2) = 0 ∧ win0_6.index t (1 : Fin 2) = 0 :=
  (by decide +kernel : ∀ t : Fin grid0.N, _)
theorem idx_zero7 : ∀ t : Fin cfg0.N, win0_7.index t (0 : Fin 2) = 0 ∧ win0_7.index t (1 : Fin 2) = 0 :=
  (by decide +kernel : ∀ t : Fin grid0.N, _)
theorem idx_zero8 : ∀ t : Fin cfg0.N, win0_8.index t (0 : Fin 2) = 0 ∧ win0_8.index t (1 : Fin 2) = 0 :=
  (by decide +kernel : ∀ t : Fin grid0.N, _)
theorem idx_zero9 : ∀ t : Fin cfg0.N, win0_9.index t (0 : Fin 2) = 0 ∧ win0_9.index t (1 : Fin 2) = 0 :=
  (by decide +kernel : ∀ t : Fin grid0.N, _)

/-! ## The blocks -/

/-- Point t's block of the padded input is batch rows 32t .. 32t+31 of the array. -/
theorem iblk0_apply (c : Dev nD) (t : Fin cfg0.N) (y : S32x10x10x128.Idx) (i : S1024x10x10x128.Idx)
    (h0 : (i 0).val = 32 * t.val + (y 0).val) (h1 : (i 1).val = (y 1).val) (h2 : (i 2).val = (y 2).val) (h3 : (i 3).val = (y 3).val) :
    (iblk m c 0 t : S32x10x10x128.Idx → Elt Ideal .bf16) y = (V m c main_v2 : S1024x10x10x128.Idx → Elt Ideal .bf16) i := by
  obtain ⟨e0, e1, e2, e3⟩ := idx_facts0 t
  show V m c main_v2 (((cfg0.win 0).blk t).view.emb y) = V m c main_v2 i
  refine congrArg _ ?_
  funext a; apply Fin.ext
  match a with
  | ⟨0, _⟩ => show win0_0.index t (0 : Fin 4) * 32 + 1 * (y 0).val = (i 0).val; omega
  | ⟨1, _⟩ => show win0_0.index t (1 : Fin 4) * 10 + 1 * (y 1).val = (i 1).val; omega
  | ⟨2, _⟩ => show win0_0.index t (2 : Fin 4) * 10 + 1 * (y 2).val = (i 2).val; omega
  | ⟨3, _⟩ => show win0_0.index t (3 : Fin 4) * 128 + 1 * (y 3).val = (i 3).val; omega

/-- Window 1 is one whole-array block at every point. -/
theorem iblk1_eq (c : Dev nD) (t : Fin cfg0.N) :
    (iblk m c 1 t : S4x256x32.Idx → Elt Ideal .bf16) = (V m c main_v7 : S4x256x32.Idx → Elt Ideal .bf16) := by
  obtain ⟨e0, e1, e2⟩ := idx_zero1 t
  funext y
  show V m c main_v7 (((cfg0.win 1).blk t).view.emb y) = V m c main_v7 y
  refine congrArg _ ?_
  funext a; apply Fin.ext
  match a with
  | ⟨0, _⟩ => show win0_1.index t (0 : Fin 3) * 4 + 1 * (y 0).val = (y 0).val; omega
  | ⟨1, _⟩ => show win0_1.index t (1 : Fin 3) * 256 + 1 * (y 1).val = (y 1).val; omega
  | ⟨2, _⟩ => show win0_1.index t (2 : Fin 3) * 32 + 1 * (y 2).val = (y 2).val; omega

/-- Window 2 is one whole-array block at every point. -/
theorem iblk2_eq (c : Dev nD) (t : Fin cfg0.N) :
    (iblk m c 2 t : S128x32.Idx → Elt Ideal .bf16) = (V m c main_v9 : S128x32.Idx → Elt Ideal .bf16) := by
  obtain ⟨e0, e1⟩ := idx_zero2 t
  funext y
  show V m c main_v9 (((cfg0.win 2).blk t).view.emb y) = V m c main_v9 y
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega

/-- Window 3 is one whole-array block at every point. -/
theorem iblk3_eq (c : Dev nD) (t : Fin cfg0.N) :
    (iblk m c 3 t : S1x32.Idx → Elt Ideal .f32) = (V m c main_v10 : S1x32.Idx → Elt Ideal .f32) := by
  obtain ⟨e0, e1⟩ := idx_zero3 t
  funext y
  show V m c main_v10 (((cfg0.win 3).blk t).view.emb y) = V m c main_v10 y
  refine congrArg _ ?_
  funext a; apply Fin.ext
  match a with
  | ⟨0, _⟩ => show win0_3.index t (0 : Fin 2) * 1 + 1 * (y 0).val = (y 0).val; omega
  | ⟨1, _⟩ => show win0_3.index t (1 : Fin 2) * 32 + 1 * (y 1).val = (y 1).val; omega

/-- Window 4 is one whole-array block at every point. -/
theorem iblk4_eq (c : Dev nD) (t : Fin cfg0.N) :
    (iblk m c 4 t : S1x32.Idx → Elt Ideal .f32) = (V m c main_v11 : S1x32.Idx → Elt Ideal .f32) := by
  obtain ⟨e0, e1⟩ := idx_zero4 t
  funext y
  show V m c main_v11 (((cfg0.win 4).blk t).view.emb y) = V m c main_v11 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Window 5 is one whole-array block at every point. -/
theorem iblk5_eq (c : Dev nD) (t : Fin cfg0.N) :
    (iblk m c 5 t : S1x32.Idx → Elt Ideal .f32) = (V m c main_v12 : S1x32.Idx → Elt Ideal .f32) := by
  obtain ⟨e0, e1⟩ := idx_zero5 t
  funext y
  show V m c main_v12 (((cfg0.win 5).blk t).view.emb y) = V m c main_v12 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 32 + 1 * (y 1).val = (y 1).val; omega

/-- Window 6 is one whole-array block at every point. -/
theorem iblk6_eq (c : Dev nD) (t : Fin cfg0.N) :
    (iblk m c 6 t : S512x64.Idx → Elt Ideal .bf16) = (V m c main_v16 : S512x64.Idx → Elt Ideal .bf16) := by
  obtain ⟨e0, e1⟩ := idx_zero6 t
  funext y
  show V m c main_v16 (((cfg0.win 6).blk t).view.emb y) = V m c main_v16 y
  refine congrArg _ ?_
  funext a; apply Fin.ext
  match a with
  | ⟨0, _⟩ => show win0_6.index t (0 : Fin 2) * 512 + 1 * (y 0).val = (y 0).val; omega
  | ⟨1, _⟩ => show win0_6.index t (1 : Fin 2) * 64 + 1 * (y 1).val = (y 1).val; omega

/-- Window 7 is one whole-array block at every point. -/
theorem iblk7_eq (c : Dev nD) (t : Fin cfg0.N) :
    (iblk m c 7 t : S1x64.Idx → Elt Ideal .f32) = (V m c main_v17 : S1x64.Idx → Elt Ideal .f32) := by
  obtain ⟨e0, e1⟩ := idx_zero7 t
  funext y
  show V m c main_v17 (((cfg0.win 7).blk t).view.emb y) = V m c main_v17 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 8 is one whole-array block at every point. -/
theorem iblk8_eq (c : Dev nD) (t : Fin cfg0.N) :
    (iblk m c 8 t : S1x64.Idx → Elt Ideal .f32) = (V m c main_arg7 : S1x64.Idx → Elt Ideal .f32) := by
  obtain ⟨e0, e1⟩ := idx_zero8 t
  funext y
  show V m c main_arg7 (((cfg0.win 8).blk t).view.emb y) = V m c main_arg7 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- Window 9 is one whole-array block at every point. -/
theorem iblk9_eq (c : Dev nD) (t : Fin cfg0.N) :
    (iblk m c 9 t : S1x1.Idx → Elt Ideal .f32) = (V m c main_v18 : S1x1.Idx → Elt Ideal .f32) := by
  obtain ⟨e0, e1⟩ := idx_zero9 t
  funext y
  show V m c main_v18 (((cfg0.win 9).blk t).view.emb y) = V m c main_v18 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

/-! ## The arrays the region finds, as terms of the launch arguments -/

/-- Window 0's array: the input, channels last, padded by one zero row and column on each side of the image, rounded to bf16. -/
theorem V_v2 (c : Dev nD) : (V m c main_v2 : S1024x10x10x128.Idx → Elt Ideal .bf16)
    = truncf (F := Ideal) .bf16 (pad S1024x10x10x128 ![0, 1, 1, 0] ![0, 1, 1, 0] ![0, 0, 0, 0]
        (transpose S1024x8x8x128 [0, 2, 3, 1] ((m ((c : Thread nD τ).loc main_arg0)) : S1024x128x8x8.Idx → Elt Ideal .f32) transposes_S1024x128x8x8_S1024x8x8x128_0_2_3_1)
        (sitofp (F := Ideal) .f32 (constantI S_ 32 0#32)) pads_S1024x8x8x128_S1024x10x10x128_000_110_110_000 h_S_) bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-- Window 1's array: the first eight taps of the convolution weight, paired. -/
theorem V_v7 (c : Dev nD) : (V m c main_v7 : S4x256x32.Idx → Elt Ideal .bf16)
    = (shapeCast S4x256x32 (extractStridedSlice S8x128x32 ![0, 0, 0] (truncf (F := Ideal) .bf16 (shapeCast S9x128x32 (transpose S3x3x128x32 [2, 3, 1, 0] ((m ((c : Thread nD τ).loc main_arg1)) : S32x128x3x3.Idx → Elt Ideal .f32) transposes_S32x128x3x3_S3x3x128x32_2_3_1_0) shapeCasts_S3x3x128x32_S9x128x32) bitsLt_bf16_f32) slices_S9x128x32_S8x128x32_0_0_0) shapeCasts_S8x128x32_S4x256x32 : S4x256x32.Idx → Elt Ideal .bf16) := by
  dsimp only [Gen.V, Gen.V0]
  simp only [Gen.hostOps0, Gen.hostOps0_1, Gen.hostOps0_2, List.flatten_cons, List.flatten_nil, List.append_nil, List.cons_append, List.nil_append]
  after_results
  rfl

/-- Window 2's array: the last tap of the convolution weight. -/
theorem V_v9 (c : Dev nD) : (V m c main_v9 : S128x32.Idx → Elt Ideal .bf16)
    = (shapeCast S128x32 (extractStridedSlice S1x128x32 ![8, 0, 0] (truncf (F := Ideal) .bf16 (shapeCast S9x128x32 (transpose S3x3x128x32 [2, 3, 1, 0] ((m ((c : Thread nD τ).loc main_arg1)) : S32x128x3x3.Idx → Elt Ideal .f32) transposes_S32x128x3x3_S3x3x128x32_2_3_1_0) shapeCasts_S3x3x128x32_S9x128x32) bitsLt_bf16_f32) slices_S9x128x32_S1x128x32_8_0_0) shapeCasts_S1x128x32_S128x32 : S128x32.Idx → Elt Ideal .bf16) := by
  dsimp only [Gen.V, Gen.V0]
  simp only [Gen.hostOps0, Gen.hostOps0_1, Gen.hostOps0_2, List.flatten_cons, List.flatten_nil, List.append_nil, List.cons_append, List.nil_append]
  after_results
  rfl

/-- Window 3's array: the convolution bias as a row. -/
theorem V_v10 (c : Dev nD) : (V m c main_v10 : S1x32.Idx → Elt Ideal .f32)
    = shapeCast S1x32 ((m ((c : Thread nD τ).loc main_arg2)) : S32.Idx → Elt Ideal .f32) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- Window 4's array: gamma as a row. -/
theorem V_v11 (c : Dev nD) : (V m c main_v11 : S1x32.Idx → Elt Ideal .f32)
    = shapeCast S1x32 ((m ((c : Thread nD τ).loc main_arg3)) : S32.Idx → Elt Ideal .f32) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- Window 5's array: beta as a row. -/
theorem V_v12 (c : Dev nD) : (V m c main_v12 : S1x32.Idx → Elt Ideal .f32)
    = shapeCast S1x32 ((m ((c : Thread nD τ).loc main_arg4)) : S32.Idx → Elt Ideal .f32) shapeCasts_S32_S1x32 := by
  dsimp only [Gen.V, Gen.V0]
  simp only [Gen.hostOps0, Gen.hostOps0_1, Gen.hostOps0_2, List.flatten_cons, List.flatten_nil, List.append_nil, List.cons_append, List.nil_append]
  after_results
  rfl

/-- Window 6's array: the first dense weight, its 512 inputs reordered from (channel, row, column) to (row, column, channel), rounded to bf16. -/
theorem V_v16 (c : Dev nD) : (V m c main_v16 : S512x64.Idx → Elt Ideal .bf16)
    = (truncf (F := Ideal) .bf16 (shapeCast S512x64 (transpose S4x4x32x64 [2, 3, 1, 0] (shapeCast S64x32x4x4 ((m ((c : Thread nD τ).loc main_arg5)) : S64x512.Idx → Elt Ideal .f32) shapeCasts_S64x512_S64x32x4x4) transposes_S64x32x4x4_S4x4x32x64_2_3_1_0) shapeCasts_S4x4x32x64_S512x64) bitsLt_bf16_f32 : S512x64.Idx → Elt Ideal .bf16) := by
  dsimp only [Gen.V, Gen.V0]
  simp only [Gen.hostOps0, Gen.hostOps0_1, Gen.hostOps0_2, List.flatten_cons, List.flatten_nil, List.append_nil, List.cons_append, List.nil_append]
  after_results
  rfl

/-- Window 7's array: the first dense bias as a row. -/
theorem V_v17 (c : Dev nD) : (V m c main_v17 : S1x64.Idx → Elt Ideal .f32)
    = shapeCast S1x64 ((m ((c : Thread nD τ).loc main_arg6)) : S64.Idx → Elt Ideal .f32) shapeCasts_S64_S1x64 := by
  dsimp only [Gen.V, Gen.V0]
  simp only [Gen.hostOps0, Gen.hostOps0_1, Gen.hostOps0_2, List.flatten_cons, List.flatten_nil, List.append_nil, List.cons_append, List.nil_append]
  after_results
  rfl

/-- Window 8's array: the second dense weight, as launched. -/
theorem V_arg7 (c : Dev nD) : (V m c main_arg7 : S1x64.Idx → Elt Ideal .f32) = ((m ((c : Thread nD τ).loc main_arg7)) : S1x64.Idx → Elt Ideal .f32) :=
  V_main_arg7 m c

/-- Window 9's array: the second dense bias as a [1,1] array. -/
theorem V_v18 (c : Dev nD) : (V m c main_v18 : S1x1.Idx → Elt Ideal .f32)
    = shapeCast S1x1 ((m ((c : Thread nD τ).loc main_arg8)) : S1.Idx → Elt Ideal .f32) shapeCasts_S1_S1x1 := by
  dsimp only [Gen.V, Gen.V0]
  simp only [Gen.hostOps0, Gen.hostOps0_1, Gen.hostOps0_2, List.flatten_cons, List.flatten_nil, List.append_nil, List.cons_append, List.nil_append]
  after_results
  rfl

/-! ## The blocks as terms of the launch arguments -/

/-- Point n's block of the padded input at y: the padded, rounded input at batch row 32n + y0. -/
theorem iblk0_host (c : Dev nD) (n : Fin 32) (y : S32x10x10x128.Idx) :
    (iblk m c 0 (Body.pt n.val) : S32x10x10x128.Idx → Elt Ideal .bf16) y
      = (truncf (F := Ideal) .bf16 (pad S1024x10x10x128 ![0, 1, 1, 0] ![0, 1, 1, 0] ![0, 0, 0, 0]
        (transpose S1024x8x8x128 [0, 2, 3, 1] ((m ((c : Thread nD τ).loc main_arg0)) : S1024x128x8x8.Idx → Elt Ideal .f32) transposes_S1024x128x8x8_S1024x8x8x128_0_2_3_1)
        (sitofp (F := Ideal) .f32 (constantI S_ 32 0#32)) pads_S1024x8x8x128_S1024x10x10x128_000_110_110_000 h_S_) bitsLt_bf16_f32 : S1024x10x10x128.Idx → Elt Ideal .bf16)
          (ix4 (⟨32 * n.val + (y 0).val, by have h : (y 0).val < 32 := (y 0).isLt; have := n.isLt; omega⟩ : Fin 1024) (⟨(y 1).val, (y 1).isLt⟩ : Fin 10) (⟨(y 2).val, (y 2).isLt⟩ : Fin 10) (⟨(y 3).val, (y 3).isLt⟩ : Fin 128)) := by
  refine (iblk0_apply m c (Body.pt n.val) y _ ?_ rfl rfl rfl).trans (congrFun (V_v2 m c) _)
  show 32 * n.val + (y 0).val = 32 * (n.val % 32) + (y 0).val
  have := n.isLt
  omega

theorem iblk1_host (c : Dev nD) (t : Fin cfg0.N) : (iblk m c 1 t : S4x256x32.Idx → Elt Ideal .bf16)
    = (shapeCast S4x256x32 (extractStridedSlice S8x128x32 ![0, 0, 0] (truncf (F := Ideal) .bf16 (shapeCast S9x128x32 (transpose S3x3x128x32 [2, 3, 1, 0] ((m ((c : Thread nD τ).loc main_arg1)) : S32x128x3x3.Idx → Elt Ideal .f32) transposes_S32x128x3x3_S3x3x128x32_2_3_1_0) shapeCasts_S3x3x128x32_S9x128x32) bitsLt_bf16_f32) slices_S9x128x32_S8x128x32_0_0_0) shapeCasts_S8x128x32_S4x256x32 : S4x256x32.Idx → Elt Ideal .bf16) :=
  (iblk1_eq m c t).trans (V_v7 m c)

theorem iblk2_host (c : Dev nD) (t : Fin cfg0.N) : (iblk m c 2 t : S128x32.Idx → Elt Ideal .bf16)
    = (shapeCast S128x32 (extractStridedSlice S1x128x32 ![8, 0, 0] (truncf (F := Ideal) .bf16 (shapeCast S9x128x32 (transpose S3x3x128x32 [2, 3, 1, 0] ((m ((c : Thread nD τ).loc main_arg1)) : S32x128x3x3.Idx → Elt Ideal .f32) transposes_S32x128x3x3_S3x3x128x32_2_3_1_0) shapeCasts_S3x3x128x32_S9x128x32) bitsLt_bf16_f32) slices_S9x128x32_S1x128x32_8_0_0) shapeCasts_S1x128x32_S128x32 : S128x32.Idx → Elt Ideal .bf16) :=
  (iblk2_eq m c t).trans (V_v9 m c)

theorem iblk3_host (c : Dev nD) (t : Fin cfg0.N) : (iblk m c 3 t : S1x32.Idx → Elt Ideal .f32)
    = shapeCast S1x32 ((m ((c : Thread nD τ).loc main_arg2)) : S32.Idx → Elt Ideal .f32) shapeCasts_S32_S1x32 :=
  (iblk3_eq m c t).trans (V_v10 m c)

theorem iblk4_host (c : Dev nD) (t : Fin cfg0.N) : (iblk m c 4 t : S1x32.Idx → Elt Ideal .f32)
    = shapeCast S1x32 ((m ((c : Thread nD τ).loc main_arg3)) : S32.Idx → Elt Ideal .f32) shapeCasts_S32_S1x32 :=
  (iblk4_eq m c t).trans (V_v11 m c)

theorem iblk5_host (c : Dev nD) (t : Fin cfg0.N) : (iblk m c 5 t : S1x32.Idx → Elt Ideal .f32)
    = shapeCast S1x32 ((m ((c : Thread nD τ).loc main_arg4)) : S32.Idx → Elt Ideal .f32) shapeCasts_S32_S1x32 :=
  (iblk5_eq m c t).trans (V_v12 m c)

theorem iblk6_host (c : Dev nD) (t : Fin cfg0.N) : (iblk m c 6 t : S512x64.Idx → Elt Ideal .bf16)
    = (truncf (F := Ideal) .bf16 (shapeCast S512x64 (transpose S4x4x32x64 [2, 3, 1, 0] (shapeCast S64x32x4x4 ((m ((c : Thread nD τ).loc main_arg5)) : S64x512.Idx → Elt Ideal .f32) shapeCasts_S64x512_S64x32x4x4) transposes_S64x32x4x4_S4x4x32x64_2_3_1_0) shapeCasts_S4x4x32x64_S512x64) bitsLt_bf16_f32 : S512x64.Idx → Elt Ideal .bf16) :=
  (iblk6_eq m c t).trans (V_v16 m c)

theorem iblk7_host (c : Dev nD) (t : Fin cfg0.N) : (iblk m c 7 t : S1x64.Idx → Elt Ideal .f32)
    = shapeCast S1x64 ((m ((c : Thread nD τ).loc main_arg6)) : S64.Idx → Elt Ideal .f32) shapeCasts_S64_S1x64 :=
  (iblk7_eq m c t).trans (V_v17 m c)

theorem iblk9_host (c : Dev nD) (t : Fin cfg0.N) : (iblk m c 9 t : S1x1.Idx → Elt Ideal .f32)
    = shapeCast S1x1 ((m ((c : Thread nD τ).loc main_arg8)) : S1.Idx → Elt Ideal .f32) shapeCasts_S1_S1x1 :=
  (iblk9_eq m c t).trans (V_v18 m c)

theorem iblk8_host (c : Dev nD) (t : Fin cfg0.N) : (iblk m c 8 t : S1x64.Idx → Elt Ideal .f32)
    = ((m ((c : Thread nD τ).loc main_arg7)) : S1x64.Idx → Elt Ideal .f32) :=
  (iblk8_eq m c t).trans (V_arg7 m c)

end Cert.ReferenceIdeal.RHead

end
-- ==== Proof.RHNorm.lean ====
/- The normalization of one convolution tile, read at one entry.
   From the per-channel sum s1 of the convolution output and the sum s2 of its squares over the whole batch
   come the mean s1 / 65536, the biased variance max (s2 / 65536 - mean * mean) 0, the scale
   gamma * rsqrt (variance + offset) and the shift beta - mean * scale. The scale and the shift are laid
   side by side 8 times (lane = 32 * w + channel reads channel lane % 32), applied to every value of the
   256 x 256 tile and clamped at zero, and the tile's 256 rows are regrouped as 32 batch elements of 8 rows.
   Float literals stay as their words: 0x47800000 is 65536, 0x3727C5AC the variance offset, 0x00000000 zero. -/
import proofs.«159686_g2000604559473765_pallasbulk_680_3_alg».proof.Proof.RefHeadDef
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.ReferenceIdeal.RHead

open Cert.ReferenceIdeal Cert.ReferenceIdeal.Gen Cert.ReferenceIdeal.Body Cert.KernelIdeal.KVal Idealize.ShloMosaic Idealize.ShloMosaic.ValueIdx

/-! ## The affine map and clamp of one channel, from the two sums -/

/-- The batch mean from the sum. -/
def affMean (s1 : EReal) : EReal := Ideal.div s1 (Ideal.ofBits .f32 0x47800000#32)

/-- The biased batch variance, clamped at zero. -/
def affVar (s1 s2 : EReal) : EReal := max (Ideal.div s2 (Ideal.ofBits .f32 0x47800000#32) - affMean s1 * affMean s1) (Ideal.ofBits .f32 0x00000000#32)

/-- The scale: gamma times the reciprocal square root of variance plus offset. -/
def affScale (s1 s2 g : EReal) : EReal := g * Ideal.rsqrt (affVar s1 s2 + (Ideal.ofBits .f32 0x3727C5AC#32))

/-- The shift: beta minus mean times scale. -/
def affShift (s1 s2 g be : EReal) : EReal := be - affMean s1 * affScale s1 s2 g

/-- One convolution value x after the affine map and the clamp at zero. -/
def affRelu (s1 s2 g be x : EReal) : EReal := max (x * affScale s1 s2 g + affShift s1 s2 g be) (Ideal.ofBits .f32 0x00000000#32)

/-- The same map written from a statistics array: its two sums are the per-tile sums added over the tiles. -/
theorem bnRelu_eq (st : (⟨3, ![32, 8, 128]⟩ : Shape).Idx → EReal) (g be : (⟨2, ![1, 32]⟩ : Shape).Idx → EReal) (ch : Fin 32) (x : EReal) :
    bnRelu st g be ch x = affRelu (statSum st 0 ch) (statSum st 1 ch) (g (ix2 0 ch)) (be (ix2 0 ch)) x := rfl

/-! ## Mean, scale and shift rows at a channel -/

theorem pay3_apply (S1 : Vec Ideal S1x32 .f32) (ch : Fin 32) :
    k0_pay3 (F := Ideal) S1 (ix2 0 ch) = affMean (S1 (ix2 0 ch)) := rfl

theorem pay4_apply (S1 S2 x4 : Vec Ideal S1x32 .f32) (ch : Fin 32) :
    k0_pay4 (F := Ideal) S1 S2 x4 (ix2 0 ch) = affScale (S1 (ix2 0 ch)) (S2 (ix2 0 ch)) (x4 (ix2 0 ch)) := by
  show shapeCast S1x32 x4 shapeCasts_S1x32_S1x32 (ix2 0 ch)
      * Ideal.rsqrt (max (Ideal.div (S2 (ix2 0 ch)) (Ideal.ofBits .f32 0x47800000#32) - k0_pay3 (F := Ideal) S1 (ix2 0 ch) * k0_pay3 (F := Ideal) S1 (ix2 0 ch)) (Ideal.ofBits .f32 0x00000000#32) + (Ideal.ofBits .f32 0x3727C5AC#32)) = _
  rw [shapeCast_self]
  rfl

/-- The shift row before it is widened. -/
def shiftRow (S1 S2 x4 x5 : Vec Ideal S1x32 .f32) : FVec Ideal S1x32 .f32 :=
  subf (shapeCast S1x32 x5 shapeCasts_S1x32_S1x32) (mulf (k0_pay3 (F := Ideal) S1) (k0_pay4 (F := Ideal) S1 S2 x4))

theorem shiftRow_apply (S1 S2 x4 x5 : Vec Ideal S1x32 .f32) (ch : Fin 32) :
    shiftRow S1 S2 x4 x5 (ix2 0 ch) = affShift (S1 (ix2 0 ch)) (S2 (ix2 0 ch)) (x4 (ix2 0 ch)) (x5 (ix2 0 ch)) := by
  show shapeCast S1x32 x5 shapeCasts_S1x32_S1x32 (ix2 0 ch) - k0_pay3 (F := Ideal) S1 (ix2 0 ch) * k0_pay4 (F := Ideal) S1 S2 x4 (ix2 0 ch) = _
  rw [shapeCast_self, pay4_apply]
  rfl

theorem pay6_eq (S1 S2 x4 x5 : Vec Ideal S1x32 .f32) :
    k0_pay6 (F := Ideal) S1 S2 x4 x5 = concatenate S1x256 1 [⟨S1x32, shiftRow S1 S2 x4 x5⟩, ⟨S1x32, shiftRow S1 S2 x4 x5⟩, ⟨S1x32, shiftRow S1 S2 x4 x5⟩, ⟨S1x32, shiftRow S1 S2 x4 x5⟩, ⟨S1x32, shiftRow S1 S2 x4 x5⟩, ⟨S1x32, shiftRow S1 S2 x4 x5⟩, ⟨S1x32, shiftRow S1 S2 x4 x5⟩, ⟨S1x32, shiftRow S1 S2 x4 x5⟩] concatenates_S1x32_S1x32_S1x32_S1x32_S1x32_S1x32_S1x32_S1x32_S1x256_d1 := rfl

/-- The widened scale at lane cc is the scale of channel cc % 32. -/
theorem pay5_apply (S1 S2 x4 : Vec Ideal S1x32 .f32) (cc : Fin 256) :
    k0_pay5 (F := Ideal) S1 S2 x4 (ix2 0 cc)
      = affScale (S1 (ix2 0 ⟨cc.val % 32, by omega⟩)) (S2 (ix2 0 ⟨cc.val % 32, by omega⟩)) (x4 (ix2 0 ⟨cc.val % 32, by omega⟩)) := by
  refine (concat8_apply (k0_pay4 (F := Ideal) S1 S2 x4) concatenates_S1x32_S1x32_S1x32_S1x32_S1x32_S1x32_S1x32_S1x32_S1x256_d1 cc ⟨cc.val % 32, by omega⟩ rfl).trans ?_
  exact pay4_apply S1 S2 x4 _

/-- The widened shift at lane cc is the shift of channel cc % 32. -/
theorem pay6_apply (S1 S2 x4 x5 : Vec Ideal S1x32 .f32) (cc : Fin 256) :
    k0_pay6 (F := Ideal) S1 S2 x4 x5 (ix2 0 cc)
      = affShift (S1 (ix2 0 ⟨cc.val % 32, by omega⟩)) (S2 (ix2 0 ⟨cc.val % 32, by omega⟩)) (x4 (ix2 0 ⟨cc.val % 32, by omega⟩)) (x5 (ix2 0 ⟨cc.val % 32, by omega⟩)) := by
  rw [pay6_eq]
  refine (concat8_apply (shiftRow S1 S2 x4 x5) concatenates_S1x32_S1x32_S1x32_S1x32_S1x32_S1x32_S1x32_S1x32_S1x256_d1 cc ⟨cc.val % 32, by omega⟩ rfl).trans ?_
  exact shiftRow_apply S1 S2 x4 x5 _

/-! ## The tile after the affine map and the clamp -/

/-- The tile's values times the widened scale row plus the widened shift row, clamped at zero. -/
def actT (A D : FVec Ideal S1x256 .f32) (y : Vec Ideal S256x256 .f32) : FVec Ideal S256x256 .f32 :=
  maximumf (addf (mulf y (broadcastTo S256x256 A broadcasts_S1x256_S256x256)) (broadcastTo S256x256 D broadcasts_S1x256_S256x256))
    (broadcast S256x256 (Scalar.ofBits .f32 0x00000000#32))

theorem pay40_eq (A D : FVec Ideal S1x256 .f32) (y : Vec Ideal S256x256 .f32) :
    k0_pay40 (F := Ideal) A D y = shapeCast S32x8x256 (actT A D y) shapeCasts_S256x256_S32x8x256 := rfl

theorem actT_apply (A D : FVec Ideal S1x256 .f32) (y : Vec Ideal S256x256 .f32) (r : Fin 256) (cc : Fin 256) :
    actT A D y (ix2 r cc) = max (y (ix2 r cc) * A (ix2 0 cc) + D (ix2 0 cc)) (Ideal.ofBits .f32 0x00000000#32) := by
  show max (y (ix2 r cc) * broadcastTo S256x256 A broadcasts_S1x256_S256x256 (ix2 r cc)
      + broadcastTo S256x256 D broadcasts_S1x256_S256x256 (ix2 r cc)) (Ideal.ofBits .f32 0x00000000#32) = _
  rw [bcast_rows_apply (by decide) A broadcasts_S1x256_S256x256 r cc, bcast_rows_apply (by decide) D broadcasts_S1x256_S256x256 r cc]

/-- Row h of batch element b, lane cc: the tile's value at row 8b + h times the scale row plus the shift row, clamped. -/
theorem pay40_apply (A D : FVec Ideal S1x256 .f32) (y : Vec Ideal S256x256 .f32) (b : Fin 32) (h : Fin 8) (cc : Fin 256) :
    k0_pay40 (F := Ideal) A D y (ix3 b h cc)
      = max (y (ix2 ⟨8 * b.val + h.val, by omega⟩ cc) * A (ix2 0 cc) + D (ix2 0 cc)) (Ideal.ofBits .f32 0x00000000#32) := by
  rw [pay40_eq]
  refine (rows_cast_apply (actT A D y) shapeCasts_S256x256_S32x8x256 b h cc ⟨8 * b.val + h.val, by omega⟩ rfl).trans ?_
  exact actT_apply A D y _ cc

/-- With the scale and shift rows of the batch statistics: the affine map of channel cc % 32 and the clamp. -/
theorem act_apply (S1 S2 x4 x5 : Vec Ideal S1x32 .f32) (y : Vec Ideal S256x256 .f32) (b : Fin 32) (h : Fin 8) (cc : Fin 256) :
    k0_pay40 (F := Ideal) (k0_pay5 (F := Ideal) S1 S2 x4) (k0_pay6 (F := Ideal) S1 S2 x4 x5) y (ix3 b h cc)
      = affRelu (S1 (ix2 0 ⟨cc.val % 32, by omega⟩)) (S2 (ix2 0 ⟨cc.val % 32, by omega⟩)) (x4 (ix2 0 ⟨cc.val % 32, by omega⟩))
          (x5 (ix2 0 ⟨cc.val % 32, by omega⟩)) (y (ix2 ⟨8 * b.val + h.val, by omega⟩ cc)) := by
  rw [pay40_apply, pay5_apply, pay6_apply]
  rfl

end Cert.ReferenceIdeal.RHead

end
-- ==== Proof.RHPool.lean ====
/- The pooling of one tile, read at one entry.
   Each of the tile's 32 batch elements is 8 rows of 256 lanes. The larger of rows 2ph and 2ph+1 is taken
   (four row pairs), then for each of the four lane groups pw the larger of the 32 lanes starting at 64pw
   and the 32 lanes starting at 64pw + 32, and the sixteen [32,32] results are laid side by side in the
   order 4ph + pw: 512 pooled values per batch element. -/
import proofs.«159686_g2000604559473765_pallasbulk_680_3_alg».proof.Proof.RefHeadDef
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.ReferenceIdeal.RHead

open Cert.ReferenceIdeal Cert.ReferenceIdeal.Gen Cert.ReferenceIdeal.Body Cert.KernelIdeal.KVal Idealize.ShloMosaic Idealize.ShloMosaic.ValueIdx

/-! ## The steps as named terms -/

def rrow0 (Y : FVec Ideal S32x8x256 .f32) : FVec Ideal S32x256 .f32 :=
  shapeCast S32x256 (extractStridedSlice S32x1x256 ![0, 0, 0] Y slices_S32x8x256_o0_0_0_S32x1x256) shapeCasts_S32x1x256_S32x256

def rrow1 (Y : FVec Ideal S32x8x256 .f32) : FVec Ideal S32x256 .f32 :=
  shapeCast S32x256 (extractStridedSlice S32x1x256 ![0, 1, 0] Y slices_S32x8x256_o0_1_0_S32x1x256) shapeCasts_S32x1x256_S32x256

def rrow2 (Y : FVec Ideal S32x8x256 .f32) : FVec Ideal S32x256 .f32 :=
  shapeCast S32x256 (extractStridedSlice S32x1x256 ![0, 2, 0] Y slices_S32x8x256_o0_2_0_S32x1x256) shapeCasts_S32x1x256_S32x256

def rrow3 (Y : FVec Ideal S32x8x256 .f32) : FVec Ideal S32x256 .f32 :=
  shapeCast S32x256 (extractStridedSlice S32x1x256 ![0, 3, 0] Y slices_S32x8x256_o0_3_0_S32x1x256) shapeCasts_S32x1x256_S32x256

def rrow4 (Y : FVec Ideal S32x8x256 .f32) : FVec Ideal S32x256 .f32 :=
  shapeCast S32x256 (extractStridedSlice S32x1x256 ![0, 4, 0] Y slices_S32x8x256_o0_4_0_S32x1x256) shapeCasts_S32x1x256_S32x256

def rrow5 (Y : FVec Ideal S32x8x256 .f32) : FVec Ideal S32x256 .f32 :=
  shapeCast S32x256 (extractStridedSlice S32x1x256 ![0, 5, 0] Y slices_S32x8x256_o0_5_0_S32x1x256) shapeCasts_S32x1x256_S32x256

def rrow6 (Y : FVec Ideal S32x8x256 .f32) : FVec Ideal S32x256 .f32 :=
  shapeCast S32x256 (extractStridedSlice S32x1x256 ![0, 6, 0] Y slices_S32x8x256_o0_6_0_S32x1x256) shapeCasts_S32x1x256_S32x256

def rrow7 (Y : FVec Ideal S32x8x256 .f32) : FVec Ideal S32x256 .f32 :=
  shapeCast S32x256 (extractStridedSlice S32x1x256 ![0, 7, 0] Y slices_S32x8x256_o0_7_0_S32x1x256) shapeCasts_S32x1x256_S32x256

/-- The larger of rows 0 and 1 of every batch element. -/
def rrowMax0 (Y : FVec Ideal S32x8x256 .f32) : FVec Ideal S32x256 .f32 := maximumf (rrow0 Y) (rrow1 Y)

/-- The larger of rows 2 and 3 of every batch element. -/
def rrowMax1 (Y : FVec Ideal S32x8x256 .f32) : FVec Ideal S32x256 .f32 := maximumf (rrow2 Y) (rrow3 Y)

/-- The larger of rows 4 and 5 of every batch element. -/
def rrowMax2 (Y : FVec Ideal S32x8x256 .f32) : FVec Ideal S32x256 .f32 := maximumf (rrow4 Y) (rrow5 Y)

/-- The larger of rows 6 and 7 of every batch element. -/
def rrowMax3 (Y : FVec Ideal S32x8x256 .f32) : FVec Ideal S32x256 .f32 := maximumf (rrow6 Y) (rrow7 Y)

/-- The larger of the 32 lanes from 0 and the 32 lanes from 32. -/
def rpiece0 (M : FVec Ideal S32x256 .f32) : FVec Ideal S32x32 .f32 :=
  maximumf (extractStridedSlice S32x32 ![0, 0] M slices_S32x256_o0_0_S32x32)
    (extractStridedSlice S32x32 ![0, 32] M slices_S32x256_o0_32_S32x32)

/-- The larger of the 32 lanes from 64 and the 32 lanes from 96. -/
def rpiece1 (M : FVec Ideal S32x256 .f32) : FVec Ideal S32x32 .f32 :=
  maximumf (extractStridedSlice S32x32 ![0, 64] M slices_S32x256_o0_64_S32x32)
    (extractStridedSlice S32x32 ![0, 96] M slices_S32x256_o0_96_S32x32)

/-- The larger of the 32 lanes from 128 and the 32 lanes from 160. -/
def rpiece2 (M : FVec Ideal S32x256 .f32) : FVec Ideal S32x32 .f32 :=
  maximumf (extractStridedSlice S32x32 ![0, 128] M slices_S32x256_o0_128_S32x32)
    (extractStridedSlice S32x32 ![0, 160] M slices_S32x256_o0_160_S32x32)

/-- The larger of the 32 lanes from 192 and the 32 lanes from 224. -/
def rpiece3 (M : FVec Ideal S32x256 .f32) : FVec Ideal S32x32 .f32 :=
  maximumf (extractStridedSlice S32x32 ![0, 192] M slices_S32x256_o0_192_S32x32)
    (extractStridedSlice S32x32 ![0, 224] M slices_S32x256_o0_224_S32x32)

/-- The sixteen pooled pieces side by side: 512 pooled values per batch element. -/
def pooledT (Y : FVec Ideal S32x8x256 .f32) : FVec Ideal S32x512 .f32 :=
  concatenate S32x512 1 [⟨S32x32, rpiece0 (rrowMax0 Y)⟩, ⟨S32x32, rpiece1 (rrowMax0 Y)⟩, ⟨S32x32, rpiece2 (rrowMax0 Y)⟩, ⟨S32x32, rpiece3 (rrowMax0 Y)⟩, ⟨S32x32, rpiece0 (rrowMax1 Y)⟩, ⟨S32x32, rpiece1 (rrowMax1 Y)⟩, ⟨S32x32, rpiece2 (rrowMax1 Y)⟩, ⟨S32x32, rpiece3 (rrowMax1 Y)⟩, ⟨S32x32, rpiece0 (rrowMax2 Y)⟩, ⟨S32x32, rpiece1 (rrowMax2 Y)⟩, ⟨S32x32, rpiece2 (rrowMax2 Y)⟩, ⟨S32x32, rpiece3 (rrowMax2 Y)⟩, ⟨S32x32, rpiece0 (rrowMax3 Y)⟩, ⟨S32x32, rpiece1 (rrowMax3 Y)⟩, ⟨S32x32, rpiece2 (rrowMax3 Y)⟩, ⟨S32x32, rpiece3 (rrowMax3 Y)⟩] concatenates_S32x32_S32x32_S32x32_S32x32_S32x32_S32x32_S32x32_S32x32_S32x32_S32x32_S32x32_S32x32_S32x32_S32x32_S32x32_S32x32_S32x512_d1

/-! ## Each step at an entry -/

theorem rrowMax0_apply (Y : FVec Ideal S32x8x256 .f32) (b : Fin 32) (col : Fin 256) :
    rrowMax0 Y (ix2 b col) = max (Y (ix3 b ⟨0, by omega⟩ col)) (Y (ix3 b ⟨1, by omega⟩ col)) := by
  show max (rrow0 Y (ix2 b col)) (rrow1 Y (ix2 b col)) = _
  exact congrArg₂ max (row_slice_apply 0 Y _ _ b col ⟨0, by omega⟩ rfl) (row_slice_apply 1 Y _ _ b col ⟨1, by omega⟩ rfl)

theorem rrowMax1_apply (Y : FVec Ideal S32x8x256 .f32) (b : Fin 32) (col : Fin 256) :
    rrowMax1 Y (ix2 b col) = max (Y (ix3 b ⟨2, by omega⟩ col)) (Y (ix3 b ⟨3, by omega⟩ col)) := by
  show max (rrow2 Y (ix2 b col)) (rrow3 Y (ix2 b col)) = _
  exact congrArg₂ max (row_slice_apply 2 Y _ _ b col ⟨2, by omega⟩ rfl) (row_slice_apply 3 Y _ _ b col ⟨3, by omega⟩ rfl)

theorem rrowMax2_apply (Y : FVec Ideal S32x8x256 .f32) (b : Fin 32) (col : Fin 256) :
    rrowMax2 Y (ix2 b col) = max (Y (ix3 b ⟨4, by omega⟩ col)) (Y (ix3 b ⟨5, by omega⟩ col)) := by
  show max (rrow4 Y (ix2 b col)) (rrow5 Y (ix2 b col)) = _
  exact congrArg₂ max (row_slice_apply 4 Y _ _ b col ⟨4, by omega⟩ rfl) (row_slice_apply 5 Y _ _ b col ⟨5, by omega⟩ rfl)

theorem rrowMax3_apply (Y : FVec Ideal S32x8x256 .f32) (b : Fin 32) (col : Fin 256) :
    rrowMax3 Y (ix2 b col) = max (Y (ix3 b ⟨6, by omega⟩ col)) (Y (ix3 b ⟨7, by omega⟩ col)) := by
  show max (rrow6 Y (ix2 b col)) (rrow7 Y (ix2 b col)) = _
  exact congrArg₂ max (row_slice_apply 6 Y _ _ b col ⟨6, by omega⟩ rfl) (row_slice_apply 7 Y _ _ b col ⟨7, by omega⟩ rfl)

theorem rpiece0_apply (M : FVec Ideal S32x256 .f32) (b : Fin 32) (ch : Fin 32) :
    rpiece0 M (ix2 b ch) = max (M (ix2 b ⟨0 + ch.val, by omega⟩)) (M (ix2 b ⟨32 + ch.val, by omega⟩)) :=
  slice_pair_max 0 32 M _ _ b ch ⟨0 + ch.val, by omega⟩ ⟨32 + ch.val, by omega⟩ rfl rfl

theorem rpiece1_apply (M : FVec Ideal S32x256 .f32) (b : Fin 32) (ch : Fin 32) :
    rpiece1 M (ix2 b ch) = max (M (ix2 b ⟨64 + ch.val, by omega⟩)) (M (ix2 b ⟨96 + ch.val, by omega⟩)) :=
  slice_pair_max 64 96 M _ _ b ch ⟨64 + ch.val, by omega⟩ ⟨96 + ch.val, by omega⟩ rfl rfl

theorem rpiece2_apply (M : FVec Ideal S32x256 .f32) (b : Fin 32) (ch : Fin 32) :
    rpiece2 M (ix2 b ch) = max (M (ix2 b ⟨128 + ch.val, by omega⟩)) (M (ix2 b ⟨160 + ch.val, by omega⟩)) :=
  slice_pair_max 128 160 M _ _ b ch ⟨128 + ch.val, by omega⟩ ⟨160 + ch.val, by omega⟩ rfl rfl

theorem rpiece3_apply (M : FVec Ideal S32x256 .f32) (b : Fin 32) (ch : Fin 32) :
    rpiece3 M (ix2 b ch) = max (M (ix2 b ⟨192 + ch.val, by omega⟩)) (M (ix2 b ⟨224 + ch.val, by omega⟩)) :=
  slice_pair_max 192 224 M _ _ b ch ⟨192 + ch.val, by omega⟩ ⟨224 + ch.val, by omega⟩ rfl rfl

/-- Piece 4ph + pw at (b, ch) is the 2x2 maximum at (ph, pw) of channel ch over batch element b's rows. -/
theorem rpieces_apply (Y : FVec Ideal S32x8x256 .f32) (b : Fin 32) (n : Fin 16) (ch : Fin 32) :
    (![rpiece0 (rrowMax0 Y), rpiece1 (rrowMax0 Y), rpiece2 (rrowMax0 Y), rpiece3 (rrowMax0 Y), rpiece0 (rrowMax1 Y), rpiece1 (rrowMax1 Y), rpiece2 (rrowMax1 Y), rpiece3 (rrowMax1 Y), rpiece0 (rrowMax2 Y), rpiece1 (rrowMax2 Y), rpiece2 (rrowMax2 Y), rpiece3 (rrowMax2 Y), rpiece0 (rrowMax3 Y), rpiece1 (rrowMax3 Y), rpiece2 (rrowMax3 Y), rpiece3 (rrowMax3 Y)] : Fin 16 → FVec Ideal S32x32 .f32) n (ix2 b ch)
      = Cert.KernelIdeal.KVal.pool (fun h col => Y (ix3 b h col)) ⟨n.val / 4, by omega⟩ ⟨n.val % 4, by omega⟩ ch := by
  match n with
  | ⟨0, _⟩ =>
    show rpiece0 (rrowMax0 Y) (ix2 b ch) = _
    rw [rpiece0_apply, rrowMax0_apply, rrowMax0_apply]
    simp only [Cert.KernelIdeal.KVal.pool]
  | ⟨1, _⟩ =>
    show rpiece1 (rrowMax0 Y) (ix2 b ch) = _
    rw [rpiece1_apply, rrowMax0_apply, rrowMax0_apply]
    simp only [Cert.KernelIdeal.KVal.pool]
  | ⟨2, _⟩ =>
    show rpiece2 (rrowMax0 Y) (ix2 b ch) = _
    rw [rpiece2_apply, rrowMax0_apply, rrowMax0_apply]
    simp only [Cert.KernelIdeal.KVal.pool]
  | ⟨3, _⟩ =>
    show rpiece3 (rrowMax0 Y) (ix2 b ch) = _
    rw [rpiece3_apply, rrowMax0_apply, rrowMax0_apply]
    simp only [Cert.KernelIdeal.KVal.pool]
  | ⟨4, _⟩ =>
    show rpiece0 (rrowMax1 Y) (ix2 b ch) = _
    rw [rpiece0_apply, rrowMax1_apply, rrowMax1_apply]
    simp only [Cert.KernelIdeal.KVal.pool]
  | ⟨5, _⟩ =>
    show rpiece1 (rrowMax1 Y) (ix2 b ch) = _
    rw [rpiece1_apply, rrowMax1_apply, rrowMax1_apply]
    simp only [Cert.KernelIdeal.KVal.pool]
  | ⟨6, _⟩ =>
    show rpiece2 (rrowMax1 Y) (ix2 b ch) = _
    rw [rpiece2_apply, rrowMax1_apply, rrowMax1_apply]
    simp only [Cert.KernelIdeal.KVal.pool]
  | ⟨7, _⟩ =>
    show rpiece3 (rrowMax1 Y) (ix2 b ch) = _
    rw [rpiece3_apply, rrowMax1_apply, rrowMax1_apply]
    simp only [Cert.KernelIdeal.KVal.pool]
  | ⟨8, _⟩ =>
    show rpiece0 (rrowMax2 Y) (ix2 b ch) = _
    rw [rpiece0_apply, rrowMax2_apply, rrowMax2_apply]
    simp only [Cert.KernelIdeal.KVal.pool]
  | ⟨9, _⟩ =>
    show rpiece1 (rrowMax2 Y) (ix2 b ch) = _
    rw [rpiece1_apply, rrowMax2_apply, rrowMax2_apply]
    simp only [Cert.KernelIdeal.KVal.pool]
  | ⟨10, _⟩ =>
    show rpiece2 (rrowMax2 Y) (ix2 b ch) = _
    rw [rpiece2_apply, rrowMax2_apply, rrowMax2_apply]
    simp only [Cert.KernelIdeal.KVal.pool]
  | ⟨11, _⟩ =>
    show rpiece3 (rrowMax2 Y) (ix2 b ch) = _
    rw [rpiece3_apply, rrowMax2_apply, rrowMax2_apply]
    simp only [Cert.KernelIdeal.KVal.pool]
  | ⟨12, _⟩ =>
    show rpiece0 (rrowMax3 Y) (ix2 b ch) = _
    rw [rpiece0_apply, rrowMax3_apply, rrowMax3_apply]
    simp only [Cert.KernelIdeal.KVal.pool]
  | ⟨13, _⟩ =>
    show rpiece1 (rrowMax3 Y) (ix2 b ch) = _
    rw [rpiece1_apply, rrowMax3_apply, rrowMax3_apply]
    simp only [Cert.KernelIdeal.KVal.pool]
  | ⟨14, _⟩ =>
    show rpiece2 (rrowMax3 Y) (ix2 b ch) = _
    rw [rpiece2_apply, rrowMax3_apply, rrowMax3_apply]
    simp only [Cert.KernelIdeal.KVal.pool]
  | ⟨15, _⟩ =>
    show rpiece3 (rrowMax3 Y) (ix2 b ch) = _
    rw [rpiece3_apply, rrowMax3_apply, rrowMax3_apply]
    simp only [Cert.KernelIdeal.KVal.pool]
  | ⟨k + 16, hk⟩ => exact absurd hk (by omega)

/-- Pooled value p of batch element b. -/
theorem pooledT_apply (Y : FVec Ideal S32x8x256 .f32) (b : Fin 32) (p : Fin 512) :
    pooledT Y (ix2 b p) = pooled (fun h col => Y (ix3 b h col)) p := by
  unfold pooledT
  refine (concat16_apply (rpiece0 (rrowMax0 Y)) (rpiece1 (rrowMax0 Y)) (rpiece2 (rrowMax0 Y)) (rpiece3 (rrowMax0 Y)) (rpiece0 (rrowMax1 Y)) (rpiece1 (rrowMax1 Y)) (rpiece2 (rrowMax1 Y)) (rpiece3 (rrowMax1 Y)) (rpiece0 (rrowMax2 Y)) (rpiece1 (rrowMax2 Y)) (rpiece2 (rrowMax2 Y)) (rpiece3 (rrowMax2 Y)) (rpiece0 (rrowMax3 Y)) (rpiece1 (rrowMax3 Y)) (rpiece2 (rrowMax3 Y)) (rpiece3 (rrowMax3 Y)) _ b p ⟨p.val / 32, by omega⟩ rfl ⟨p.val % 32, by omega⟩ rfl).trans ?_
  rw [rpieces_apply Y b ⟨p.val / 32, by omega⟩ ⟨p.val % 32, by omega⟩]
  unfold pooled
  congr 1
  exact Fin.ext (by show p.val / 32 / 4 = p.val / 128; omega)

end Cert.ReferenceIdeal.RHead

end
-- ==== Proof.RHDense.lean ====
/- The dense part of the head on one tile, read at one entry.
   The 512 pooled values of each batch element, rounded to bf16 (the identity on exact values), go
   through a 512x64 product into a zero accumulator, a bias row and a clamp at zero: 64 hidden values.
   Those times a 64-wide weight row, added over the lanes, plus one bias entry, give one number per
   batch element. -/
import proofs.«159686_g2000604559473765_pallasbulk_680_3_alg».proof.Proof.RefHeadDef
import proofs.«159686_g2000604559473765_pallasbulk_680_3_alg».proof.Proof.KVOps
import proofs.«159686_g2000604559473765_pallasbulk_680_3_alg».proof.Proof.KVSpec

set_option maxRecDepth 16384

noncomputable section

open scoped BigOperators

namespace Cert.ReferenceIdeal.RHead

open Cert.ReferenceIdeal Cert.ReferenceIdeal.Gen Cert.ReferenceIdeal.Body Cert.KernelIdeal.KVal Idealize.ShloMosaic Idealize.ShloMosaic.ValueIdx

/-! ## The steps as named terms -/

/-- The 64 hidden values of every batch element of the tile. -/
def hidT (L : FVec Ideal S32x512 .f32) (W1 : FVec Ideal S512x64 .bf16) (B1 : FVec Ideal S1x64 .f32) : FVec Ideal S32x64 .f32 :=
  maximumf (addf (matmul dot_S32x512_S512x64_S32x64_1_0_0_1_n_n none (truncf .bf16 L bitsLt_bf16_f32) W1 (constant S32x64 .f32 0x00000000#32))
      (broadcastTo S32x64 B1 broadcasts_S1x64_S32x64))
    (broadcast S32x64 (Scalar.ofBits .f32 0x00000000#32))

/-- The output number of every batch element of the tile, as a [32,1] column. -/
def outT (L : FVec Ideal S32x512 .f32) (W1 : FVec Ideal S512x64 .bf16) (B1 : FVec Ideal S1x64 .f32) (w2 : Vec Ideal S1x64 .f32)
    (B2 : FVec Ideal S1x1 .f32) : FVec Ideal S32x1 .f32 :=
  addf (shapeCast S32x1 (multiReduction .add [1] S32 (mulf (hidT L W1 B1) (broadcastTo S32x64 w2 broadcasts_S1x64_S32x64))
      0x00000000#32 reduces_S32x64_S32 (.inl rfl) rfl) shapeCasts_S32_S32x1)
    (broadcastTo S32x1 B2 broadcasts_S1x1_S32x1)

/-- The stored block: the hidden values beside the output number repeated across 64 lanes. -/
def blockT (L : FVec Ideal S32x512 .f32) (W1 : FVec Ideal S512x64 .bf16) (B1 : FVec Ideal S1x64 .f32) (w2 : Vec Ideal S1x64 .f32)
    (B2 : FVec Ideal S1x1 .f32) : FVec Ideal S32x128 .f32 :=
  concatenate S32x128 1 [⟨S32x64, hidT L W1 B1⟩,
    ⟨S32x64, broadcastTo S32x64 (shapeCast S32x1 (outT L W1 B1 w2 B2) shapeCasts_S32x1_S32x1) broadcasts_S32x1_S32x64⟩]
    concatenates_S32x64_S32x64_S32x128_d1

/-! ## Each step at an entry -/

/-- The product at (b, j): the pooled values of batch element b against column j of the weight. -/
theorem mmT_apply (L : FVec Ideal S32x512 .f32) (W1 : FVec Ideal S512x64 .bf16) (b : Fin 32) (j : Fin 64) :
    matmul dot_S32x512_S512x64_S32x64_1_0_0_1_n_n none (truncf .bf16 L bitsLt_bf16_f32) W1 (constant S32x64 .f32 0x00000000#32) (ix2 b j)
      = ∑ p : Fin 512, L (ix2 b p) * W1 (ix2 p j) :=
  matmul_plain_zero_apply dot_S32x512_S512x64_S32x64_1_0_0_1_n_n_wf none _ _ b j

theorem hidT_apply (L : FVec Ideal S32x512 .f32) (W1 : FVec Ideal S512x64 .bf16) (B1 : FVec Ideal S1x64 .f32) (b : Fin 32) (j : Fin 64) :
    hidT L W1 B1 (ix2 b j)
      = max ((∑ p : Fin 512, L (ix2 b p) * W1 (ix2 p j)) + B1 (ix2 0 j)) (Ideal.ofBits .f32 0x00000000#32) := by
  show max (matmul dot_S32x512_S512x64_S32x64_1_0_0_1_n_n none (truncf .bf16 L bitsLt_bf16_f32) W1 (constant S32x64 .f32 0x00000000#32) (ix2 b j)
      + broadcastTo S32x64 B1 broadcasts_S1x64_S32x64 (ix2 b j))
    (Ideal.ofBits .f32 0x00000000#32) = _
  rw [mmT_apply, bcast_rows_apply (by decide) B1 broadcasts_S1x64_S32x64 b j]

theorem outT_apply (L : FVec Ideal S32x512 .f32) (W1 : FVec Ideal S512x64 .bf16) (B1 : FVec Ideal S1x64 .f32) (w2 : Vec Ideal S1x64 .f32)
    (B2 : FVec Ideal S1x1 .f32) (b : Fin 32) :
    outT L W1 B1 w2 B2 (ix2 b 0) = (∑ j : Fin 64, hidT L W1 B1 (ix2 b j) * w2 (ix2 0 j)) + B2 (ix2 0 0) := by
  show shapeCast S32x1 (multiReduction .add [1] S32 (mulf (hidT L W1 B1) (broadcastTo S32x64 w2 broadcasts_S1x64_S32x64))
        0x00000000#32 reduces_S32x64_S32 (.inl rfl) rfl) shapeCasts_S32_S32x1 (ix2 b 0)
      + broadcastTo S32x1 B2 broadcasts_S1x1_S32x1 (ix2 b 0) = _
  rw [bcast_one_apply B2 broadcasts_S1x1_S32x1 b]
  refine congrArg (· + B2 (ix2 0 0)) ?_
  refine (lane_sum_apply _ reduces_S32x64_S32 (.inl rfl) rfl shapeCasts_S32_S32x1 b).trans ?_
  refine Finset.sum_congr rfl fun j _ => ?_
  show hidT L W1 B1 (ix2 b j) * broadcastTo S32x64 w2 broadcasts_S1x64_S32x64 (ix2 b j) = _
  rw [bcast_rows_apply (by decide) w2 broadcasts_S1x64_S32x64 b j]

/-- Lanes 0..63 of the stored block are the hidden values. -/
theorem blockT_left (L : FVec Ideal S32x512 .f32) (W1 : FVec Ideal S512x64 .bf16) (B1 : FVec Ideal S1x64 .f32) (w2 : Vec Ideal S1x64 .f32)
    (B2 : FVec Ideal S1x1 .f32) (b : Fin 32) (col : Fin 128) (h : col.val < 64) :
    blockT L W1 B1 w2 B2 (ix2 b col) = hidT L W1 B1 (ix2 b ⟨col.val, h⟩) :=
  concat2_left _ _ concatenates_S32x64_S32x64_S32x128_d1 b col ⟨col.val, h⟩ rfl

/-- Lanes 64..127 of the stored block are the output number. -/
theorem blockT_right (L : FVec Ideal S32x512 .f32) (W1 : FVec Ideal S512x64 .bf16) (B1 : FVec Ideal S1x64 .f32) (w2 : Vec Ideal S1x64 .f32)
    (B2 : FVec Ideal S1x1 .f32) (b : Fin 32) (col : Fin 128) (h : ¬ col.val < 64) :
    blockT L W1 B1 w2 B2 (ix2 b col) = outT L W1 B1 w2 B2 (ix2 b 0) := by
  unfold blockT
  refine (concat2_right _ _ concatenates_S32x64_S32x64_S32x128_d1 b col ⟨col.val - 64, by omega⟩ (by show col.val - 64 + 64 = col.val; omega)).trans ?_
  refine (bcast_col_apply _ broadcasts_S32x1_S32x64 b _).trans ?_
  rw [shapeCast_self]

/-- The block at an entry, from the pooled values' normal form: if row b of L holds the pooled values of Y,
    row b of the block holds the head's 128 values of Y. -/
theorem blockT_apply (L : FVec Ideal S32x512 .f32) (W1 : FVec Ideal S512x64 .bf16) (B1 : FVec Ideal S1x64 .f32) (w2 : Vec Ideal S1x64 .f32)
    (B2 : FVec Ideal S1x1 .f32) (b : Fin 32) (col : Fin 128) (Y : Fin 8 → Fin 256 → EReal)
    (hL : ∀ p : Fin 512, L (ix2 b p) = pooled Y p) :
    blockT L W1 B1 w2 B2 (ix2 b col) = headVal Y W1 B1 w2 B2 col := by
  have hhid : ∀ j : Fin 64, hidT L W1 B1 (ix2 b j) = Cert.KernelIdeal.KVal.hidden Y W1 B1 j := by
    intro j
    rw [hidT_apply]
    unfold Cert.KernelIdeal.KVal.hidden
    simp only [hL]
  unfold Cert.KernelIdeal.KVal.headVal
  split
  · rename_i h
    rw [blockT_left _ _ _ _ _ b col h, hhid]
  · rename_i h
    rw [blockT_right _ _ _ _ _ b col h, outT_apply]
    unfold Cert.KernelIdeal.KVal.logit
    simp only [hhid]

end Cert.ReferenceIdeal.RHead

end
-- ==== Proof.RHHead.lean ====
/- The head on one tile at one entry.
   The head's block is the dense part applied to the pooling of the normalized tile; reading the three
   parts at an entry gives, for row b of the block and lane col, the value headVal of the batch element
   whose 8 rows are rows 8b .. 8b+7 of the tile, each value first sent through the affine map of its
   channel (lane % 32) and the clamp at zero. -/
import proofs.«159686_g2000604559473765_pallasbulk_680_3_alg».proof.Proof.RHNorm
import proofs.«159686_g2000604559473765_pallasbulk_680_3_alg».proof.Proof.RHPool
import proofs.«159686_g2000604559473765_pallasbulk_680_3_alg».proof.Proof.RHDense

set_option maxRecDepth 16384

noncomputable section

open scoped BigOperators

namespace Cert.ReferenceIdeal.RHead

open Cert.ReferenceIdeal Cert.ReferenceIdeal.Gen Cert.ReferenceIdeal.Body Cert.KernelIdeal.KVal Idealize.ShloMosaic Idealize.ShloMosaic.ValueIdx

/-- The head is the dense part of the pooling of the normalized tile. -/
theorem headOf_eq (A D : FVec Ideal S1x256 .f32) (W1 : FVec Ideal S512x64 .bf16) (B1 : FVec Ideal S1x64 .f32) (w2 : Vec Ideal S1x64 .f32)
    (B2 : FVec Ideal S1x1 .f32) (y : Vec Ideal S256x256 .f32) :
    headOf (F := Ideal) A D W1 B1 w2 B2 y = blockT (pooledT (k0_pay40 (F := Ideal) A D y)) W1 B1 w2 B2 := rfl

/-- The head at an entry, for any scale and shift rows: the head's 128 values of the normalized rows of batch element b. -/
theorem headOf_gen (A D : FVec Ideal S1x256 .f32) (W1 : FVec Ideal S512x64 .bf16) (B1 : FVec Ideal S1x64 .f32) (w2 : Vec Ideal S1x64 .f32)
    (B2 : FVec Ideal S1x1 .f32) (y : Vec Ideal S256x256 .f32) (b : Fin 32) (col : Fin 128) :
    headOf (F := Ideal) A D W1 B1 w2 B2 y (ix2 b col)
      = headVal (fun (h : Fin 8) (cc : Fin 256) => k0_pay40 (F := Ideal) A D y (ix3 b h cc)) W1 B1 w2 B2 col := by
  rw [headOf_eq]
  exact blockT_apply _ W1 B1 w2 B2 b col _ (fun p => pooledT_apply (k0_pay40 (F := Ideal) A D y) b p)

theorem pay7_eq (x6 : Vec Ideal S512x64 .bf16) : k0_pay7 (F := Ideal) x6 = x6 := shapeCast_self x6 shapeCasts_S512x64_S512x64
theorem pay8_eq (x7 : Vec Ideal S1x64 .f32) : k0_pay8 (F := Ideal) x7 = x7 := shapeCast_self x7 shapeCasts_S1x64_S1x64
theorem pay9_eq (x9 : Vec Ideal S1x1 .f32) : k0_pay9 (F := Ideal) x9 = x9 := shapeCast_self x9 shapeCasts_S1x1_S1x1

/-- THE HEAD AT AN ENTRY. With the scale and shift rows of the batch sums S1 (of the convolution output) and S2 (of its
    squares), gamma x4 and beta x5: row b, lane col of the head of tile y is headVal Y x6 x7 x8 x9 col, where
    Y h cc = affRelu (S1 ch) (S2 ch) (x4 ch) (x5 ch) (y (8b + h, cc)) with ch = cc % 32 is row h (of 8), lane cc (of 256)
    of batch element b after the affine map of its channel and the clamp at zero. -/
theorem headOf_apply (S1 S2 x4 x5 : Vec Ideal S1x32 .f32) (x6 : Vec Ideal S512x64 .bf16) (x7 x8 : Vec Ideal S1x64 .f32)
    (x9 : Vec Ideal S1x1 .f32) (y : Vec Ideal S256x256 .f32) (b : Fin 32) (col : Fin 128) :
    headOf (F := Ideal) (k0_pay5 (F := Ideal) S1 S2 x4) (k0_pay6 (F := Ideal) S1 S2 x4 x5) (k0_pay7 (F := Ideal) x6) (k0_pay8 (F := Ideal) x7) x8
        (k0_pay9 (F := Ideal) x9) y (ix2 b col)
      = headVal (fun (h : Fin 8) (cc : Fin 256) => affRelu (S1 (ix2 0 ⟨cc.val % 32, by omega⟩)) (S2 (ix2 0 ⟨cc.val % 32, by omega⟩)) (x4 (ix2 0 ⟨cc.val % 32, by omega⟩)) (x5 (ix2 0 ⟨cc.val % 32, by omega⟩)) (y (ix2 ⟨8 * b.val + h.val, by omega⟩ cc))) x6 x7 x8 x9 col := by
  have hY : (fun (h : Fin 8) (cc : Fin 256) => k0_pay40 (F := Ideal) (k0_pay5 (F := Ideal) S1 S2 x4) (k0_pay6 (F := Ideal) S1 S2 x4 x5) y (ix3 b h cc))
      = (fun (h : Fin 8) (cc : Fin 256) => affRelu (S1 (ix2 0 ⟨cc.val % 32, by omega⟩)) (S2 (ix2 0 ⟨cc.val % 32, by omega⟩)) (x4 (ix2 0 ⟨cc.val % 32, by omega⟩)) (x5 (ix2 0 ⟨cc.val % 32, by omega⟩)) (y (ix2 ⟨8 * b.val + h.val, by omega⟩ cc))) :=
    funext fun h => funext fun cc => act_apply S1 S2 x4 x5 y b h cc
  rw [headOf_gen, hY, pay7_eq, pay8_eq, pay9_eq]

end Cert.ReferenceIdeal.RHead

end
-- ==== Proof.BridgeCore.lean ====
import proofs.«159686_g2000604559473765_pallasbulk_680_3_alg».proof.Proof.RHHead

set_option maxRecDepth 16384

noncomputable section

open scoped BigOperators

/-! The two programs' heads on one batch element agree as soon as their ingredients do: the same two channel sums, the
    same scale and shift inputs, the same weights and biases, and the same eight rows of convolution values. -/

namespace Cert.Bridge
open Idealize.ShloMosaic Idealize.ShloMosaic.ValueIdx
open Cert.KernelIdeal.KVal (headVal bnRelu statSum)
open Cert.ReferenceIdeal.RHead (affRelu bnRelu_eq headOf_apply)
open Cert.ReferenceIdeal.Body (headOf)
open Cert.ReferenceIdeal Cert.ReferenceIdeal.Gen

/-- The reference's head on a tile, at row `B % 32`, against the normal form over whole arrays at batch element `B`. -/
theorem head_core (ST : (⟨3, ![32, 8, 128]⟩ : Shape).Idx → EReal) (CONV : (⟨2, ![8192, 256]⟩ : Shape).Idx → EReal)
    (S1 S2 x4 x5 : Vec Ideal S1x32 .f32) (x6 : Vec Ideal S512x64 .bf16) (x7 x8 : Vec Ideal S1x64 .f32) (x9 : Vec Ideal S1x1 .f32)
    (y : Vec Ideal S256x256 .f32) (B : Fin 1024) (col : Fin 128)
    (hS1 : ∀ ch : Fin 32, S1 (ix2 0 ch) = statSum ST 0 ch) (hS2 : ∀ ch : Fin 32, S2 (ix2 0 ch) = statSum ST 1 ch)
    (hY : ∀ (h : Fin 8) (cc : Fin 256), y (ix2 ⟨8 * (B.val % 32) + h.val, by omega⟩ cc) = CONV (ix2 ⟨8 * B.val + h.val, by omega⟩ cc)) :
    headOf (F := Ideal) (k0_pay5 (F := Ideal) S1 S2 x4) (k0_pay6 (F := Ideal) S1 S2 x4 x5) (k0_pay7 (F := Ideal) x6) (k0_pay8 (F := Ideal) x7) x8 (k0_pay9 (F := Ideal) x9) y (ix2 (⟨B.val % 32, Nat.mod_lt _ (by decide)⟩ : Fin 32) col)
      = headVal (fun (h : Fin 8) (cc : Fin 256) => bnRelu ST x4 x5 ⟨cc.val % 32, by omega⟩ (CONV (ix2 ⟨8 * B.val + h.val, by omega⟩ cc))) x6 x7 x8 x9 col := by
  rw [headOf_apply]
  congr 1
  funext h cc
  rw [bnRelu_eq, hS1, hS2]
  exact congrArg _ (hY h cc)

end Cert.Bridge
end
-- ==== Proof.Bridge.lean ====
import proofs.«159686_g2000604559473765_pallasbulk_680_3_alg».proof.Proof.RefResults
import proofs.«159686_g2000604559473765_pallasbulk_680_3_alg».proof.Proof.KVResults
import proofs.«159686_g2000604559473765_pallasbulk_680_3_alg».proof.Proof.KVSums
import proofs.«159686_g2000604559473765_pallasbulk_680_3_alg».proof.Proof.KBridge
import proofs.«159686_g2000604559473765_pallasbulk_680_3_alg».proof.Proof.RHFold
import proofs.«159686_g2000604559473765_pallasbulk_680_3_alg».proof.Proof.RHArrays
import proofs.«159686_g2000604559473765_pallasbulk_680_3_alg».proof.Proof.BridgeCore

set_option maxRecDepth 16384

noncomputable section

open scoped BigOperators

/-! The two idealized programs, run from memories that agree on the nine arguments, end with equal results.

    Both programs cut the padded input into the same 32 tiles of 32 batch elements and hand each tile, with the same
    weights and bias, to the same convolution: the input blocks of the kernel's convolution region at point `n` and of
    the reference's point `n` are the same functions of the arguments. Hence the lane-dense convolution tiles agree,
    and so do the per-tile column sums; the kernel adds the 32 per-tile sums at once, the reference one after the
    other, which is the same extended real. The head's remaining inputs are the same host terms of the arguments.
    The head itself was read at an entry on both sides into one normal form, so the results agree entry by entry. -/

namespace Cert.Bridge
open Idealize.ShloMosaic Idealize.ShloMosaic.ValueIdx Idealize.ShloMosaic.TcCoe Idealize.SL.Sem
open Cert.KernelIdeal.KVal (headVal bnRelu statSum headOut res21 res22 kpt)
open Cert.ReferenceIdeal.Body (headOf headTile outG stat tileAt tileOf pt t31)
open Cert.ReferenceIdeal.RHead (colSum1 colSum2)

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (c : Dev Cert.KernelIdeal.nD)

include hag

/-! ## The input blocks -/

/-- The padded input tile of point `n`. -/
theorem blk0 (n : Fin 32) : (Cert.KernelIdeal.Gen.iblk0 (Cert.KernelIdeal.Gen.V3 m g) c 0 (kpt n) : Cert.KernelIdeal.S32x10x10x128.Idx → Elt Ideal .bf16)
    = (Cert.ReferenceIdeal.Gen.iblk m' c 0 (pt n.val) : Cert.ReferenceIdeal.S32x10x10x128.Idx → Elt Ideal .bf16) := by
  funext y
  rw [Cert.KernelIdeal.KVal.conv_in0_arg m g c n y, Cert.ReferenceIdeal.RHead.iblk0_host m' c n y, (hag c).1]
  all_goals rfl
/-- The paired tap weights. -/
theorem blk1 (t : Fin Cert.KernelIdeal.cfg0.N) (t' : Fin Cert.ReferenceIdeal.cfg0.N) : (Cert.KernelIdeal.Gen.iblk0 (Cert.KernelIdeal.Gen.V3 m g) c 1 t : Cert.KernelIdeal.S4x256x32.Idx → Elt Ideal .bf16)
    = (Cert.ReferenceIdeal.Gen.iblk m' c 1 t' : Cert.ReferenceIdeal.S4x256x32.Idx → Elt Ideal .bf16) := by
  rw [Cert.KernelIdeal.KVal.conv_in1_arg m g c t, Cert.ReferenceIdeal.RHead.iblk1_host m' c t', (hag c).2.1]
  all_goals rfl
/-- The last tap's weights. -/
theorem blk2 (t : Fin Cert.KernelIdeal.cfg0.N) (t' : Fin Cert.ReferenceIdeal.cfg0.N) : (Cert.KernelIdeal.Gen.iblk0 (Cert.KernelIdeal.Gen.V3 m g) c 2 t : Cert.KernelIdeal.S128x32.Idx → Elt Ideal .bf16)
    = (Cert.ReferenceIdeal.Gen.iblk m' c 2 t' : Cert.ReferenceIdeal.S128x32.Idx → Elt Ideal .bf16) := by
  rw [Cert.KernelIdeal.KVal.conv_in2_arg m g c t, Cert.ReferenceIdeal.RHead.iblk2_host m' c t', (hag c).2.1]
  all_goals rfl
/-- The convolution bias. -/
theorem blk3 (t : Fin Cert.KernelIdeal.cfg0.N) (t' : Fin Cert.ReferenceIdeal.cfg0.N) : (Cert.KernelIdeal.Gen.iblk0 (Cert.KernelIdeal.Gen.V3 m g) c 3 t : Cert.KernelIdeal.S1x32.Idx → Elt Ideal .f32)
    = (Cert.ReferenceIdeal.Gen.iblk m' c 3 t' : Cert.ReferenceIdeal.S1x32.Idx → Elt Ideal .f32) := by
  rw [Cert.KernelIdeal.KVal.conv_in3_arg m g c t, Cert.ReferenceIdeal.RHead.iblk3_host m' c t', (hag c).2.2.1]
  all_goals rfl

/-! ## The head's other inputs -/

theorem in_gamma : (Cert.ReferenceIdeal.Gen.iblk m' c 4 t31 : Cert.ReferenceIdeal.S1x32.Idx → Elt Ideal .f32) = (Cert.KernelIdeal.Gen.V3 m g c Cert.KernelIdeal.main_v11 : Cert.KernelIdeal.S1x32.Idx → Elt Ideal .f32) := by
  rw [Cert.ReferenceIdeal.RHead.iblk4_host m' c t31, Cert.KernelIdeal.KVal.gamma_arr m g c, (hag c).2.2.2.1]
  all_goals rfl
theorem in_beta : (Cert.ReferenceIdeal.Gen.iblk m' c 5 t31 : Cert.ReferenceIdeal.S1x32.Idx → Elt Ideal .f32) = (Cert.KernelIdeal.Gen.V3 m g c Cert.KernelIdeal.main_v12 : Cert.KernelIdeal.S1x32.Idx → Elt Ideal .f32) := by
  rw [Cert.ReferenceIdeal.RHead.iblk5_host m' c t31, Cert.KernelIdeal.KVal.beta_arr m g c, (hag c).2.2.2.2.1]
  all_goals rfl
theorem in_w1 : (Cert.ReferenceIdeal.Gen.iblk m' c 6 t31 : Cert.ReferenceIdeal.S512x64.Idx → Elt Ideal .bf16) = (Cert.KernelIdeal.Gen.V3 m g c Cert.KernelIdeal.main_v16 : Cert.KernelIdeal.S512x64.Idx → Elt Ideal .bf16) := by
  rw [Cert.ReferenceIdeal.RHead.iblk6_host m' c t31, Cert.KernelIdeal.KVal.w1_arr m g c, (hag c).2.2.2.2.2.1]
  all_goals rfl
theorem in_b1 : (Cert.ReferenceIdeal.Gen.iblk m' c 7 t31 : Cert.ReferenceIdeal.S1x64.Idx → Elt Ideal .f32) = (Cert.KernelIdeal.Gen.V3 m g c Cert.KernelIdeal.main_v17 : Cert.KernelIdeal.S1x64.Idx → Elt Ideal .f32) := by
  rw [Cert.ReferenceIdeal.RHead.iblk7_host m' c t31, Cert.KernelIdeal.KVal.b1_arr m g c, (hag c).2.2.2.2.2.2.1]
  all_goals rfl
theorem in_w2 : (Cert.ReferenceIdeal.Gen.iblk m' c 8 t31 : Cert.ReferenceIdeal.S1x64.Idx → Elt Ideal .f32) = (Cert.KernelIdeal.Gen.V3 m g c Cert.KernelIdeal.main_arg7 : Cert.KernelIdeal.S1x64.Idx → Elt Ideal .f32) := by
  rw [Cert.ReferenceIdeal.RHead.iblk8_host m' c t31, Cert.KernelIdeal.KVal.w2_arr m g c, (hag c).2.2.2.2.2.2.2.1]
  all_goals rfl
theorem in_b2 : (Cert.ReferenceIdeal.Gen.iblk m' c 9 t31 : Cert.ReferenceIdeal.S1x1.Idx → Elt Ideal .f32) = (Cert.KernelIdeal.Gen.V3 m g c Cert.KernelIdeal.main_v18 : Cert.KernelIdeal.S1x1.Idx → Elt Ideal .f32) := by
  rw [Cert.ReferenceIdeal.RHead.iblk9_host m' c t31, Cert.KernelIdeal.KVal.b2_arr m g c, (hag c).2.2.2.2.2.2.2.2]
  all_goals rfl

/-! ## The statistics and the convolution values -/

/-- The reference's running sum after the last point is the kernel's sum of the 32 per-tile sums. -/
theorem sum1_eq (ch : Fin 32) : (stat m' c 31).1 (ix2 0 ch) = statSum (Cert.KernelIdeal.Gen.V4 m g c Cert.KernelIdeal.main_v19_1 : Cert.KernelIdeal.S32x8x128.Idx → Elt Ideal .f32) 0 ch := by
  rw [Cert.ReferenceIdeal.RHead.stat1_final m' c ch, Cert.KernelIdeal.KVal.statSum0_eq m g c ch]
  refine Finset.sum_congr rfl fun n _ => ?_
  rw [blk0 m g m' hag c n, blk1 m g m' hag c (kpt n) (pt n.val), blk2 m g m' hag c (kpt n) (pt n.val), blk3 m g m' hag c (kpt n) (pt n.val)]
/-- The same for the sums of squares. -/
theorem sum2_eq (ch : Fin 32) : (stat m' c 31).2 (ix2 0 ch) = statSum (Cert.KernelIdeal.Gen.V4 m g c Cert.KernelIdeal.main_v19_1 : Cert.KernelIdeal.S32x8x128.Idx → Elt Ideal .f32) 1 ch := by
  rw [Cert.ReferenceIdeal.RHead.stat2_final m' c ch, Cert.KernelIdeal.KVal.statSum1_eq m g c ch]
  refine Finset.sum_congr rfl fun n _ => ?_
  rw [blk0 m g m' hag c n, blk1 m g m' hag c (kpt n) (pt n.val), blk2 m g m' hag c (kpt n) (pt n.val), blk3 m g m' hag c (kpt n) (pt n.val)]

/-- Batch element `B`'s eight rows of convolution values: rows `8 (B % 32) …` of tile `B / 32` on the reference's side,
    rows `8 B …` of the whole activation array on the kernel's. -/
theorem conv_eq (B : Fin 1024) (h : Fin 8) (cc : Fin 256) :
    tileAt m' c (B.val / 32) (ix2 ⟨8 * (B.val % 32) + h.val, by omega⟩ cc)
      = (Cert.KernelIdeal.Gen.V4 m g c Cert.KernelIdeal.main_v19_0 : Cert.KernelIdeal.S8192x256.Idx → Elt Ideal .f32) (ix2 ⟨8 * B.val + h.val, by omega⟩ cc) := by
  have hB : B.val / 32 < 32 := by omega
  rw [Cert.KernelIdeal.KVal.conv_at_tile m g c B h cc, blk0 m g m' hag c ⟨B.val / 32, hB⟩, blk1 m g m' hag c (kpt ⟨B.val / 32, hB⟩) (pt (B.val / 32)), blk2 m g m' hag c (kpt ⟨B.val / 32, hB⟩) (pt (B.val / 32)), blk3 m g m' hag c (kpt ⟨B.val / 32, hB⟩) (pt (B.val / 32))]
  rfl

/-! ## The results -/

/-- The reference's output array against the kernel's head value, entry by entry. -/
theorem out_eq (B : Fin 1024) (col : Fin 128) : outG m' c (ix2 B col) = headOut m g c B col := by
  show headTile m' c (B.val / 32) (ix2 (⟨B.val % 32, Nat.mod_lt _ (by decide)⟩ : Fin 32) col) = _
  unfold Cert.ReferenceIdeal.Body.headTile Cert.KernelIdeal.KVal.headOut
  rw [← in_gamma m g m' hag c, ← in_beta m g m' hag c, ← in_w1 m g m' hag c, ← in_b1 m g m' hag c, ← in_w2 m g m' hag c, ← in_b2 m g m' hag c]
  exact head_core (Cert.KernelIdeal.Gen.V4 m g c Cert.KernelIdeal.main_v19_1 : Cert.KernelIdeal.S32x8x128.Idx → Elt Ideal .f32) (Cert.KernelIdeal.Gen.V4 m g c Cert.KernelIdeal.main_v19_0 : Cert.KernelIdeal.S8192x256.Idx → Elt Ideal .f32)
    (stat m' c 31).1 (stat m' c 31).2 (Cert.ReferenceIdeal.Gen.iblk m' c 4 t31) (Cert.ReferenceIdeal.Gen.iblk m' c 5 t31) (Cert.ReferenceIdeal.Gen.iblk m' c 6 t31) (Cert.ReferenceIdeal.Gen.iblk m' c 7 t31) (Cert.ReferenceIdeal.Gen.iblk m' c 8 t31) (Cert.ReferenceIdeal.Gen.iblk m' c 9 t31)
    (tileAt m' c (B.val / 32)) B col (sum1_eq m g m' hag c) (sum2_eq m g m' hag c) (conv_eq m g m' hag c B)

/-- The [1024,1] results agree. -/
theorem ref21_eq : (extractStridedSlice Cert.ReferenceIdeal.S1024x1 ![0, 64] (outG m' c) Cert.ReferenceIdeal.Facts₀.slices_S1024x128_S1024x1_0_64 : (⟨Cert.ReferenceIdeal.S1024x1, .f32⟩ : BufTy).Contents (Elt Ideal)) = res21 m g c := by
  funext i
  have h0 : (i 0).val < 1024 := idx2_lt0 i
  have h1 : (i 1).val < 1 := idx2_lt1 i
  refine (extractStridedSlice_apply _ _ _ i (ix2 ⟨(i 0).val, h0⟩ ⟨64, by omega⟩) fun a => ?_).trans (out_eq m g m' hag c ⟨(i 0).val, h0⟩ ⟨64, by omega⟩)
  match a with
  | ⟨0, _⟩ => show (i 0).val = 0 + (i 0).val; omega
  | ⟨1, _⟩ => show 64 = 64 + (i 1).val; omega

/-- The [1024,64] results agree. -/
theorem ref20_eq : (extractStridedSlice Cert.ReferenceIdeal.S1024x64 ![0, 0] (outG m' c) Cert.ReferenceIdeal.Facts₀.slices_S1024x128_S1024x64_0_0 : (⟨Cert.ReferenceIdeal.S1024x64, .f32⟩ : BufTy).Contents (Elt Ideal)) = res22 m g c := by
  funext i
  have h0 : (i 0).val < 1024 := idx2_lt0 i
  have h1 : (i 1).val < 64 := idx2_lt1 i
  refine (extractStridedSlice_apply _ _ _ i (ix2 ⟨(i 0).val, h0⟩ ⟨(i 1).val, by omega⟩) fun a => ?_).trans (out_eq m g m' hag c ⟨(i 0).val, h0⟩ ⟨(i 1).val, by omega⟩)
  match a with
  | ⟨0, _⟩ => show (i 0).val = 0 + (i 0).val; omega
  | ⟨1, _⟩ => show (i 1).val = 0 + (i 1).val; omega

end Cert.Bridge
end
-- ==== Proof.lean ====
/- The proof of `Cert.Claim`: the three frames, the (empty) ledger of the idealization, and the equality of the two
   idealized programs' results.

   The kernel program runs the convolution in one region (one grid point per tile of 32 batch elements; each point
   writes its lane-dense convolution tile and the tile's per-channel sums and sums of squares) and the head in a second
   region (batch statistics from the 32 partial sums, normalisation, clamp, 2x2 pooling, two dense layers). The
   reference runs ONE region of 32 sequential points: each adds its tile's column sums into two running statistics and
   keeps its tile in a scratch; the last point finalises the statistics and runs the same head over all 32 tiles.
   As extended reals the two agree: the convolution tiles are the same terms, the head is the same function of a tile
   and the statistics, and the statistics differ only in the grouping of one sum over the 32 tiles, which associativity
   and commutativity of addition on the extended reals settle without any finiteness. -/
import proofs.«159686_g2000604559473765_pallasbulk_680_3_alg».proof.Defs
import proofs.«159686_g2000604559473765_pallasbulk_680_3_alg».proof.Proof.Gen.Kernel
import proofs.«159686_g2000604559473765_pallasbulk_680_3_alg».proof.Proof.Gen.Kernel.Skeleton
import proofs.«159686_g2000604559473765_pallasbulk_680_3_alg».proof.Proof.Gen.Kernel.Launch
import proofs.«159686_g2000604559473765_pallasbulk_680_3_alg».proof.Proof.Gen.Kernel.Points
import proofs.«159686_g2000604559473765_pallasbulk_680_3_alg».proof.Proof.Gen.Kernel.Frame
import proofs.«159686_g2000604559473765_pallasbulk_680_3_alg».proof.Proof.Gen.KernelIdeal
import proofs.«159686_g2000604559473765_pallasbulk_680_3_alg».proof.Proof.Gen.KernelIdeal.Skeleton
import proofs.«159686_g2000604559473765_pallasbulk_680_3_alg».proof.Proof.Gen.KernelIdeal.Launch
import proofs.«159686_g2000604559473765_pallasbulk_680_3_alg».proof.Proof.Gen.KernelIdeal.Points
import proofs.«159686_g2000604559473765_pallasbulk_680_3_alg».proof.Proof.Gen.KernelIdeal.Frame
import proofs.«159686_g2000604559473765_pallasbulk_680_3_alg».proof.Proof.Gen.ReferenceIdeal
import proofs.«159686_g2000604559473765_pallasbulk_680_3_alg».proof.Proof.Gen.ReferenceIdeal.Skeleton
import proofs.«159686_g2000604559473765_pallasbulk_680_3_alg».proof.Proof.Gen.ReferenceIdeal.Launch
import proofs.«159686_g2000604559473765_pallasbulk_680_3_alg».proof.Proof.Gen.ReferenceIdeal.Points
import proofs.«159686_g2000604559473765_pallasbulk_680_3_alg».proof.Proof.Gen.ReferenceIdeal.Frame
import proofs.«159686_g2000604559473765_pallasbulk_680_3_alg».proof.Proof.Gen.Pre_finite_inputs
import proofs.«159686_g2000604559473765_pallasbulk_680_3_alg».proof.Proof.RefResults
import proofs.«159686_g2000604559473765_pallasbulk_680_3_alg».proof.Proof.KVResults
import proofs.«159686_g2000604559473765_pallasbulk_680_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Body.frame m ρ,
  trivial,
  fun m g m' g' _ hag =>
    ⟨fun c => Cert.KernelIdeal.KVal.res21 m g c, fun c => Cert.KernelIdeal.KVal.res22 m g c, Cert.KernelIdeal.KVal.results m g,
      (θ_run Cert.ReferenceIdeal.defs _ _).mono
        (fun _ h c => ⟨(h c).1.trans (Cert.Bridge.ref21_eq m g m' hag c), (h c).2.1.trans (Cert.Bridge.ref20_eq m g m' hag c), (h c).2.2⟩)
        (Cert.ReferenceIdeal.Body.results (F := Ideal) m' g')⟩⟩

end Cert.Proof

end
